-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x768x2048 : S_.BroadcastsInDim S64x768x2048 (![] : Fin 0 → Fin S64x768x2048.rank)
  reducesTo_S64x768x2048_S_d0_1_2 : S64x768x2048.ReducesTo [0, 1, 2] S_
  bcast_S_S64x2048x768 : S_.BroadcastsInDim S64x2048x768 (![] : Fin 0 → Fin S64x2048x768.rank)
  reducesTo_S64x2048x768_S_d0_1_2 : S64x2048x768.ReducesTo [0, 1, 2] S_

variable [Facts]

def fn_part1 {F : FTy → Type} [FloatOps F] (main_arg4 : FVec F S64x2048x768 .f32) (main_v13 : IVec S_ 1) (main_v16 : IVec S64x768x2048 1) : IVec S_ 1 :=
  let main_c_5 : IVec S_ 1 := constantI S_ 1 1#1
  let main_v17 : IVec S_ 1 := (fun x v => Host.reduce IntOp.andi x v reducesTo_S64x768x2048_S_d0_1_2 h_S_) main_v16 main_c_5
  let main_v18 : IVec S_ 1 := andi main_v13 main_v17
  let main_v19 : FVec F S64x2048x768 .f32 := Host.absf main_arg4
  let main_cst_6 : FVec F S_ .f32 := constant S_ .f32 0x7F800000#32
  let main_v20 : FVec F S64x2048x768 .f32 := broadcastInDim S64x2048x768 ![] bcast_S_S64x2048x768 main_cst_6
  let main_v21 : IVec S64x2048x768 1 := cmpf .olt main_v19 main_v20
  let main_c_7 : IVec S_ 1 := constantI S_ 1 1#1
  let main_v22 : IVec S_ 1 := (fun x v => Host.reduce IntOp.andi x v reducesTo_S64x2048x768_S_d0_1_2 h_S_) main_v21 main_c_7
  let main_v23 : IVec S_ 1 := andi main_v18 main_v22
  main_v23

def fn {F : FTy → Type} [FloatOps F] (main_arg0 : FVec F S1024x2048 .f32) (main_arg1 : FVec F S1024x8 .f32) (main_arg2 : FVec F S64x768x2048 .f32) (main_arg3 : FVec F S64x768x2048 .f32) (main_arg4 : FVec F S64x2048x768 .f32) (main_arg5 : IVec S1024x8 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x768x2048 .f32 := Host.absf main_arg2
  let main_cst_2 : FVec F S_ .f32 := constant S_ .f32 0x7F800000#32
  let main_v10 : FVec F S64x768x2048 .f32 := broadcastInDim S64x768x2048 ![] bcast_S_S64x768x2048 main_cst_2
  let main_v11 : IVec S64x768x2048 1 := cmpf .olt main_v9 main_v10
  let main_c_3 : IVec S_ 1 := constantI S_ 1 1#1
  let main_v12 : IVec S_ 1 := (fun x v => Host.reduce IntOp.andi x v reducesTo_S64x768x2048_S_d0_1_2 h_S_) main_v11 main_c_3
  let main_v13 : IVec S_ 1 := andi main_v8 main_v12
  let main_v14 : FVec F S64x768x2048 .f32 := Host.absf main_arg3
  let main_cst_4 : FVec F S_ .f32 := constant S_ .f32 0x7F800000#32
  let main_v15 : FVec F S64x768x2048 .f32 := broadcastInDim S64x768x2048 ![] bcast_S_S64x768x2048 main_cst_4
  let main_v16 : IVec S64x768x2048 1 := cmpf .olt main_v14 main_v15
  fn_part1 (F := F) main_arg4 main_v13 main_v16
-- ==== Kernel.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024 : Shape := ⟨1, ![1024]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x257x2048 : Shape := ⟨3, ![64, 257, 2048]⟩
abbrev S8192x2048 : Shape := ⟨2, ![8192, 2048]⟩
abbrev S8192x2 : Shape := ⟨2, ![8192, 2]⟩
abbrev S64x256x2048 : Shape := ⟨3, ![64, 256, 2048]⟩
abbrev S64 : Shape := ⟨1, ![64]⟩
abbrev S1x128x2048 : Shape := ⟨3, ![1, 128, 2048]⟩
abbrev S1x768x2048 : Shape := ⟨3, ![1, 768, 2048]⟩
abbrev S1x2048x768 : Shape := ⟨3, ![1, 2048, 768]⟩
abbrev S1 : Shape := ⟨1, ![1]⟩
abbrev S128x2048 : Shape := ⟨2, ![128, 2048]⟩
abbrev S768x2048 : Shape := ⟨2, ![768, 2048]⟩
abbrev S2048x768 : Shape := ⟨2, ![2048, 768]⟩
abbrev S128x768 : Shape := ⟨2, ![128, 768]⟩

abbrev nBuf : Space → Nat
  | .hbm => 108
  | .vmem => 10
  | .smem => 1
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S64x768x2048, .f32⟩
  | .hbm, ⟨3, _⟩ => ⟨S64x768x2048, .f32⟩
  | .hbm, ⟨4, _⟩ => ⟨S64x2048x768, .f32⟩
  | .hbm, ⟨5, _⟩ => ⟨S1024x8, .i32⟩
  | .hbm, ⟨6, _⟩ => ⟨S8192, .i32⟩
  | .hbm, ⟨7, _⟩ => ⟨S1024, .i32⟩
  | .hbm, ⟨8, _⟩ => ⟨S1024x8, .i32⟩
  | .hbm, ⟨9, _⟩ => ⟨S8192, .i32⟩
  | .hbm, ⟨10, _⟩ => ⟨S8192x1, .i32⟩
  | .hbm, ⟨11, _⟩ => ⟨S1x64, .i32⟩
  | .hbm, ⟨12, _⟩ => ⟨S8192x64, .i32⟩
  | .hbm, ⟨13, _⟩ => ⟨S8192x64, .i32⟩
  | .hbm, ⟨14, _⟩ => ⟨S8192x64, .i1⟩
  | .hbm, ⟨15, _⟩ => ⟨S8192x64, .i32⟩
  | .hbm, ⟨16, _⟩ => ⟨S_, .i32⟩
  | .hbm, ⟨17, _⟩ => ⟨S_, .i32⟩
  | .hbm, ⟨18, _⟩ => ⟨S8192x64, .i32⟩
  | .hbm, ⟨19, _⟩ => ⟨S8192x64, .i32⟩
  | .hbm, ⟨20, _⟩ => ⟨S_, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S64x257x2048, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x2048, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S64x257x2048, .f32⟩
  | .hbm, ⟨61, _⟩ => ⟨S64x256x2048, .f32⟩
  | .hbm, ⟨62, _⟩ => ⟨S64x256x2048, .bf16⟩
  | .hbm, ⟨63, _⟩ => ⟨S_, .i32⟩
  | .hbm, ⟨64, _⟩ => ⟨S64, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S64x256x2048, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S_, .i32⟩
  | .hbm, ⟨91, _⟩ => ⟨S8192, .i32⟩
  | .hbm, ⟨92, _⟩ => ⟨S8192, .i1⟩
  | .hbm, ⟨93, _⟩ => ⟨S_, .i32⟩
  | .hbm, ⟨94, _⟩ => ⟨S8192, .i32⟩
  | .hbm, ⟨95, _⟩ => ⟨S8192, .i32⟩
  | .hbm, ⟨96, _⟩ => ⟨S8192, .i32⟩
  | .hbm, ⟨97, _⟩ => ⟨S8192x1, .i32⟩
  | .hbm, ⟨98, _⟩ => ⟨S8192x1, .i32⟩
  | .hbm, ⟨99, _⟩ => ⟨S8192x2, .i32⟩
  | .hbm, ⟨100, _⟩ => ⟨S8192x2048, .f32⟩
  | .hbm, ⟨101, _⟩ => ⟨S8192x1, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S1024x2048, .f32⟩
  | .hbm, ⟨106, _⟩ => ⟨S8192x1, .i32⟩
  | .hbm, ⟨107, _⟩ => ⟨S1024x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x768x2048, .f32⟩
  | .local _ .vmem, ⟨3, _⟩ => ⟨S1x768x2048, .f32⟩
  | .local _ .vmem, ⟨4, _⟩ => ⟨S1x768x2048, .f32⟩
  | .local _ .vmem, ⟨5, _⟩ => ⟨S1x768x2048, .f32⟩
  | .local _ .vmem, ⟨6, _⟩ => ⟨S1x2048x768, .f32⟩
  | .local _ .vmem, ⟨7, _⟩ => ⟨S1x2048x768, .f32⟩
  | .local _ .vmem, ⟨8, _⟩ => ⟨S1x128x2048, .f32⟩
  | .local _ .vmem, ⟨9, _⟩ => ⟨S1x128x2048, .f32⟩
  | .local _ .smem, ⟨0, _⟩ => ⟨S64, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_call1_call0_c : Ref sig .tc := ⟨.hbm, 16, rfl⟩
abbrev main_call1_call0_v0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_c_10 : Ref sig .tc := ⟨.hbm, 66, rfl⟩
abbrev main_v39 : Ref sig .tc := ⟨.hbm, 67, rfl⟩
abbrev main_v40 : Ref sig .tc := ⟨.hbm, 68, rfl⟩
abbrev main_c_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_16 : Ref sig .tc := ⟨.hbm, 90, rfl⟩
abbrev main_v56 : Ref sig .tc := ⟨.hbm, 91, rfl⟩
abbrev main_v57 : Ref sig .tc := ⟨.hbm, 92, rfl⟩
abbrev main_c_17 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v45 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 2], ![false, false]⟩

abbrev pre0 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) (v2 : BitVec 32) : BitVec 1 :=
  let arg1 : BitVec 32 := BitVec.ofNat 32 (i 1).val
  let c128_i32 : BitVec 32 := 128#32
  let v0 : BitVec 32 := Scalar.muli arg1 c128_i32
  let v3 : BitVec 1 := Scalar.cmpi .slt v0 v2
  let v4 : BitVec 32 := Scalar.extui v3
  let c0_i32 : BitVec 32 := 0#32
  let v5 : BitVec 1 := Scalar.cmpi .ne v4 c0_i32
  v5

def k0_cond2 (i : grid0.Coords) (v2 : BitVec 32) : BitVec 1 :=
  let arg1 : BitVec 32 := BitVec.ofNat 32 (i 1).val
  let c128_i32 : BitVec 32 := 128#32
  let v0 : BitVec 32 := Scalar.muli arg1 c128_i32
  let v3 : BitVec 1 := Scalar.cmpi .slt v0 v2
  let v_true : BitVec 1 := 1#1
  let v6 : BitVec 1 := Scalar.xori v3 v_true
  let v7 : BitVec 32 := Scalar.extui v6
  let c0_i32_0 : BitVec 32 := 0#32
  let v8 : BitVec 1 := Scalar.cmpi .ne v7 c0_i32_0
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S1024x8_S8192 : S1024x8.ShapeCasts S8192
  bcast_S1024_S1024x8_0 : S1024.BroadcastsInDim S1024x8 (![0] : Fin 1 → Fin S1024x8.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x257x2048 : S_.BroadcastsInDim S64x257x2048 (![] : Fin 0 → Fin S64x257x2048.rank)
  concatenates_S8192x1_S8192x1_S8192x2_d1 : Shape.Concatenates [S8192x1, S8192x1] S8192x2 1
  slices_S64x257x2048_S64x256x2048_0_0_0 : S64x257x2048.Slices ![0, 0, 0] S64x256x2048
  bitsLt_bf16_f32 : FTy.bits .bf16 < FTy.bits .f32
  bcast_S_S64 : S_.BroadcastsInDim S64 (![] : Fin 0 → Fin S64.rank)
  numel1_S1 : S1.numel = 1
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  shapeCasts_S128x2048_S1x128x2048 : S128x2048.ShapeCasts S1x128x2048
  bcast_S8192x1_S8192x2048_0_1 : S8192x1.BroadcastsInDim S8192x2048 (![0, 1] : Fin 2 → Fin S8192x2048.rank)
  bcast_S_S1024x2048 : S_.BroadcastsInDim S1024x2048 (![] : Fin 0 → Fin S1024x2048.rank)
  gather_S1024x2048_S8192x1_S8192x2048_1_0_n_n_0_1_12048_wf : GatherDims.WF S1024x2048 S8192x1 S8192x2048 [1] [0] [] [0] [] 1 ![1, 2048]
  scatter_S64x257x2048_S8192x2_S8192x2048_1_01_01_1_wf : ScatterDims.WF S64x257x2048 S8192x2 S8192x2048 [1] [0, 1] [0, 1] 1
  scatter_S64_S8192x1_S8192_n_0_0_1_wf : ScatterDims.WF S64 S8192x1 S8192 [] [0] [0] 1
  dot_S128x2048_S768x2048_S128x768_1_1_0_0_n_n_wf : DotDims.WF S128x2048 S768x2048 S128x768 [1] [1] [0] [0] [] []
  dot_S128x768_S2048x768_S128x2048_1_1_0_0_n_n_wf : DotDims.WF S128x768 S2048x768 S128x2048 [1] [1] [0] [0] [] []
  gather_S64x256x2048_S8192x2_S8192x2048_1_01_n_n_01_1_112048_wf : GatherDims.WF S64x256x2048 S8192x2 S8192x2048 [1] [0, 1] [] [0, 1] [] 1 ![1, 1, 2048]
  scatter_S1024x2048_S8192x1_S8192x2048_1_0_0_1_wf : ScatterDims.WF S1024x2048 S8192x1 S8192x2048 [1] [0] [0] 1
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S64x256x2048.size a
  hwx0_0 : ∀ i : grid0.Coords, EltTy.bits .bf16 = 32 ∨ (Rect.block (s := S64x256x2048) S1x128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x2048.size a ≤ S64x768x2048.size a
  hwx0_1 : ∀ i : grid0.Coords, EltTy.bits .f32 = 32 ∨ (Rect.block (s := S64x768x2048) S1x768x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x2048.size a ≤ S64x768x2048.size a
  hwx0_2 : ∀ i : grid0.Coords, EltTy.bits .f32 = 32 ∨ (Rect.block (s := S64x768x2048) S1x768x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x768.size a ≤ S64x2048x768.size a
  hwx0_3 : ∀ i : grid0.Coords, EltTy.bits .f32 = 32 ∨ (Rect.block (s := S64x2048x768) S1x2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S64x256x2048.size a
  hwx0_4 : ∀ i : grid0.Coords, EltTy.bits .f32 = 32 ∨ (Rect.block (s := S64x256x2048) S1x128x2048.size (cc0_transform_4 i) (hinb0_4 i)).WholeWords (EltTy.packing .f32)

variable [Facts₀]

def gather_S1024x2048_S8192x1_S8192x2048_1_0_n_n_0_1_12048 : GatherDims S1024x2048 S8192x1 S8192x2048 where
  offsetDims := [1]
  collapsedSliceDims := [0]
  operandBatchingDims := []
  startIndicesBatchingDims := []
  startIndexMap := [0]
  indexVectorDim := 1
  sliceSizes := ![1, 2048]
  wf := gather_S1024x2048_S8192x1_S8192x2048_1_0_n_n_0_1_12048_wf
def scatter_S64x257x2048_S8192x2_S8192x2048_1_01_01_1 : ScatterDims S64x257x2048 S8192x2 S8192x2048 where
  updateWindowDims := [1]
  insertedWindowDims := [0, 1]
  scatterDimsToOperandDims := [0, 1]
  indexVectorDim := 1
  wf := scatter_S64x257x2048_S8192x2_S8192x2048_1_01_01_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def dot_S128x2048_S768x2048_S128x768_1_1_0_0_n_n : DotDims S128x2048 S768x2048 S128x768 where
  lhsContracting := [1]
  rhsContracting := [1]
  lhsNonContracting := [0]
  rhsNonContracting := [0]
  lhsBatch := []
  rhsBatch := []
  wf := dot_S128x2048_S768x2048_S128x768_1_1_0_0_n_n_wf
def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf
def scatter_S1024x2048_S8192x1_S8192x2048_1_0_0_1 : ScatterDims S1024x2048 S8192x1 S8192x2048 where
  updateWindowDims := [1]
  insertedWindowDims := [0]
  scatterDimsToOperandDims := [0]
  indexVectorDim := 1
  wf := scatter_S1024x2048_S8192x1_S8192x2048_1_0_0_1_wf

abbrev spec0_0 : Pipeline.WinSpec sig grid0.rank :=
  Pipeline.WinSpec.ofSpec (Memref.whole main_v36) S1x128x2048.size reads0_0 false false 2 stage0_0 sem0_0 nbuf0_0 hstage0_0

abbrev spec0_1 : Pipeline.WinSpec sig grid0.rank :=
  Pipeline.WinSpec.ofSpec (Memref.whole main_arg2) S1x768x2048.size reads0_1 false false 2 stage0_1 sem0_1 nbuf0_1 hstage0_1

abbrev spec0_2 : Pipeline.WinSpec sig grid0.rank :=
  Pipeline.WinSpec.ofSpec (Memref.whole main_arg3) S1x768x2048.size reads0_2 false false 2 stage0_2 sem0_2 nbuf0_2 hstage0_2

abbrev spec0_3 : Pipeline.WinSpec sig grid0.rank :=
  Pipeline.WinSpec.ofSpec (Memref.whole main_arg4) S1x2048x768.size reads0_3 false false 2 stage0_3 sem0_3 nbuf0_3 hstage0_3

abbrev spec0_4 : Pipeline.WinSpec sig grid0.rank :=
  Pipeline.WinSpec.ofSpec (Memref.whole main_v46) S1x128x2048.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev idle0 (pf : pre0.Contents (Elt F)) : Fin 5 → grid0.Coords → Bool := fun | 0 => fun _ => false | 1 => fun _ => false | 2 => fun _ => false | 3 => fun _ => false | 4 => fun i => !(k0_cond1 i (pf.atD 0 (k0_off1 i)) == 1#1) && !(k0_cond2 i (pf.atD 0 (k0_off1 i)) == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S1024x2048 : Shape := ⟨2, ![1024, 2048]⟩
abbrev S1024x8 : Shape := ⟨2, ![1024, 8]⟩
abbrev S64x768x2048 : Shape := ⟨3, ![64, 768, 2048]⟩
abbrev S64x2048x768 : Shape := ⟨3, ![64, 2048, 768]⟩
abbrev S8192 : Shape := ⟨1, ![8192]⟩
abbrev S1024 : Shape := ⟨1, ![1024]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S64x257x2048 : Shape := ⟨3, ![64, 257, 2048]⟩
abbrev S8192x2048 : Shape := ⟨2, ![8192, 2048]⟩
abbrev S8192x2 : Shape := ⟨2, ![8192, 2]⟩
abbrev S64x256x2048 : Shape := ⟨3, ![64, 256, 2048]⟩
abbrev S64x256x768 : Shape := ⟨3, ![64, 256, 768]⟩

abbrev nBuf : Space → Nat
  | .hbm => 108
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x8, .f32⟩
  | .hbm, ⟨2, _⟩ => ⟨S64x768x2048, .f32⟩
  | .hbm, ⟨3, _⟩ => ⟨S64x768x2048, .f32⟩
  | .hbm, ⟨4, _⟩ => ⟨S64x2048x768, .f32⟩
  | .hbm, ⟨5, _⟩ => ⟨S1024x8, .i32⟩
  | .hbm, ⟨6, _⟩ => ⟨S8192, .i32⟩
  | .hbm, ⟨7, _⟩ => ⟨S1024, .i32⟩
  | .hbm, ⟨8, _⟩ => ⟨S1024x8, .i32⟩
  | .hbm, ⟨9, _⟩ => ⟨S8192, .i32⟩
  | .hbm, ⟨10, _⟩ => ⟨S8192x1, .i32⟩
  | .hbm, ⟨11, _⟩ => ⟨S1x64, .i32⟩
  | .hbm, ⟨12, _⟩ => ⟨S8192x64, .i32⟩
  | .hbm, ⟨13, _⟩ => ⟨S8192x64, .i32⟩
  | .hbm, ⟨14, _⟩ => ⟨S8192x64, .i1⟩
  | .hbm, ⟨15, _⟩ => ⟨S8192x64, .i32⟩
  | .hbm, ⟨16, _⟩ => ⟨S_, .i32⟩
  | .hbm, ⟨17, _⟩ => ⟨S_, .i32⟩
  | .hbm, ⟨18, _⟩ => ⟨S8192x64, .i32⟩
  | .hbm, ⟨19, _⟩ => ⟨S8192x64, .i32⟩
  | .hbm, ⟨20, _⟩ => ⟨S_, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S64x257x2048, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192x2048, .f32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S_, .i32⟩
  | .hbm, ⟨51, _⟩ => ⟨S8192, .i32⟩
  | .hbm, ⟨52, _⟩ => ⟨S8192, .i1⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192x1, .i32⟩
  | .hbm, ⟨58, _⟩ => ⟨S8192x1, .i32⟩
  | .hbm, ⟨59, _⟩ => ⟨S8192x2, .i32⟩
  | .hbm, ⟨60, _⟩ => ⟨S64x257x2048, .f32⟩
  | .hbm, ⟨61, _⟩ => ⟨S64x256x2048, .f32⟩
  | .hbm, ⟨62, _⟩ => ⟨S64x256x768, .f32⟩
  | .hbm, ⟨63, _⟩ => ⟨S64x256x768, .f32⟩
  | .hbm, ⟨64, _⟩ => ⟨S64x256x768, .f32⟩
  | .hbm, ⟨65, _⟩ => ⟨S64x256x768, .f32⟩
  | .hbm, ⟨66, _⟩ => ⟨S_, .f32⟩
  | .hbm, ⟨67, _⟩ => ⟨S64x256x768, .f32⟩
  | .hbm, ⟨68, _⟩ => ⟨S64x256x768, .f32⟩
  | .hbm, ⟨69, _⟩ => ⟨S_, .f32⟩
  | .hbm, ⟨70, _⟩ => ⟨S64x256x768, .f32⟩
  | .hbm, ⟨71, _⟩ => ⟨S64x256x768, .f32⟩
  | .hbm, ⟨72, _⟩ => ⟨S64x256x768, .f32⟩
  | .hbm, ⟨73, _⟩ => ⟨S64x256x768, .f32⟩
  | .hbm, ⟨74, _⟩ => ⟨S64x256x2048, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S_, .i32⟩
  | .hbm, ⟨91, _⟩ => ⟨S8192, .i32⟩
  | .hbm, ⟨92, _⟩ => ⟨S8192, .i1⟩
  | .hbm, ⟨93, _⟩ => ⟨S_, .i32⟩
  | .hbm, ⟨94, _⟩ => ⟨S8192, .i32⟩
  | .hbm, ⟨95, _⟩ => ⟨S8192, .i32⟩
  | .hbm, ⟨96, _⟩ => ⟨S8192, .i32⟩
  | .hbm, ⟨97, _⟩ => ⟨S8192x1, .i32⟩
  | .hbm, ⟨98, _⟩ => ⟨S8192x1, .i32⟩
  | .hbm, ⟨99, _⟩ => ⟨S8192x2, .i32⟩
  | .hbm, ⟨100, _⟩ => ⟨S8192x2048, .f32⟩
  | .hbm, ⟨101, _⟩ => ⟨S8192x1, .f32⟩
  | .hbm, ⟨102, _⟩ => ⟨S8192x2048, .f32⟩
  | .hbm, ⟨103, _⟩ => ⟨S8192x2048, .f32⟩
  | .hbm, ⟨104, _⟩ => ⟨S_, .f32⟩
  | .hbm, ⟨105, _⟩ => ⟨S1024x2048, .f32⟩
  | .hbm, ⟨106, _⟩ => ⟨S8192x1, .i32⟩
  | .hbm, ⟨107, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_call1_call0_c : Ref sig .tc := ⟨.hbm, 16, rfl⟩
abbrev main_call1_call0_v0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_5 : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_call4_v0 : Ref sig .tc := ⟨.hbm, 77, rfl⟩
abbrev main_call4_v1 : Ref sig .tc := ⟨.hbm, 78, rfl⟩
abbrev main_v42 : Ref sig .tc := ⟨.hbm, 79, rfl⟩
abbrev main_c_10 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_13 : Ref sig .tc := ⟨.hbm, 90, rfl⟩
abbrev main_v50 : Ref sig .tc := ⟨.hbm, 91, rfl⟩
abbrev main_v51 : Ref sig .tc := ⟨.hbm, 92, rfl⟩
abbrev main_c_14 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩

abbrev nD : Nat := 1
abbrev τ : Topo := Topo.v7x

variable {F : FTy → Type} [FloatOps F]

class Facts₀ : Prop where
  shapeCasts_S1024x8_S8192 : S1024x8.ShapeCasts S8192
  bcast_S1024_S1024x8_0 : S1024.BroadcastsInDim S1024x8 (![0] : Fin 1 → Fin S1024x8.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  reducesTo_S8192x64_S8192_d1 : S8192x64.ReducesTo [1] S8192
  bcast_S_S8192 : S_.BroadcastsInDim S8192 (![] : Fin 0 → Fin S8192.rank)
  bcast_S_S64x257x2048 : S_.BroadcastsInDim S64x257x2048 (![] : Fin 0 → Fin S64x257x2048.rank)
  concatenates_S8192x1_S8192x1_S8192x2_d1 : Shape.Concatenates [S8192x1, S8192x1] S8192x2 1
  slices_S64x257x2048_S64x256x2048_0_0_0 : S64x257x2048.Slices ![0, 0, 0] S64x256x2048
  bcast_S_S64x256x768 : S_.BroadcastsInDim S64x256x768 (![] : Fin 0 → Fin S64x256x768.rank)
  bcast_S8192x1_S8192x2048_0_1 : S8192x1.BroadcastsInDim S8192x2048 (![0, 1] : Fin 2 → Fin S8192x2048.rank)
  bcast_S_S1024x2048 : S_.BroadcastsInDim S1024x2048 (![] : Fin 0 → Fin S1024x2048.rank)
  gather_S1024x2048_S8192x1_S8192x2048_1_0_n_n_0_1_12048_wf : GatherDims.WF S1024x2048 S8192x1 S8192x2048 [1] [0] [] [0] [] 1 ![1, 2048]
  scatter_S64x257x2048_S8192x2_S8192x2048_1_01_01_1_wf : ScatterDims.WF S64x257x2048 S8192x2 S8192x2048 [1] [0, 1] [0, 1] 1
  dot_S64x256x2048_S64x768x2048_S64x256x768_2_2_1_1_0_0_wf : DotDims.WF S64x256x2048 S64x768x2048 S64x256x768 [2] [2] [1] [1] [0] [0]
  dot_S64x256x768_S64x2048x768_S64x256x2048_2_2_1_1_0_0_wf : DotDims.WF S64x256x768 S64x2048x768 S64x256x2048 [2] [2] [1] [1] [0] [0]
  gather_S64x256x2048_S8192x2_S8192x2048_1_01_n_n_01_1_112048_wf : GatherDims.WF S64x256x2048 S8192x2 S8192x2048 [1] [0, 1] [] [0, 1] [] 1 ![1, 1, 2048]
  scatter_S1024x2048_S8192x1_S8192x2048_1_0_0_1_wf : ScatterDims.WF S1024x2048 S8192x1 S8192x2048 [1] [0] [0] 1

variable [Facts₀]

def gather_S1024x2048_S8192x1_S8192x2048_1_0_n_n_0_1_12048 : GatherDims S1024x2048 S8192x1 S8192x2048 where
  offsetDims := [1]
  collapsedSliceDims := [0]
  operandBatchingDims := []
  startIndicesBatchingDims := []
  startIndexMap := [0]
  indexVectorDim := 1
  sliceSizes := ![1, 2048]
  wf := gather_S1024x2048_S8192x1_S8192x2048_1_0_n_n_0_1_12048_wf
def scatter_S64x257x2048_S8192x2_S8192x2048_1_01_01_1 : ScatterDims S64x257x2048 S8192x2 S8192x2048 where
  updateWindowDims := [1]
  insertedWindowDims := [0, 1]
  scatterDimsToOperandDims := [0, 1]
  indexVectorDim := 1
  wf := scatter_S64x257x2048_S8192x2_S8192x2048_1_01_01_1_wf
def dot_S64x256x2048_S64x768x2048_S64x256x768_2_2_1_1_0_0 : DotDims S64x256x2048 S64x768x2048 S64x256x768 where
  lhsContracting := [2]
  rhsContracting := [2]
  lhsNonContracting := [1]
  rhsNonContracting := [1]
  lhsBatch := [0]
  rhsBatch := [0]
  wf := dot_S64x256x2048_S64x768x2048_S64x256x768_2_2_1_1_0_0_wf
def dot_S64x256x768_S64x2048x768_S64x256x2048_2_2_1_1_0_0 : DotDims S64x256x768 S64x2048x768 S64x256x2048 where
  lhsContracting := [2]
  rhsContracting := [2]
  lhsNonContracting := [1]
  rhsNonContracting := [1]
  lhsBatch := [0]
  rhsBatch := [0]
  wf := dot_S64x256x768_S64x2048x768_S64x256x2048_2_2_1_1_0_0_wf
def gather_S64x256x2048_S8192x2_S8192x2048_1_01_n_n_01_1_112048 : GatherDims S64x256x2048 S8192x2 S8192x2048 where
  offsetDims := [1]
  collapsedSliceDims := [0, 1]
  operandBatchingDims := []
  startIndicesBatchingDims := []
  startIndexMap := [0, 1]
  indexVectorDim := 1
  sliceSizes := ![1, 1, 2048]
  wf := gather_S64x256x2048_S8192x2_S8192x2048_1_01_n_n_01_1_112048_wf
def scatter_S1024x2048_S8192x1_S8192x2048_1_0_0_1 : ScatterDims S1024x2048 S8192x1 S8192x2048 where
  updateWindowDims := [1]
  insertedWindowDims := [0]
  scatterDimsToOperandDims := [0]
  indexVectorDim := 1
  wf := scatter_S1024x2048_S8192x1_S8192x2048_1_0_0_1_wf

class Facts : Prop extends Facts₀ where

variable [Facts]
-- ==== Proof.BFrame.Kit.lean ====
/-
  The launch side of the kernel program's run: @main is host lines, one kernel region, host lines.

  The lines before the region compute, on every core, the packed token buffer and the per-expert row counts; the
  region reads the counts as a table in scalar memory and stages one expert's 128-row tile and weights per grid
  point; the lines after it gather rows of the region's result, scale them and sum them per token. This module
  names the buffer contents when the region is entered (the fold of the earlier lines over the launch memory),
  reduces @main to the region continued by the later lines, and records that the later lines touch neither the
  counts table nor any staged array.
-/
import proofs.«158005_j12481174962624_2_alg».proof.Proof.Gen.Kernel.Launch
import proofs.«158005_j12481174962624_2_alg».proof.Proof.Gen.Kernel.Skeleton
import Idealize.ShloMosaic.Lib.Pipeline.FrameSuffix
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and those after it. -/
abbrev linesBefore : List (List (HloOp τ sig (Elt F))) := [hostOps0, hostOps0_1, hostOps0_2, hostOps0_3, hostOps0_4, hostOps0_5]
abbrev linesAfter : List (List (HloOp τ sig (Elt F))) := [hostOps1, hostOps1_1, hostOps1_2]

/-- Core `c`'s buffer contents when the region is entered: the earlier lines folded over the launch memory. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines, entered at the contents after the earlier ones. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ((linesAfter (F := F)).map StableHlo.seq)) :=
  Pipeline.hmainP_around pcfgs 0 defs₀ 𝒱₀ m main linesBefore linesAfter
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-! ## The counts table, read at the region's entry -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- No index map reads the table, so every contents of it are admissible. -/
abbrev adm : (pcfg0 (F := F)).Adm := ⟨tbl m, trivial⟩
/-- The pipeline at those contents. -/
abbrev cfgM : Pipeline.Cfg sig Λ₀ := cfg0 (adm m)

/-- The table as the body is handed it: its whole buffer as a memref. -/
abbrev tbM : Memref sig .tc .smem S64 .i32 := Memref.whole main_v45
abbrev htbM : tbM.IsWhole := Memref.isWhole_whole _
abbrev TbBuf (c : Dev nD) : Type := Buf (Elt F) ((tbM).view.loc (c : Thread nD τ))
/-- The table's buffer at half the full share: the body may load its words, nothing may store into it. -/
abbrev tbPt (c : Dev nD) (f : TbBuf (F := F) c) : sProp 𝕄 :=
  (tbM).view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The lines after the region -/

/-- They touch TensorCore references only, and never the counts table. -/
theorem sfx_sub : ∀ ops ∈ (linesAfter : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)

/-- They allocate nothing. -/
theorem sfx_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And they write no staged array: each writes only its own result buffer. -/
theorem sfx_keeps : ∀ ops ∈ (linesAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

end Cert.Kernel.Hand

end
-- ==== Proof.BFrame.BodyA.lean ====
/-
  The kernel body run on whole staging buffers, when the tile holds routed tokens.

  The body loads this expert's count from the table and compares the tile's first row against it. In this case the
  first comparison holds (and its negation does not): the body loads the token tile and the three weight blocks,
  and stores the gated feed-forward block of the tile over the whole output buffer; the table and the inputs
  are left as they were.
-/
import proofs.«158005_j12481174962624_2_alg».proof.Proof.BFrame.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the tile's first row is below the expert's count, with the proof that the body runs to its continuation holding the inputs and the table as they were and the output with those pieces written. -/
noncomputable def kernelRunA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) :
    { L : List (View.Piece (Elt F) S1x128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ tbPt c xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0__moe_mlp_kernel i tbM htbM arg3 harg3 arg4 harg4 arg5 harg5 arg6 harg6 arg7 harg7) K } := by
  refine ⟨?_, fun E K => ?run⟩
  case run =>
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexact HT

end Cert.Kernel.Hand

end
-- ==== Proof.BFrame.BodyB.lean ====
/-
  The kernel body run on whole staging buffers, when the tile holds no routed token.

  Here the tile's first row is not below the expert's count: the first branch is skipped and the second, its
  negation, is taken; the body stores the zero block over the whole output buffer and leaves the inputs and the
  table as they were.
-/
import proofs.«158005_j12481174962624_2_alg».proof.Proof.BFrame.BodyA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the tile's first row is not below the expert's count, with the proof that the body runs to its continuation holding the inputs and the table as they were and the output with those pieces written. -/
noncomputable def kernelRunB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) :
    { L : List (View.Piece (Elt F) S1x128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ tbPt c xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0__moe_mlp_kernel i tbM htbM arg3 harg3 arg4 harg4 arg5 harg5 arg6 harg6 arg7 harg7) K } := by
  refine ⟨?_, fun E K => ?run⟩
  case run =>
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexact HT

end Cert.Kernel.Hand

end
-- ==== Proof.BFrame.Frame.lean ====
/-
  The kernel program's run: the proof data of the pipeline, the body obligation at every grid point, and the launch.

  Grid point `t` is (expert, tile). The four input windows hold, at every point, the block of their array the point's
  index selects (the weights' blocks do not move while the tile changes). The output window's buffer holds, after
  the body, either the gated feed-forward block of the token tile or the zero block, according to whether the tile's
  first row is below the expert's count in the table; the two comparisons the body makes are negations of each
  other, so exactly one of its two stores runs and the output is never left as found. The region's result array
  is then what the library computes from these blocks, and the lines after the region read it.
-/
import proofs.«158005_j12481174962624_2_alg».proof.Proof.BFrame.BodyB
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two comparisons are negations of each other -/

/-- The second branch's condition is the negation of the first's: both compare the tile's first row with the same
    word, the second through an exclusive-or with `true`. -/
theorem cond2_iff (i : grid0.Coords) (v : BitVec 32) : k0_cond2 i v = 1#1 ↔ ¬ k0_cond1 i v = 1#1 := by
  unfold k0_cond1 k0_cond2
  dsimp only
  generalize Scalar.cmpi .slt (Scalar.muli (BitVec.ofNat 32 (i 1).val) 128#32) v = b
  rcases BitVec.eq_zero_or_eq_one b with h | h <;> subst h <;> decide

/-- So no point is idle for the output window, whatever the table holds. -/
theorem idle4_false (pf : pre0.Contents (Elt F)) (i : grid0.Coords) : idle0 (F := F) pf 4 i = false := by
  show (!(k0_cond1 i (pf.atD 0 (k0_off1 i)) == 1#1) && !(k0_cond2 i (pf.atD 0 (k0_off1 i)) == 1#1)) = false
  by_cases h : k0_cond1 i (pf.atD 0 (k0_off1 i)) = 1#1
  · rw [show (k0_cond1 i (pf.atD 0 (k0_off1 i)) == 1#1) = true from beq_iff_eq.mpr h]; rfl
  · rw [show (k0_cond2 i (pf.atD 0 (k0_off1 i)) == 1#1) = true from beq_iff_eq.mpr ((cond2_iff i _).mpr h)]
    simp only [Bool.not_true, Bool.and_false]

/-! ## What the output's buffer holds after the body -/

/-- One staging buffer of the output window, through which its contents are stated (the choice does not matter). -/
abbrev VO : View sig .tc .vmem S1x128x2048 .f32 := (Memref.whole cc0_stg4_0 : Memref sig .tc .vmem S1x128x2048 .f32).view

/-- In either case one store covers the whole block. -/
theorem coverA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) (y : S1x128x2048.Idx) :
    ∃ pc ∈ (kernelRunA c i arg3 harg3 arg4 harg4 arg5 harg5 arg6 harg6 arg7 harg7 x0 x1 x2 x3 xt hc1 hc2).1, y ∈ pc.1.set :=
  View.cover_of_wholeMem (kernelRunA c i arg3 harg3 arg4 harg4 arg5 harg5 arg6 harg6 arg7 harg7 x0 x1 x2 x3 xt hc1 hc2).1 (by sl_whole_mem) y
theorem coverB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) (y : S1x128x2048.Idx) :
    ∃ pc ∈ (kernelRunB c i arg3 harg3 arg4 harg4 arg5 harg5 arg6 harg6 arg7 harg7 x0 x1 x2 x3 xt hc1 hc2).1, y ∈ pc.1.set :=
  View.cover_of_wholeMem (kernelRunB c i arg3 harg3 arg4 harg4 arg5 harg5 arg6 harg6 arg7 harg7 x0 x1 x2 x3 xt hc1 hc2).1 (by sl_whole_mem) y

/-- The pieces read back over an arbitrary buffer. -/
def outA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) : Vec F S1x128x2048 .f32 :=
  VO.read (Elt F) (VO.writes (Elt F) VO.junk (kernelRunA c i arg3 harg3 arg4 harg4 arg5 harg5 arg6 harg6 arg7 harg7 x0 x1 x2 x3 xt hc1 hc2).1)
def outB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) : Vec F S1x128x2048 .f32 :=
  VO.read (Elt F) (VO.writes (Elt F) VO.junk (kernelRunB c i arg3 harg3 arg4 harg4 arg5 harg5 arg6 harg6 arg7 harg7 x0 x1 x2 x3 xt hc1 hc2).1)

/-! ## The windows' staging memrefs and blocks -/

/-- Each window's current staging memref at point `t`, as the pipeline passes it to the body, and its wholeness. -/
abbrev ms0 (t : Fin (cfgM m).N) : Memref sig .tc .vmem S1x128x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x768x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x768x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x2048x768 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x128x2048 .f32 := spec0_4.stage ((cfgM m).slots t 4)
abbrev hs4 (t : Fin (cfgM m).N) : (ms4 m t).IsWhole := hstage0_4 (((cfgM m).slots t 4).cast nbuf0_4)

/-- The kernel body at point `t`, on what the pipeline calls it with. -/
abbrev bodyAt (t : Fin (cfgM m).N) : Prog (TpuEff nD τ sig (Elt F) Λ₀ .tc) PUnit :=
  cc0__moe_mlp_kernel (grid0.coords t) tbM htbM (ms0 m t) (hs0 m t) (ms1 m t) (hs1 m t) (ms2 m t) (hs2 m t) (ms3 m t) (hs3 m t) (ms4 m t) (hs4 m t)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not (unfetched, the
    block index has not moved), for any proof data whose array is the region-entry contents and whose body leaves the
    block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the output's buffer holds after each point, and the proof data -/

/-- After the body at point `t`: the feed-forward block of the tile when the tile's first row is below the expert's
    count, the zero block otherwise. -/
def outsAt (c : Dev nD) (t : Fin (cfgM m).N) : Vec F S1x128x2048 .f32 :=
  if h : k0_cond1 (grid0.coords t) ((tbM).view.readAt (Elt F) (Rect.unit (s := S64) (k0_off1 (grid0.coords t)) S1.size (k0_off1_inb (grid0.coords t))).toLoadRect (tbl m 0) (Shape.Idx.first (numel1_S1.symm ▸ Nat.one_pos))) = 1#1 then
    outA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h)
  else
    outB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h)

/-- The proof data of the pipeline on core `c`: the arrays as the region finds them; after the body each input's
    buffer at its block and the output's at `outsAt`; the invariant is the scoped rest with the generator register,
    and the table at half share; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d

/-- The output window is live at every point, so its buffer is left at what the body stored: stated at ANY admissible
    contents of the table, so that nothing here depends on what the table holds. -/
theorem leavesExact4_of (a : (pcfg0 (F := F)).Adm) {c : Dev nD} (dat : Dat τ (Elt F) Unit ℕ (UR sig nD τ) ℕ (cfg0 a) c) (t : Fin (cfg0 a).N) :
    dat.leavesExact 4 t = owns (c : Thread nD τ) (((cfg0 a).win 4).stage ((cfg0 a).slots t 4)) fullShare (dat.after 4 t) := by
  unfold Dat.leavesExact
  rw [show (cfg0 a).idle 4 ((cfg0 a).grid.coords t) = false from idle4_false a.1 _]

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ (dats m 0 c).leavesExact 4 t)

/-- The body at any point: the inputs' buffers hold their blocks, so the run of the point's case applies; the
    invariant passes through unread but for the table, which is handed back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  rw [leavesExact4_of (adm m) (dats m 0 c) t]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = iprop(Pipeline.ΦA spec0 c ∗ Pipeline.ΦT pre0 (tbl m) c) from rfl, PhiT_eq]
  unfold outsAt
  by_cases h : k0_cond1 (grid0.coords t) ((tbM).view.readAt (Elt F) (Rect.unit (s := S64) (k0_off1 (grid0.coords t)) S1.size (k0_off1_inb (grid0.coords t))).toLoadRect (tbl m 0) (Shape.Idx.first (numel1_S1.symm ▸ Nat.one_pos))) = 1#1
  · rw [dif_pos h]; unfold outA
    iintro ⟨⟨HΦ, HT⟩, Ho, ⟨%d0, H0⟩, ⟨%d1, H1⟩, ⟨%d2, H2⟩, ⟨%d3, H3⟩, ⟨%d4, H4⟩⟩
    iapply ((kernelRunA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h)).2 Set.univ _)
    isplitl [H0]; · iexact H0
    isplitl [H1]; · iexact H1
    isplitl [H2]; · iexact H2
    isplitl [H3]; · iexact H3
    isplitl [H4]; · iexists _; iexact H4
    isplitl [HT]; · iexact HT
    iintro ⟨H0, H1, H2, H3, ⟨%e4, H4⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h))
  · rw [dif_neg h]; unfold outB
    iintro ⟨⟨HΦ, HT⟩, Ho, ⟨%d0, H0⟩, ⟨%d1, H1⟩, ⟨%d2, H2⟩, ⟨%d3, H3⟩, ⟨%d4, H4⟩⟩
    iapply ((kernelRunB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h)).2 Set.univ _)
    isplitl [H0]; · iexact H0
    isplitl [H1]; · iexact H1
    isplitl [H2]; · iexact H2
    isplitl [H3]; · iexact H3
    isplitl [H4]; · iexists _; iexact H4
    isplitl [HT]; · iexact HT
    iintro ⟨H0, H1, H2, H3, ⟨%e4, H4⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h))

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main on the TensorCores terminates, and every
    final state has each staged array at what the library computes from the proof data and every other unscoped
    buffer at what the lines after the region compute from those. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) linesAfter)) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := sfx_sub) (hfresh := sfx_fresh) (hkeep := sfx_keeps)
    (hmain := hmain m Variants.none) (hA := A_eq m) (hpf := V_pre m) (hΦ := fun _ _ => rfl)

end Cert.Kernel.Hand

end
-- ==== Proof.BFrame.Claim.lean ====
/-
  The frame of the kernel program: it runs to the end, faults nowhere, and its six argument arrays end as launched.

  No host line writes an argument (each writes only its own result buffer), so an argument that bypasses the region
  is read back as launched; the three weight arrays are staged INPUT windows, which the pipeline never writes back.
-/
import proofs.«158005_j12481174962624_2_alg».proof.Proof.BFrame.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The six argument arrays. -/
abbrev argRef : Fin 6 → Ref sig .tc := ![main_arg0, main_arg1, main_arg2, main_arg3, main_arg4, main_arg5]

theorem hostOps0_keeps_args : (hostOps0 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_1_keeps_args : (hostOps0_1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_2_keeps_args : (hostOps0_2 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_3_keeps_args : (hostOps0_3 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_4_keeps_args : (hostOps0_4 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_5_keeps_args : (hostOps0_5 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_keeps_args : (hostOps1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_1_keeps_args : (hostOps1_1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_2_keeps_args : (hostOps1_2 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)

theorem before_keeps_args : ∀ op ∈ (List.flatten linesBefore : List (HloOp τ sig (Elt F))), ∀ k : Fin 6, Proc.devRef .tc (argRef k) ∉ op.writes := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps0_keeps_args) op hop
  · exact (List.forall_iff_forall_mem.mp hostOps0_1_keeps_args) op hop
  · exact (List.forall_iff_forall_mem.mp hostOps0_2_keeps_args) op hop
  · exact (List.forall_iff_forall_mem.mp hostOps0_3_keeps_args) op hop
  · exact (List.forall_iff_forall_mem.mp hostOps0_4_keeps_args) op hop
  · exact (List.forall_iff_forall_mem.mp hostOps0_5_keeps_args) op hop

theorem after_keeps_args : ∀ op ∈ (List.flatten linesAfter : List (HloOp τ sig (Elt F))), ∀ k : Fin 6, Proc.devRef .tc (argRef k) ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop

/-- An argument reaches the region as launched. -/
theorem V_arg (c : Dev nD) (k : Fin 6) : V m c (argRef k) = m ((c : Thread nD τ).loc (argRef k)) :=
  StableHlo.after_of_forall_not_mem (b := Proc.devRef .tc (argRef k)) (List.flatten linesBefore) (fun b => m (c, b)) (fun op hop => before_keeps_args op hop k)

/-- Behind the region too: the later lines write no argument, and the region's write-backs touch only its own arrays. -/
theorem afterTail_arg (c : Dev nD) (k : Fin 6) (hk : ∀ w, Pipeline.arrRef spec0 w ≠ argRef k) :
    Pipeline.afterTail pcfgs (fun _ => adm m) (dats m) 0 (V0 m) linesAfter c (argRef k) = m ((c : Thread nD τ).loc (argRef k)) := by
  unfold Pipeline.afterTail
  rw [StableHlo.after_of_forall_not_mem (b := Proc.devRef .tc (argRef k)) _ _ (fun op hop => after_keeps_args op hop k),
    Pipeline.withArrays_of_ne _ c (V0 m c) _ (argRef k) hk]
  exact V_arg m c k

/-- The arguments that bypass the region: unscoped, and no staged array. -/
theorem arg0_rest : main_arg0 ∈ Pipeline.restRefs sig spec0 := Pipeline.mem_restRefs_of main_arg0 rfl (fun w => by fin_cases w <;> decide)
theorem arg1_rest : main_arg1 ∈ Pipeline.restRefs sig spec0 := Pipeline.mem_restRefs_of main_arg1 rfl (fun w => by fin_cases w <;> decide)
theorem arg5_rest : main_arg5 ∈ Pipeline.restRefs sig spec0 := Pipeline.mem_restRefs_of main_arg5 rfl (fun w => by fin_cases w <;> decide)
theorem arr_ne_arg0 : ∀ w, Pipeline.arrRef spec0 w ≠ argRef 0 := fun w => by fin_cases w <;> decide
theorem arr_ne_arg1 : ∀ w, Pipeline.arrRef spec0 w ≠ argRef 1 := fun w => by fin_cases w <;> decide
theorem arr_ne_arg5 : ∀ w, Pipeline.arrRef spec0 w ≠ argRef 5 := fun w => by fin_cases w <;> decide

/-- THE FRAME, at any instance: every weakly fair execution terminates without a fault and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 arg0_rest).trans (afterTail_arg m c 0 arr_ne_arg0),
     ((h c).2 main_arg1 arg1_rest).trans (afterTail_arg m c 1 arr_ne_arg1),
     ((h c).1 1).trans (((dats m 0 c).arrAt_in 1 rfl _).trans ((A_eq m c 1).trans (V_arg m c 2))),
     ((h c).1 2).trans (((dats m 0 c).arrAt_in 2 rfl _).trans ((A_eq m c 2).trans (V_arg m c 3))),
     ((h c).1 3).trans (((dats m 0 c).arrAt_in 3 rfl _).trans ((A_eq m c 3).trans (V_arg m c 4))),
     ((h c).2 main_arg5 arg5_rest).trans (afterTail_arg m c 5 arr_ne_arg5)⟩)
    (run_main m ρ)

end Cert.Kernel.Hand

end
-- ==== Proof.KFrame.Kit.lean ====
/-
  The launch side of the kernel program's run: @main is host lines, one kernel region, host lines.

  The lines before the region compute, on every core, the packed token buffer and the per-expert row counts; the
  region reads the counts as a table in scalar memory and stages one expert's 128-row tile and weights per grid
  point; the lines after it gather rows of the region's result, scale them and sum them per token. This module
  names the buffer contents when the region is entered (the fold of the earlier lines over the launch memory),
  reduces @main to the region continued by the later lines, and records that the later lines touch neither the
  counts table nor any staged array.
-/
import proofs.«158005_j12481174962624_2_alg».proof.Proof.Gen.KernelIdeal.Launch
import proofs.«158005_j12481174962624_2_alg».proof.Proof.Gen.KernelIdeal.Skeleton
import Idealize.ShloMosaic.Lib.Pipeline.FrameSuffix
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region, stretch by stretch, and those after it. -/
abbrev linesBefore : List (List (HloOp τ sig (Elt F))) := [hostOps0, hostOps0_1, hostOps0_2, hostOps0_3, hostOps0_4, hostOps0_5]
abbrev linesAfter : List (List (HloOp τ sig (Elt F))) := [hostOps1, hostOps1_1, hostOps1_2]

/-- Core `c`'s buffer contents when the region is entered: the earlier lines folded over the launch memory. -/
abbrev V0 (c : Dev nD) : Valuation τ sig (Elt F) := StableHlo.after (List.flatten linesBefore) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later lines, entered at the contents after the earlier ones. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ((linesAfter (F := F)).map StableHlo.seq)) :=
  Pipeline.hmainP_around pcfgs 0 defs₀ 𝒱₀ m main linesBefore linesAfter
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-! ## The counts table, read at the region's entry -/

/-- The table's contents when the region is entered (there is one device). -/
def tbl : pre0.Contents (Elt F) := fun j => V m (0 : Dev nD) (pre0.ref j)
/-- On every device the table holds those contents. -/
theorem V_pre (c : Dev nD) (j : Fin 1) : V m c (pre0.ref j) = tbl m j := by
  obtain rfl : c = 0 := Subsingleton.elim _ _; rfl
/-- No index map reads the table, so every contents of it are admissible. -/
abbrev adm : (pcfg0 (F := F)).Adm := ⟨tbl m, trivial⟩
/-- The pipeline at those contents. -/
abbrev cfgM : Pipeline.Cfg sig Λ₀ := cfg0 (adm m)

/-- The table as the body is handed it: its whole buffer as a memref. -/
abbrev tbM : Memref sig .tc .smem S64 .i32 := Memref.whole main_v45
abbrev htbM : tbM.IsWhole := Memref.isWhole_whole _
abbrev TbBuf (c : Dev nD) : Type := Buf (Elt F) ((tbM).view.loc (c : Thread nD τ))
/-- The table's buffer at half the full share: the body may load its words, nothing may store into it. -/
abbrev tbPt (c : Dev nD) (f : TbBuf (F := F) c) : sProp 𝕄 :=
  (tbM).view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The lines after the region -/

/-- They touch TensorCore references only, and never the counts table. -/
theorem sfx_sub : ∀ ops ∈ (linesAfter : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl | rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)
  · refine Pipeline.sub_tailRefs pre0 spec0 op ((List.forall_iff_forall_mem.mp hostOps1_2_sub) op hop) ?_
    simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro k; fin_cases k; simp only [StableHlo.nullary_bufs, StableHlo.unary_bufs, StableHlo.binary_bufs, StableHlo.ternary_bufs, StableHlo.reshape_bufs, Finset.mem_insert, Finset.mem_singleton, not_or]; repeat' constructor
    all_goals exact StableHlo.devRef_ne_of_ne (by decide)

/-- They allocate nothing. -/
theorem sfx_fresh : ∀ ops ∈ (linesAfter : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And they write no staged array: each writes only its own result buffer. -/
theorem sfx_keeps : ∀ ops ∈ (linesAfter : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

end Cert.KernelIdeal.Hand

end
-- ==== Proof.KFrame.BodyA.lean ====
/-
  The kernel body run on whole staging buffers, when the tile holds routed tokens.

  The body loads this expert's count from the table and compares the tile's first row against it. In this case the
  first comparison holds (and its negation does not): the body loads the token tile and the three weight blocks,
  and stores the gated feed-forward block of the tile over the whole output buffer; the table and the inputs
  are left as they were.
-/
import proofs.«158005_j12481174962624_2_alg».proof.Proof.KFrame.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the tile's first row is below the expert's count, with the proof that the body runs to its continuation holding the inputs and the table as they were and the output with those pieces written. -/
noncomputable def kernelRunA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) :
    { L : List (View.Piece (Elt F) S1x128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ tbPt c xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0__moe_mlp_kernel i tbM htbM arg3 harg3 arg4 harg4 arg5 harg5 arg6 harg6 arg7 harg7) K } := by
  refine ⟨?_, fun E K => ?run⟩
  case run =>
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexact HT

end Cert.KernelIdeal.Hand

end
-- ==== Proof.KFrame.BodyB.lean ====
/-
  The kernel body run on whole staging buffers, when the tile holds no routed token.

  Here the tile's first row is not below the expert's count: the first branch is skipped and the second, its
  negation, is taken; the body stores the zero block over the whole output buffer and leaves the inputs and the
  table as they were.
-/
import proofs.«158005_j12481174962624_2_alg».proof.Proof.KFrame.BodyA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's staging buffer when the tile's first row is not below the expert's count, with the proof that the body runs to its continuation holding the inputs and the table as they were and the output with those pieces written. -/
noncomputable def kernelRunB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) :
    { L : List (View.Piece (Elt F) S1x128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ tbPt c xt
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L) ∗ tbPt c xt) -∗ K ⟨⟩))
          ⊢ wp frame (wpE (defs₀ (F := F)) Variants.none c none) E (cc0__moe_mlp_kernel i tbM htbM arg3 harg3 arg4 harg4 arg5 harg5 arg6 harg6 arg7 harg7) K } := by
  refine ⟨?_, fun E K => ?run⟩
  case run =>
    simp only [cc0__moe_mlp_kernel_eq_skeleton]; unfold cc0__moe_mlp_kernel_skel
    unfold owns
    iintro ⟨⟨%f0, %hf0, H0⟩, ⟨%f1, %hf1, H1⟩, ⟨%f2, %hf2, H2⟩, ⟨%f3, %hf3, H3⟩, ⟨%d4, %f4, -, H4⟩, HT, Hk⟩
    obtain rfl := harg3.eq_unread hf0; obtain rfl := harg4.eq_unread hf1; obtain rfl := harg5.eq_unread hf2; obtain rfl := harg6.eq_unread hf3
    sl_exec (disch := first | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexact HT

end Cert.KernelIdeal.Hand

end
-- ==== Proof.KFrame.Frame.lean ====
/-
  The kernel program's run: the proof data of the pipeline, the body obligation at every grid point, and the launch.

  Grid point `t` is (expert, tile). The four input windows hold, at every point, the block of their array the point's
  index selects (the weights' blocks do not move while the tile changes). The output window's buffer holds, after
  the body, either the gated feed-forward block of the token tile or the zero block, according to whether the tile's
  first row is below the expert's count in the table; the two comparisons the body makes are negations of each
  other, so exactly one of its two stores runs and the output is never left as found. The region's result array
  is then what the library computes from these blocks, and the lines after the region read it.
-/
import proofs.«158005_j12481174962624_2_alg».proof.Proof.KFrame.BodyB
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two comparisons are negations of each other -/

/-- The second branch's condition is the negation of the first's: both compare the tile's first row with the same
    word, the second through an exclusive-or with `true`. -/
theorem cond2_iff (i : grid0.Coords) (v : BitVec 32) : k0_cond2 i v = 1#1 ↔ ¬ k0_cond1 i v = 1#1 := by
  unfold k0_cond1 k0_cond2
  dsimp only
  generalize Scalar.cmpi .slt (Scalar.muli (BitVec.ofNat 32 (i 1).val) 128#32) v = b
  rcases BitVec.eq_zero_or_eq_one b with h | h <;> subst h <;> decide

/-- So no point is idle for the output window, whatever the table holds. -/
theorem idle4_false (pf : pre0.Contents (Elt F)) (i : grid0.Coords) : idle0 (F := F) pf 4 i = false := by
  show (!(k0_cond1 i (pf.atD 0 (k0_off1 i)) == 1#1) && !(k0_cond2 i (pf.atD 0 (k0_off1 i)) == 1#1)) = false
  by_cases h : k0_cond1 i (pf.atD 0 (k0_off1 i)) = 1#1
  · rw [show (k0_cond1 i (pf.atD 0 (k0_off1 i)) == 1#1) = true from beq_iff_eq.mpr h]; rfl
  · rw [show (k0_cond2 i (pf.atD 0 (k0_off1 i)) == 1#1) = true from beq_iff_eq.mpr ((cond2_iff i _).mpr h)]
    simp only [Bool.not_true, Bool.and_false]

/-! ## What the output's buffer holds after the body -/

/-- One staging buffer of the output window, through which its contents are stated (the choice does not matter). -/
abbrev VO : View sig .tc .vmem S1x128x2048 .f32 := (Memref.whole cc0_stg4_0 : Memref sig .tc .vmem S1x128x2048 .f32).view

/-- In either case one store covers the whole block. -/
theorem coverA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) (y : S1x128x2048.Idx) :
    ∃ pc ∈ (kernelRunA c i arg3 harg3 arg4 harg4 arg5 harg5 arg6 harg6 arg7 harg7 x0 x1 x2 x3 xt hc1 hc2).1, y ∈ pc.1.set :=
  View.cover_of_wholeMem (kernelRunA c i arg3 harg3 arg4 harg4 arg5 harg5 arg6 harg6 arg7 harg7 x0 x1 x2 x3 xt hc1 hc2).1 (by sl_whole_mem) y
theorem coverB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) (y : S1x128x2048.Idx) :
    ∃ pc ∈ (kernelRunB c i arg3 harg3 arg4 harg4 arg5 harg5 arg6 harg6 arg7 harg7 x0 x1 x2 x3 xt hc1 hc2).1, y ∈ pc.1.set :=
  View.cover_of_wholeMem (kernelRunB c i arg3 harg3 arg4 harg4 arg5 harg5 arg6 harg6 arg7 harg7 x0 x1 x2 x3 xt hc1 hc2).1 (by sl_whole_mem) y

/-- The pieces read back over an arbitrary buffer. -/
def outA (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) : Vec F S1x128x2048 .f32 :=
  VO.read (Elt F) (VO.writes (Elt F) VO.junk (kernelRunA c i arg3 harg3 arg4 harg4 arg5 harg5 arg6 harg6 arg7 harg7 x0 x1 x2 x3 xt hc1 hc2).1)
def outB (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) : Vec F S1x128x2048 .f32 :=
  VO.read (Elt F) (VO.writes (Elt F) VO.junk (kernelRunB c i arg3 harg3 arg4 harg4 arg5 harg5 arg6 harg6 arg7 harg7 x0 x1 x2 x3 xt hc1 hc2).1)

/-! ## The windows' staging memrefs and blocks -/

/-- Each window's current staging memref at point `t`, as the pipeline passes it to the body, and its wholeness. -/
abbrev ms0 (t : Fin (cfgM m).N) : Memref sig .tc .vmem S1x128x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x768x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x768x2048 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x2048x768 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x128x2048 .f32 := spec0_4.stage ((cfgM m).slots t 4)
abbrev hs4 (t : Fin (cfgM m).N) : (ms4 m t).IsWhole := hstage0_4 (((cfgM m).slots t 4).cast nbuf0_4)

/-- The kernel body at point `t`, on what the pipeline calls it with. -/
abbrev bodyAt (t : Fin (cfgM m).N) : Prog (TpuEff nD τ sig (Elt F) Λ₀ .tc) PUnit :=
  cc0__moe_mlp_kernel (grid0.coords t) tbM htbM (ms0 m t) (hs0 m t) (ms1 m t) (hs1 m t) (ms2 m t) (hs2 m t) (ms3 m t) (hs3 m t) (ms4 m t) (hs4 m t)

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's current staging buffer holds its block at every point, fetched there or not (unfetched, the
    block index has not moved), for any proof data whose array is the region-entry contents and whose body leaves the
    block in place. -/
theorem before0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the output's buffer holds after each point, and the proof data -/

/-- After the body at point `t`: the feed-forward block of the tile when the tile's first row is below the expert's
    count, the zero block otherwise. -/
def outsAt (c : Dev nD) (t : Fin (cfgM m).N) : Vec F S1x128x2048 .f32 :=
  if h : k0_cond1 (grid0.coords t) ((tbM).view.readAt (Elt F) (Rect.unit (s := S64) (k0_off1 (grid0.coords t)) S1.size (k0_off1_inb (grid0.coords t))).toLoadRect (tbl m 0) (Shape.Idx.first (numel1_S1.symm ▸ Nat.one_pos))) = 1#1 then
    outA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h)
  else
    outB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h)

/-- The proof data of the pipeline on core `c`: the arrays as the region finds them; after the body each input's
    buffer at its block and the output's at `outsAt`; the invariant is the scoped rest with the generator register,
    and the table at half share; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t = iblk m c 3 t := by dsimp only [dats]; try rfl
theorem after4 (c : Dev nD) (t : Fin (cfgM m).N) : (dats m 0 c).after 4 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d
theorem before2 (c : Dev nD) (t : Fin (cfgM m).N) (d) : (dats m 0 c).before 2 t d = iblk m c 2 t :=
  before2_of m (dats m 0 c) (A_eq m c 2) (after2 m c) t d
theorem before3 (c : Dev nD) (t : Fin (cfgM m).N) (d) : (dats m 0 c).before 3 t d = iblk m c 3 t :=
  before3_of m (dats m 0 c) (A_eq m c 3) (after3 m c) t d

/-- The output window is live at every point, so its buffer is left at what the body stored: stated at ANY admissible
    contents of the table, so that nothing here depends on what the table holds. -/
theorem leavesExact4_of (a : (pcfg0 (F := F)).Adm) {c : Dev nD} (dat : Dat τ (Elt F) Unit ℕ (UR sig nD τ) ℕ (cfg0 a) c) (t : Fin (cfg0 a).N) :
    dat.leavesExact 4 t = owns (c : Thread nD τ) (((cfg0 a).win 4).stage ((cfg0 a).slots t 4)) fullShare (dat.after 4 t) := by
  unfold Dat.leavesExact
  rw [show (cfg0 a).idle 4 ((cfg0 a).grid.coords t) = false from idle4_false a.1 _]

/-! ## The body obligation, at a generic point -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ (dats m 0 c).leavesExact 4 t)

/-- The body at any point: the inputs' buffers hold their blocks, so the run of the point's case applies; the
    invariant passes through unread but for the table, which is handed back; the core owes nothing throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  rw [leavesExact4_of (adm m) (dats m 0 c) t]
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = iprop(Pipeline.ΦA spec0 c ∗ Pipeline.ΦT pre0 (tbl m) c) from rfl, PhiT_eq]
  unfold outsAt
  by_cases h : k0_cond1 (grid0.coords t) ((tbM).view.readAt (Elt F) (Rect.unit (s := S64) (k0_off1 (grid0.coords t)) S1.size (k0_off1_inb (grid0.coords t))).toLoadRect (tbl m 0) (Shape.Idx.first (numel1_S1.symm ▸ Nat.one_pos))) = 1#1
  · rw [dif_pos h]; unfold outA
    iintro ⟨⟨HΦ, HT⟩, Ho, ⟨%d0, H0⟩, ⟨%d1, H1⟩, ⟨%d2, H2⟩, ⟨%d3, H3⟩, ⟨%d4, H4⟩⟩
    iapply ((kernelRunA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h)).2 Set.univ _)
    isplitl [H0]; · iexact H0
    isplitl [H1]; · iexact H1
    isplitl [H2]; · iexact H2
    isplitl [H3]; · iexact H3
    isplitl [H4]; · iexists _; iexact H4
    isplitl [HT]; · iexact HT
    iintro ⟨H0, H1, H2, H3, ⟨%e4, H4⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h (fun h2 => (cond2_iff _ _).mp h2 h))
  · rw [dif_neg h]; unfold outB
    iintro ⟨⟨HΦ, HT⟩, Ho, ⟨%d0, H0⟩, ⟨%d1, H1⟩, ⟨%d2, H2⟩, ⟨%d3, H3⟩, ⟨%d4, H4⟩⟩
    iapply ((kernelRunB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h)).2 Set.univ _)
    isplitl [H0]; · iexact H0
    isplitl [H1]; · iexact H1
    isplitl [H2]; · iexact H2
    isplitl [H3]; · iexact H3
    isplitl [H4]; · iexists _; iexact H4
    isplitl [HT]; · iexact HT
    iintro ⟨H0, H1, H2, H3, ⟨%e4, H4⟩, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c (grid0.coords t) (ms0 m t) (hs0 m t) (ms1 m t) (hs1 m t) (ms2 m t) (hs2 m t) (ms3 m t) (hs3 m t) (ms4 m t) (hs4 m t) (iblk m c 0 t) (iblk m c 1 t) (iblk m c 2 t) (iblk m c 3 t) (tbl m 0) h ((cond2_iff _ _).mpr h))

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main on the TensorCores terminates, and every
    final state has each staged array at what the library computes from the proof data and every other unscoped
    buffer at what the lines after the region compute from those. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) linesAfter)) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := linesAfter) (hsub := sfx_sub) (hfresh := sfx_fresh) (hkeep := sfx_keeps)
    (hmain := hmain m Variants.none) (hA := A_eq m) (hpf := V_pre m) (hΦ := fun _ _ => rfl)

end Cert.KernelIdeal.Hand

end
-- ==== Proof.KFrame.Claim.lean ====
/-
  The frame of the kernel program: it runs to the end, faults nowhere, and its six argument arrays end as launched.

  No host line writes an argument (each writes only its own result buffer), so an argument that bypasses the region
  is read back as launched; the three weight arrays are staged INPUT windows, which the pipeline never writes back.
-/
import proofs.«158005_j12481174962624_2_alg».proof.Proof.KFrame.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The six argument arrays. -/
abbrev argRef : Fin 6 → Ref sig .tc := ![main_arg0, main_arg1, main_arg2, main_arg3, main_arg4, main_arg5]

theorem hostOps0_keeps_args : (hostOps0 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_1_keeps_args : (hostOps0_1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_2_keeps_args : (hostOps0_2 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_3_keeps_args : (hostOps0_3 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_4_keeps_args : (hostOps0_4 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps0_5_keeps_args : (hostOps0_5 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_keeps_args : (hostOps1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_1_keeps_args : (hostOps1_1 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)
theorem hostOps1_2_keeps_args : (hostOps1_2 : List (HloOp τ sig (Elt F))).Forall fun op => ∀ k : Fin 6, Proc.devRef .tc (argRef k) ∉ op.writes := by
  simp only [List.Forall]; repeat' constructor
  all_goals intro k; fin_cases k <;> simp only [StableHlo.nullary_writes, StableHlo.unary_writes, StableHlo.binary_writes, StableHlo.ternary_writes, StableHlo.reshape_writes, Finset.mem_singleton] <;> exact StableHlo.devRef_ne_of_ne (by decide)

theorem before_keeps_args : ∀ op ∈ (List.flatten linesBefore : List (HloOp τ sig (Elt F))), ∀ k : Fin 6, Proc.devRef .tc (argRef k) ∉ op.writes := by
  intro op hop
  obtain ⟨ops, hops, hop⟩ := List.mem_flatten.mp hop
  simp only [List.mem_cons, List.mem_nil_iff, or_false] at hops
  rcases hops with rfl | rfl | rfl | rfl | rfl | rfl
  · exact (List.forall_iff_forall_mem.mp hostOps0_keeps_args) op hop
  · exact (List.forall_iff_forall_mem.mp hostOps0_1_keeps_args) op hop
  · exact (List.forall_iff_forall_mem.mp hostOps0_2_keeps_args) op hop
  · exact (List.forall_iff_forall_mem.mp hostOps0_3_keeps_args) op hop
  · exact (List.forall_iff_forall_mem.mp hostOps0_4_keeps_args) op hop
  · exact (List.forall_iff_forall_mem.mp hostOps0_5_keeps_args) op hop

theorem after_keeps_args : ∀ op ∈ (List.flatten linesAfter : List (HloOp τ sig (Elt F))), ∀ k : Fin 6, Proc.devRef .tc (argRef k) ∉ op.writes := by
  intro op hop
  obtain ⟨ops, hops, hop⟩ := List.mem_flatten.mp hop
  simp only [List.mem_cons, List.mem_nil_iff, or_false] at hops
  rcases hops with rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop

/-- An argument reaches the region as launched. -/
theorem V_arg (c : Dev nD) (k : Fin 6) : V m c (argRef k) = m ((c : Thread nD τ).loc (argRef k)) :=
  StableHlo.after_of_forall_not_mem (b := Proc.devRef .tc (argRef k)) (List.flatten linesBefore) (fun b => m (c, b)) (fun op hop => before_keeps_args op hop k)

/-- Behind the region too: the later lines write no argument, and the region's write-backs touch only its own arrays. -/
theorem afterTail_arg (c : Dev nD) (k : Fin 6) (hk : ∀ w, Pipeline.arrRef spec0 w ≠ argRef k) :
    Pipeline.afterTail pcfgs (fun _ => adm m) (dats m) 0 (V0 m) linesAfter c (argRef k) = m ((c : Thread nD τ).loc (argRef k)) := by
  unfold Pipeline.afterTail
  rw [StableHlo.after_of_forall_not_mem (b := Proc.devRef .tc (argRef k)) _ _ (fun op hop => after_keeps_args op hop k),
    Pipeline.withArrays_of_ne _ c (V0 m c) _ (argRef k) hk]
  exact V_arg m c k

/-- The arguments that bypass the region: unscoped, and no staged array. -/
theorem arg0_rest : main_arg0 ∈ Pipeline.restRefs sig spec0 := Pipeline.mem_restRefs_of main_arg0 rfl (fun w => by fin_cases w <;> decide)
theorem arg1_rest : main_arg1 ∈ Pipeline.restRefs sig spec0 := Pipeline.mem_restRefs_of main_arg1 rfl (fun w => by fin_cases w <;> decide)
theorem arg5_rest : main_arg5 ∈ Pipeline.restRefs sig spec0 := Pipeline.mem_restRefs_of main_arg5 rfl (fun w => by fin_cases w <;> decide)
theorem arr_ne_arg0 : ∀ w, Pipeline.arrRef spec0 w ≠ argRef 0 := fun w => by fin_cases w <;> decide
theorem arr_ne_arg1 : ∀ w, Pipeline.arrRef spec0 w ≠ argRef 1 := fun w => by fin_cases w <;> decide
theorem arr_ne_arg5 : ∀ w, Pipeline.arrRef spec0 w ≠ argRef 5 := fun w => by fin_cases w <;> decide

/-- THE FRAME, at any instance: every weakly fair execution terminates without a fault and the six argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 arg0_rest).trans (afterTail_arg m c 0 arr_ne_arg0),
     ((h c).2 main_arg1 arg1_rest).trans (afterTail_arg m c 1 arr_ne_arg1),
     ((h c).1 1).trans (((dats m 0 c).arrAt_in 1 rfl _).trans ((A_eq m c 1).trans (V_arg m c 2))),
     ((h c).1 2).trans (((dats m 0 c).arrAt_in 2 rfl _).trans ((A_eq m c 2).trans (V_arg m c 3))),
     ((h c).1 3).trans (((dats m 0 c).arrAt_in 3 rfl _).trans ((A_eq m c 3).trans (V_arg m c 4))),
     ((h c).2 main_arg5 arg5_rest).trans (afterTail_arg m c 5 arr_ne_arg5)⟩)
    (run_main m ρ)

end Cert.KernelIdeal.Hand

end
-- ==== Proof.KFrame.Result.lean ====
/-
  The kernel program's run with its result named: the result buffer is written by the last host line, from the
  region's result array and the routing data computed before the region.
-/
import proofs.«158005_j12481174962624_2_alg».proof.Proof.KFrame.Claim

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result buffer bypasses the region: unscoped, and no staged array. -/
theorem v70_rest : main_v70 ∈ Pipeline.restRefs sig spec0 := Pipeline.mem_restRefs_of main_v70 rfl (fun w => by fin_cases w <;> decide)

/-- Every weakly fair execution terminates without a fault, with the result at what the lines after the region compute
    from the region's result array, and the six argument arrays as launched. -/
theorem run_result : θ_run defs (onTc (τ := τ) (main (F := F))) ⟨m, fun _ => 0, ρ⟩ (fun r => ∀ c : Dev nD,
      r.2.mem ((c.tc : Thread nD τ).loc main_v70) = Pipeline.afterTail pcfgs (fun _ => adm m) (dats m) 0 (V0 m) linesAfter c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v70 v70_rest,
     ((h c).2 main_arg0 arg0_rest).trans (afterTail_arg m c 0 arr_ne_arg0),
     ((h c).2 main_arg1 arg1_rest).trans (afterTail_arg m c 1 arr_ne_arg1),
     ((h c).1 1).trans (((dats m 0 c).arrAt_in 1 rfl _).trans ((A_eq m c 1).trans (V_arg m c 2))),
     ((h c).1 2).trans (((dats m 0 c).arrAt_in 2 rfl _).trans ((A_eq m c 2).trans (V_arg m c 3))),
     ((h c).1 3).trans (((dats m 0 c).arrAt_in 3 rfl _).trans ((A_eq m c 3).trans (V_arg m c 4))),
     ((h c).2 main_arg5 arg5_rest).trans (afterTail_arg m c 5 arr_ne_arg5)⟩)
    (run_main m ρ)

end Cert.KernelIdeal.Hand

end
-- ==== Proof.KValuePieces.lean ====
/-
  What the kernel body leaves in the output block, and the word it compares against.

  In either case the body's run found ONE store, over the whole [1, 128, 2048] block: of the gated feed-forward
  block of the four loaded blocks when the tile's first row is below the expert's count (`outA_eq`), of the zero
  block otherwise (`outB_eq`). A load of a whole staging buffer reads the buffer's contents, so the stored block is
  the body's arithmetic applied to the contents themselves. The word the body loads from the counts table at a grid
  point is the table's entry at the point's expert coordinate (`word_eq`): the offset the body computes from the
  coordinate, a 32-bit word widened to an index, is the coordinate itself, all coordinates being below 64.
-/
import proofs.«158005_j12481174962624_2_alg».proof.Proof.KFrame.Frame
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

/-- The zero offsets of a whole-block store or load, as a constant function. -/
theorem hz3 : (![0, 0, 0] : Fin 3 → Nat) = fun _ => 0 := funext fun a => by fin_cases a <;> rfl

/-- When the tile's first row is below the expert's count, the output block after the body is the gated feed-forward
    block of the contents of the four input buffers. -/
theorem outA_eq (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : k0_cond1 i ((tbM).view.readAt (Elt F) (Rect.unit (s := S64) (k0_off1 i) S1.size (k0_off1_inb i)).toLoadRect xt (Shape.Idx.first (numel1_S1.symm ▸ Nat.one_pos))) = 1#1) (hc2 : ¬ k0_cond2 i ((tbM).view.readAt (Elt F) (Rect.unit (s := S64) (k0_off1 i) S1.size (k0_off1_inb i)).toLoadRect xt (Shape.Idx.first (numel1_S1.symm ▸ Nat.one_pos))) = 1#1) :
    outA c i arg3 harg3 arg4 harg4 arg5 harg5 arg6 harg6 arg7 harg7 x0 x1 x2 x3 xt hc1 hc2 = Gen.k0_pay1 x0 x1 x2 x3 := by
  unfold outA
  rw [View.read_writes_eq_canon _ _ _ (coverA c i arg3 harg3 arg4 harg4 arg5 harg5 arg6 harg6 arg7 harg7 x0 x1 x2 x3 xt hc1 hc2)]
  unfold kernelRunA
  dsimp only
  try sl_unfold_words
  rw [View.canon_unit_zero hz3]
  simp only [View.readAt_eq_ld, harg3.read_unread, harg4.read_unread, harg5.read_unread, harg6.read_unread,
    View.ld_unit_zero (S := S1x128x2048) hz3, View.ld_unit_zero (S := S1x768x2048) hz3, View.ld_unit_zero (S := S1x2048x768) hz3]

/-- Otherwise the output block after the body is the zero block. -/
theorem outB_eq (c : Dev nD) (i : grid0.Coords)
    (arg3 : Memref sig .tc .vmem S1x128x2048 .bf16) (harg3 : arg3.IsWhole) (arg4 : Memref sig .tc .vmem S1x768x2048 .f32) (harg4 : arg4.IsWhole)
    (arg5 : Memref sig .tc .vmem S1x768x2048 .f32) (harg5 : arg5.IsWhole) (arg6 : Memref sig .tc .vmem S1x2048x768 .f32) (harg6 : arg6.IsWhole)
    (arg7 : Memref sig .tc .vmem S1x128x2048 .f32) (harg7 : arg7.IsWhole)
    (x0 : Vec F S1x128x2048 .bf16) (x1 : Vec F S1x768x2048 .f32) (x2 : Vec F S1x768x2048 .f32) (x3 : Vec F S1x2048x768 .f32) (xt : TbBuf (F := F) c)
    (hc1 : ¬ k0_cond1 i ((tbM).view.readAt (Elt F) (Rect.unit (s := S64) (k0_off1 i) S1.size (k0_off1_inb i)).toLoadRect xt (Shape.Idx.first (numel1_S1.symm ▸ Nat.one_pos))) = 1#1) (hc2 : k0_cond2 i ((tbM).view.readAt (Elt F) (Rect.unit (s := S64) (k0_off1 i) S1.size (k0_off1_inb i)).toLoadRect xt (Shape.Idx.first (numel1_S1.symm ▸ Nat.one_pos))) = 1#1) :
    outB c i arg3 harg3 arg4 harg4 arg5 harg5 arg6 harg6 arg7 harg7 x0 x1 x2 x3 xt hc1 hc2 = Gen.k0_pay2 (F := F) := by
  unfold outB
  rw [View.read_writes_eq_canon _ _ _ (coverB c i arg3 harg3 arg4 harg4 arg5 harg5 arg6 harg6 arg7 harg7 x0 x1 x2 x3 xt hc1 hc2)]
  unfold kernelRunB
  dsimp only
  try sl_unfold_words
  rw [View.canon_unit_zero hz3]

/-- The offset at which the body loads the count is the point's expert coordinate: a coordinate below 64, as a 32-bit
    word widened to an index, is itself. -/
theorem off1_val (i : grid0.Coords) : k0_off1 i 0 = (i 0).val := by
  have h : ∀ n : Fin 64, (Scalar.indexCast (BitVec.ofNat 32 n.val)).toNat = n.val := by decide +kernel
  exact h (i 0)

/-- The word the body loads from the counts table at a grid point is the table's entry at the point's expert
    coordinate. -/
theorem word_eq (c : Dev nD) (i : grid0.Coords) (xt : TbBuf (F := F) c) :
    (tbM).view.readAt (Elt F) (Rect.unit (s := S64) (k0_off1 i) S1.size (k0_off1_inb i)).toLoadRect xt (Shape.Idx.first (numel1_S1.symm ▸ Nat.one_pos))
      = (xt : S64.Idx → BitVec 32) (ix1 (⟨(i 0).val, (i 0).isLt⟩ : Fin 64)) := by
  rw [View.readAt_apply]
  show (xt : S64.Idx → BitVec 32) _ = _
  refine congrArg (xt : S64.Idx → BitVec 32) (funext fun (a : Fin 1) => Fin.ext ?_)
  obtain rfl : a = 0 := Subsingleton.elim _ _
  show k0_off1 i 0 + 1 * 0 = (i 0).val
  rw [off1_val]; rfl

end Cert.KernelIdeal.Hand

end
-- ==== Proof.Spec.lean ====
/-
  The specification shared by the two programs: one row of a gated feed-forward block on the extended reals.

  For a token row `x` of width 2048 and one expert's three weight matrices, the two projections are the plain
  sums `proj x W i = ∑ k, x k * W i k` (a matrix product with the weight's LAST axis contracted), the hidden
  activation is `silu (proj x gw i) * proj x uw i` with `silu z = z * logistic z`, and the output is the hidden
  row contracted against the last axis of the down projection. Both programs compute this function of a row;
  the kernel tiles the rows in blocks of 128 and writes zeros for a block that holds no routed token, which is
  the same value because the function sends the zero row to the zero row (`mlpRow_zero`).
-/
import Idealize.ShloMosaic.PureOps.Ideal
import Idealize.ShloMosaic.Lib.ValueIdx

noncomputable section

namespace Cert.Spec

open Idealize.ShloMosaic

/-- One projection entry: the row `x` against row `i` of the weight `W`, contracted over the width. -/
def proj (x : Fin 2048 → EReal) (W : Fin 768 → Fin 2048 → EReal) (i : Fin 768) : EReal :=
  ∑ k : Fin 2048, x k * W i k

/-- The hidden activation at `i`: `silu (gate) * up`. -/
def hid (x : Fin 2048 → EReal) (gw uw : Fin 768 → Fin 2048 → EReal) (i : Fin 768) : EReal :=
  proj x gw i * Ideal.logistic (proj x gw i) * proj x uw i

/-- One output entry of the block for the row `x`. -/
def mlpRow (x : Fin 2048 → EReal) (gw uw : Fin 768 → Fin 2048 → EReal) (dw : Fin 2048 → Fin 768 → EReal)
    (h : Fin 2048) : EReal :=
  ∑ i : Fin 768, hid x gw uw i * dw h i

/-- A projection of the zero row is zero: every term is `0 * w`, which is `0` on the extended reals. -/
theorem proj_zero (W : Fin 768 → Fin 2048 → EReal) (i : Fin 768) : proj (fun _ => 0) W i = 0 := by
  unfold proj
  exact Finset.sum_eq_zero fun k _ => zero_mul _

/-- The zero row is sent to the zero row: the gate projection vanishes, so every hidden entry is
    `0 * logistic 0 * _ = 0`, and the output is a sum of terms `0 * w`. -/
theorem mlpRow_zero (gw uw : Fin 768 → Fin 2048 → EReal) (dw : Fin 2048 → Fin 768 → EReal) (h : Fin 2048) :
    mlpRow (fun _ => 0) gw uw dw h = 0 := by
  unfold mlpRow hid
  refine Finset.sum_eq_zero fun i _ => ?_
  rw [proj_zero, zero_mul, zero_mul, zero_mul]

end Cert.Spec

end
-- ==== Proof.KPay.lean ====
/-
  The kernel body's arithmetic read at an index, on the extended reals.

  The body takes a [1, 128, 2048] block of token rows and one expert's three weight blocks, drops the leading unit
  axes, forms the gate and up projections as block products with the weights' LAST axes contracted, multiplies
  `gate * logistic gate * up` entry by entry, and contracts the result against the last axis of the down projection.
  On the extended reals a change of float format is the identity and a block product into the zero accumulator is the
  plain sum over the contracted coordinate, so the stored block at (0, r, h) is the row function `Cert.Spec.mlpRow` of
  row r of the token block (`pay1_apply`). The other branch stores the zero block (`pay2_apply`).

  Steps: the two dimension-number records send the output index (r, c) and the contracted coordinate k to the operand
  indices (r, k) and (c, k) (`lhsP` … `rhsD`); through the bijection between a one-axis contraction index and its
  coordinate each block product becomes a sum over `Fin 2048` / `Fin 768` (`mmP_apply`, `mmD_apply`); a projection
  with its casts is `Cert.Spec.proj` (`projBlock_apply`); the entrywise operations read through.
-/
import proofs.«158005_j12481174962624_2_alg».proof.Proof.Gen.KernelIdeal.Skeleton
import proofs.«158005_j12481174962624_2_alg».proof.Proof.Spec
import Idealize.ShloMosaic.PureOps.Ideal.Laws
import Idealize.ShloMosaic.Lib.ValueLayout

noncomputable section

namespace Cert.KernelIdeal.Hand

open Idealize.ShloMosaic Idealize.ShloMosaic.ValueIdx

/-- The gate and up projections' dimension numbers: a [128, 2048] block against a [768, 2048] weight, the last axes
    contracted. -/
abbrev DP : DotDims S128x2048 S768x2048 S128x768 := dot_S128x2048_S768x2048_S128x768_1_1_0_0_n_n
/-- The down projection's dimension numbers: a [128, 768] block against a [2048, 768] weight, the last axes contracted. -/
abbrev DD : DotDims S128x768 S2048x768 S128x2048 := dot_S128x768_S2048x768_S128x2048_1_1_0_0_n_n

/-- A projection's left operand at output index (r, i) and contracted coordinate k is read at (r, k). -/
theorem lhsP (r : Fin 128) (i : Fin 768) (k : Fin 2048) :
    DP.lhsIdx (ix2 r i) ((contrEquiv1 DP 2048 rfl rfl).symm k) = ix2 r k := by
  have c := contrEquiv1_symm_val DP 2048 rfl rfl k
  funext ax; apply Fin.ext
  match ax with
  | ⟨0, _⟩ => simp [DotDims.lhsIdx, DP, dot_S128x2048_S768x2048_S128x768_1_1_0_0_n_n]; rfl
  | ⟨1, _⟩ => simp [DotDims.lhsIdx, DP, dot_S128x2048_S768x2048_S128x768_1_1_0_0_n_n]; exact c

/-- A projection's right operand at output index (r, i) and contracted coordinate k is read at (i, k). -/
theorem rhsP (r : Fin 128) (i : Fin 768) (k : Fin 2048) :
    DP.rhsIdx (ix2 r i) ((contrEquiv1 DP 2048 rfl rfl).symm k) = ix2 i k := by
  have c := contrEquiv1_symm_val DP 2048 rfl rfl k
  funext ax; apply Fin.ext
  match ax with
  | ⟨0, _⟩ => simp [DotDims.rhsIdx, DP, dot_S128x2048_S768x2048_S128x768_1_1_0_0_n_n]; rfl
  | ⟨1, _⟩ => simp [DotDims.rhsIdx, DP, dot_S128x2048_S768x2048_S128x768_1_1_0_0_n_n]; exact c

/-- The down projection's left operand at output index (r, h) and contracted coordinate i is read at (r, i). -/
theorem lhsD (r : Fin 128) (h : Fin 2048) (i : Fin 768) :
    DD.lhsIdx (ix2 r h) ((contrEquiv1 DD 768 rfl rfl).symm i) = ix2 r i := by
  have c := contrEquiv1_symm_val DD 768 rfl rfl i
  funext ax; apply Fin.ext
  match ax with
  | ⟨0, _⟩ => simp [DotDims.lhsIdx, DD, dot_S128x768_S2048x768_S128x2048_1_1_0_0_n_n]; rfl
  | ⟨1, _⟩ => simp [DotDims.lhsIdx, DD, dot_S128x768_S2048x768_S128x2048_1_1_0_0_n_n]; exact c

/-- The down projection's right operand at output index (r, h) and contracted coordinate i is read at (h, i). -/
theorem rhsD (r : Fin 128) (h : Fin 2048) (i : Fin 768) :
    DD.rhsIdx (ix2 r h) ((contrEquiv1 DD 768 rfl rfl).symm i) = ix2 h i := by
  have c := contrEquiv1_symm_val DD 768 rfl rfl i
  funext ax; apply Fin.ext
  match ax with
  | ⟨0, _⟩ => simp [DotDims.rhsIdx, DD, dot_S128x768_S2048x768_S128x2048_1_1_0_0_n_n]; rfl
  | ⟨1, _⟩ => simp [DotDims.rhsIdx, DD, dot_S128x768_S2048x768_S128x2048_1_1_0_0_n_n]; exact c

/-- A projection's block product into the zero accumulator, read at (r, i): row r of the block against row i of the
    weight, summed over the width. -/
theorem mmP_apply (A : FVec Ideal S128x2048 .bf16) (B : FVec Ideal S768x2048 .bf16) (r : Fin 128) (i : Fin 768) :
    matmul DP none A B (constant S128x768 .f32 0x00000000#32) (ix2 r i) = ∑ k : Fin 2048, A (ix2 r k) * B (ix2 i k) := by
  show FloatOps.matmul DP none A B (constant S128x768 .f32 0x00000000#32) (ix2 r i) = _
  rw [Ideal.matmul_constant_zero_apply, ← Equiv.sum_comp (contrEquiv1 DP 2048 rfl rfl).symm]
  refine Finset.sum_congr rfl fun k _ => ?_
  rw [lhsP, rhsP]

/-- The down projection's block product into the zero accumulator, read at (r, h): row r of the hidden block against
    row h of the weight, summed over the hidden width. -/
theorem mmD_apply (A : FVec Ideal S128x768 .bf16) (B : FVec Ideal S2048x768 .bf16) (r : Fin 128) (h : Fin 2048) :
    matmul DD none A B (constant S128x2048 .f32 0x00000000#32) (ix2 r h) = ∑ i : Fin 768, A (ix2 r i) * B (ix2 h i) := by
  show FloatOps.matmul DD none A B (constant S128x2048 .f32 0x00000000#32) (ix2 r h) = _
  rw [Ideal.matmul_constant_zero_apply, ← Equiv.sum_comp (contrEquiv1 DD 768 rfl rfl).symm]
  refine Finset.sum_congr rfl fun i _ => ?_
  rw [lhsD, rhsD]

/-- The logistic of a block, read at an index, is the logistic of the entry. -/
theorem logistic_apply {s : Shape} {φ : FTy} (x : FVec Ideal s φ) (i : s.Idx) : logistic x i = Ideal.logistic (x i) := rfl

/-- One projection as the body computes it — the token block with its unit axis dropped, against the weight block with
    its unit axis dropped and its format narrowed (the identity on extended reals) — read at (r, i): the projection of
    row r against row i of the weight. -/
theorem projBlock_apply (x : FVec Ideal S1x128x2048 .bf16) (w : FVec Ideal S1x768x2048 .f32)
    (hx : S1x128x2048.ShapeCasts S128x2048) (hw : S1x768x2048.ShapeCasts S768x2048) (hb : FTy.bits .bf16 < FTy.bits .f32)
    (r : Fin 128) (i : Fin 768) :
    matmul (F := Ideal) DP none (shapeCast S128x2048 x hx) (truncf .bf16 (shapeCast S768x2048 w hw) hb)
        (constant (F := Ideal) S128x768 .f32 0x00000000#32) (ix2 r i)
      = Cert.Spec.proj (fun k => x (ix3 (0 : Fin 1) r k)) (fun i k => w (ix3 (0 : Fin 1) i k)) i := by
  rw [mmP_apply]
  unfold Cert.Spec.proj
  refine Finset.sum_congr rfl fun k _ => ?_
  rw [truncf_apply, shapeCast_1ab_ab_apply, shapeCast_1ab_ab_apply]

/-- The zero block: the f32 zero word broadcast over [128, 2048], under the cast that adds the unit axis, is the
    extended real 0 at every index. -/
theorem pay2_apply (j : S1x128x2048.Idx) : Gen.k0_pay2 (F := Ideal) j = 0 := by
  obtain ⟨u, r, h, rfl⟩ : ∃ (u : Fin 1) (r : Fin 128) (h : Fin 2048), j = ix3 u r h := ⟨j 0, j 1, j 2, eq_ix3 j⟩
  unfold Gen.k0_pay2
  rw [shapeCast_ab_1ab_apply, broadcast_apply]
  exact Ideal.ofBits_zero_f32

/-- The computed block at (0, r, h) is the gated feed-forward row function of row r of the token block, against the
    three weight blocks with their unit axes dropped. -/
theorem pay1_apply (v9 : Vec Ideal S1x128x2048 .bf16) (v11 v14 : Vec Ideal S1x768x2048 .f32) (v17 : Vec Ideal S1x2048x768 .f32)
    (r : Fin 128) (h : Fin 2048) :
    Gen.k0_pay1 (F := Ideal) v9 v11 v14 v17 (ix3 (0 : Fin 1) r h)
      = Cert.Spec.mlpRow (fun k => v9 (ix3 (0 : Fin 1) r k)) (fun i k => v11 (ix3 (0 : Fin 1) i k))
          (fun i k => v14 (ix3 (0 : Fin 1) i k)) (fun h' i => v17 (ix3 (0 : Fin 1) h' i)) h := by
  unfold Gen.k0_pay1
  rw [shapeCast_ab_1ab_apply, mmD_apply]
  unfold Cert.Spec.mlpRow Cert.Spec.hid
  refine Finset.sum_congr rfl fun i _ => ?_
  rw [truncf_apply, truncf_apply, mulf_apply, mulf_apply, shapeCast_1ab_ab_apply, logistic_apply,
    projBlock_apply, projBlock_apply]

end Cert.KernelIdeal.Hand

end
-- ==== Proof.KValue.lean ====
/-
  The kernel region's result array as one function of the arrays the region finds.

  Grid point t is (expert, tile). The printed index maps place window 0's and the result window's block at
  (expert, tile, 0) — rows tile * 128 … tile * 128 + 127 of the expert — and each weight's block at (expert, 0, 0); they
  do not read the counts table, so every structural fact here is proved with the table's contents a variable and the
  contents the region actually reads are put in last. A block's element sits in its array, on each axis, at the block
  index times the block's size plus its own coordinate.

  After the body at point t the output's buffer holds, at (0, r, h), the gated feed-forward row function of row
  (expert, tile * 128 + r) of the packed tokens against the expert's weights when the tile's first row is below the
  expert's count, and zero otherwise (`outsAt_apply`): the stored block is the body's arithmetic of the four loaded
  blocks, read at an index, and the word compared is the counts' entry at the expert. That is block t of ONE function
  `yK` of the whole arrays, every point writes its block back (consecutive points have different blocks), and row p of
  expert e lies in the block of the point (e, p / 128); so the result array ends holding `yK` (`final4`).
-/
import proofs.«158005_j12481174962624_2_alg».proof.Proof.KValuePieces
import proofs.«158005_j12481174962624_2_alg».proof.Proof.KPay
import proofs.«158005_j12481174962624_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

/-! ## The grid's points and the index maps -/

/-- The expert of grid point t. -/
def eOf (t : Fin grid0.N) : Fin 64 := ⟨(grid0.coords t 0).val, (grid0.coords t 0).isLt⟩
/-- The tile of grid point t. -/
def qOf (t : Fin grid0.N) : Fin 2 := ⟨(grid0.coords t 1).val, (grid0.coords t 1).isLt⟩
/-- Row r of point t's tile, as a row of the expert's 256. -/
def rowOf (t : Fin grid0.N) (r : Fin 128) : Fin 256 := ⟨(qOf t).val * 128 + r.val, by have := (qOf t).isLt; have := r.isLt; omega⟩

/-- The printed index maps over the grid: windows 0 and 4 move with (expert, tile), the weights with the expert. -/
theorem tr_facts : ∀ t : Fin grid0.N,
    cc0_transform_0 (grid0.coords t) 0 = (eOf t).val ∧ cc0_transform_0 (grid0.coords t) 1 = (qOf t).val ∧ cc0_transform_0 (grid0.coords t) 2 = 0
    ∧ cc0_transform_1 (grid0.coords t) 0 = (eOf t).val ∧ cc0_transform_1 (grid0.coords t) 1 = 0 ∧ cc0_transform_1 (grid0.coords t) 2 = 0
    ∧ cc0_transform_2 (grid0.coords t) 0 = (eOf t).val ∧ cc0_transform_2 (grid0.coords t) 1 = 0 ∧ cc0_transform_2 (grid0.coords t) 2 = 0
    ∧ cc0_transform_3 (grid0.coords t) 0 = (eOf t).val ∧ cc0_transform_3 (grid0.coords t) 1 = 0 ∧ cc0_transform_3 (grid0.coords t) 2 = 0
    ∧ cc0_transform_4 (grid0.coords t) 0 = (eOf t).val ∧ cc0_transform_4 (grid0.coords t) 1 = (qOf t).val ∧ cc0_transform_4 (grid0.coords t) 2 = 0 := by
  decide +kernel

/-- Consecutive points have different output blocks. -/
theorem step_facts : ∀ t : Fin grid0.N, t.val + 1 = grid0.N ∨ ∃ h : t.val + 1 < grid0.N, cc0_transform_4 (grid0.coords ⟨t.val + 1, h⟩) ≠ cc0_transform_4 (grid0.coords t) := by
  decide +kernel

/-- The point (e, q) is number 2 e + q of the grid. -/
theorem pt_facts : ∀ (e : Fin 64) (q : Fin 2), ∃ h : e.val * 2 + q.val < grid0.N, eOf ⟨e.val * 2 + q.val, h⟩ = e ∧ qOf ⟨e.val * 2 + q.val, h⟩ = q := by
  decide +kernel

section Structural
variable (a : (pcfg0 (F := F)).Adm)

theorem index0 (t : Fin (cfg0 a).N) : ((cfg0 a).win 0).index t = cc0_transform_0 (grid0.coords t) := rfl
theorem index1 (t : Fin (cfg0 a).N) : ((cfg0 a).win 1).index t = cc0_transform_1 (grid0.coords t) := rfl
theorem index2 (t : Fin (cfg0 a).N) : ((cfg0 a).win 2).index t = cc0_transform_2 (grid0.coords t) := rfl
theorem index3 (t : Fin (cfg0 a).N) : ((cfg0 a).win 3).index t = cc0_transform_3 (grid0.coords t) := rfl
theorem index4 (t : Fin (cfg0 a).N) : ((cfg0 a).win 4).index t = cc0_transform_4 (grid0.coords t) := rfl

/-- Window 0's block at point t, read at (u, r, k), is the packed token array at (expert, tile * 128 + r, k). -/
theorem blk0_read (t : Fin (cfg0 a).N) (X : S64x256x2048.Idx → F .bf16) (u : Fin 1) (r : Fin 128) (k : Fin 2048) :
    (((cfg0 a).win 0).blk t).view.read (Elt F) X (ix3 u r k) = X (ix3 (eOf t) (rowOf t r) k) := by
  obtain ⟨e0, e1, e2, -⟩ := tr_facts t
  show X _ = X _
  refine congrArg X (funext fun (b : Fin 3) => Fin.ext ?_)
  match b with
  | ⟨0, _⟩ => show ((cfg0 a).win 0).index t (0 : Fin 3) * 1 + 1 * u.val = (eOf t).val; rw [index0, e0]; omega
  | ⟨1, _⟩ => show ((cfg0 a).win 0).index t (1 : Fin 3) * 128 + 1 * r.val = (qOf t).val * 128 + r.val; rw [index0, e1]; omega
  | ⟨2, _⟩ => show ((cfg0 a).win 0).index t (2 : Fin 3) * 2048 + 1 * k.val = k.val; rw [index0, e2]; omega

/-- Window 1's block at point t, read at (u, i, k), is the gate weight at (expert, i, k). -/
theorem blk1_read (t : Fin (cfg0 a).N) (X : S64x768x2048.Idx → F .f32) (u : Fin 1) (i : Fin 768) (k : Fin 2048) :
    (((cfg0 a).win 1).blk t).view.read (Elt F) X (ix3 u i k) = X (ix3 (eOf t) i k) := by
  obtain ⟨-, -, -, e0, e1, e2, -⟩ := tr_facts t
  show X _ = X _
  refine congrArg X (funext fun (b : Fin 3) => Fin.ext ?_)
  match b with
  | ⟨0, _⟩ => show ((cfg0 a).win 1).index t (0 : Fin 3) * 1 + 1 * u.val = (eOf t).val; rw [index1, e0]; omega
  | ⟨1, _⟩ => show ((cfg0 a).win 1).index t (1 : Fin 3) * 768 + 1 * i.val = i.val; rw [index1, e1]; omega
  | ⟨2, _⟩ => show ((cfg0 a).win 1).index t (2 : Fin 3) * 2048 + 1 * k.val = k.val; rw [index1, e2]; omega

/-- Window 2's block at point t, read at (u, i, k), is the up weight at (expert, i, k). -/
theorem blk2_read (t : Fin (cfg0 a).N) (X : S64x768x2048.Idx → F .f32) (u : Fin 1) (i : Fin 768) (k : Fin 2048) :
    (((cfg0 a).win 2).blk t).view.read (Elt F) X (ix3 u i k) = X (ix3 (eOf t) i k) := by
  obtain ⟨-, -, -, -, -, -, e0, e1, e2, -⟩ := tr_facts t
  show X _ = X _
  refine congrArg X (funext fun (b : Fin 3) => Fin.ext ?_)
  match b with
  | ⟨0, _⟩ => show ((cfg0 a).win 2).index t (0 : Fin 3) * 1 + 1 * u.val = (eOf t).val; rw [index2, e0]; omega
  | ⟨1, _⟩ => show ((cfg0 a).win 2).index t (1 : Fin 3) * 768 + 1 * i.val = i.val; rw [index2, e1]; omega
  | ⟨2, _⟩ => show ((cfg0 a).win 2).index t (2 : Fin 3) * 2048 + 1 * k.val = k.val; rw [index2, e2]; omega

/-- Window 3's block at point t, read at (u, h, i), is the down weight at (expert, h, i). -/
theorem blk3_read (t : Fin (cfg0 a).N) (X : S64x2048x768.Idx → F .f32) (u : Fin 1) (h : Fin 2048) (i : Fin 768) :
    (((cfg0 a).win 3).blk t).view.read (Elt F) X (ix3 u h i) = X (ix3 (eOf t) h i) := by
  obtain ⟨-, -, -, -, -, -, -, -, -, e0, e1, e2, -⟩ := tr_facts t
  show X _ = X _
  refine congrArg X (funext fun (b : Fin 3) => Fin.ext ?_)
  match b with
  | ⟨0, _⟩ => show ((cfg0 a).win 3).index t (0 : Fin 3) * 1 + 1 * u.val = (eOf t).val; rw [index3, e0]; omega
  | ⟨1, _⟩ => show ((cfg0 a).win 3).index t (1 : Fin 3) * 2048 + 1 * h.val = h.val; rw [index3, e1]; omega
  | ⟨2, _⟩ => show ((cfg0 a).win 3).index t (2 : Fin 3) * 768 + 1 * i.val = i.val; rw [index3, e2]; omega

/-- WHAT POINT t WRITES BACK: if the output's buffer after the body is B, and B at (u, r, h) is G at
    (expert, tile * 128 + r, h), then the write-back is block t of G. -/
theorem flushed4_of {c : Dev nD} (dat : Dat τ (Elt F) Unit ℕ (UR sig nD τ) ℕ (cfg0 a) c) (t : Fin (cfg0 a).N)
    (G : S64x256x2048.Idx → F .f32) (B : Vec F S1x128x2048 .f32) (hafter : dat.after 4 t = B)
    (hB : ∀ (u : Fin 1) (r : Fin 128) (h : Fin 2048), B (ix3 u r h) = G (ix3 (eOf t) (rowOf t r) h)) :
    dat.flushed 4 t = (((cfg0 a).win 4).blk t).view.read (Elt F) G := by
  obtain ⟨-, -, -, -, -, -, -, -, -, -, -, -, e0, e1, e2⟩ := tr_facts t
  show ((cfg0 a).win 4).cut (grid0.coords t) (dat.after 4 t) = _
  rw [hafter]
  funext x
  obtain ⟨u, r, h, rfl⟩ : ∃ (u : Fin 1) (r : Fin 128) (h : Fin 2048), x = (ix3 u r h : S1x128x2048.Idx) :=
    ⟨x (0 : Fin 3), x (1 : Fin 3), x (2 : Fin 3), eq_ix3 (n0 := 1) (n1 := 128) (n2 := 2048) x⟩
  have hx : ((cfg0 a).win 4).xinj (grid0.coords t) (ix3 u r h : S1x128x2048.Idx) = (ix3 u r h : S1x128x2048.Idx) :=
    funext fun (b : Fin 3) => match b with | ⟨0, _⟩ => rfl | ⟨1, _⟩ => rfl | ⟨2, _⟩ => rfl
  show B (((cfg0 a).win 4).xinj (grid0.coords t) (ix3 u r h : S1x128x2048.Idx)) = G _
  rw [hx, hB]
  refine congrArg G (funext fun (b : Fin 3) => Fin.ext ?_)
  match b with
  | ⟨0, _⟩ => show (eOf t).val = ((cfg0 a).win 4).index t (0 : Fin 3) * 1 + 1 * u.val; rw [index4, e0]; omega
  | ⟨1, _⟩ => show (qOf t).val * 128 + r.val = ((cfg0 a).win 4).index t (1 : Fin 3) * 128 + 1 * r.val; rw [index4, e1]; omega
  | ⟨2, _⟩ => show h.val = ((cfg0 a).win 4).index t (2 : Fin 3) * 2048 + 1 * h.val; rw [index4, e2]; omega

/-- An index of the result array is in point t's block iff each coordinate is in the block's range on its axis. -/
theorem mem_blk4 (t : Fin (cfg0 a).N) (i : S64x256x2048.Idx) :
    i ∈ (((cfg0 a).win 4).blk t).view.set ↔ ∀ b : Fin 3, ((cfg0 a).win 4).index t b * S1x128x2048.size b ≤ (i b).val
      ∧ (i b).val < ((cfg0 a).win 4).index t b * S1x128x2048.size b + S1x128x2048.size b := by
  show i ∈ ((View.whole main_v46).slice (((cfg0 a).win 4).rect t)).set ↔ _
  exact (Iff.of_eq (congrArg (fun S => i ∈ S) (View.set_slice_whole main_v46 (((cfg0 a).win 4).rect t)))).trans Rect.mem_set_unit

/-- Every point writes its output block back: the next point's block is another one. -/
theorem flush4 (t : Fin (cfg0 a).N) : ((cfg0 a).win 4).flush t = true := by
  unfold Pipeline.Window.flush
  rw [show ((cfg0 a).win 4).isOut = true from rfl, Bool.true_and, Bool.or_eq_true, decide_eq_true_eq, decide_eq_true_eq]
  rcases step_facts t with h | ⟨h, hne⟩
  · exact Or.inl h
  · exact Or.inr ⟨h, hne⟩

/-- Row p of expert e is in the block of the point (e, p / 128), which writes back. -/
theorem cover4 (i : S64x256x2048.Idx) :
    ∃ t : Fin (cfg0 a).N, ((cfg0 a).win 4).flush t = true ∧ i ∈ (((cfg0 a).win 4).blk t).view.set := by
  have h0 : (i 0).val < 64 := (i 0).isLt
  have h1 : (i 1).val < 256 := (i 1).isLt
  have h2 : (i 2).val < 2048 := (i 2).isLt
  obtain ⟨ht, he, hq⟩ := pt_facts ⟨(i 0).val, h0⟩ ⟨(i 1).val / 128, by omega⟩
  refine ⟨⟨(i 0).val * 2 + (i 1).val / 128, ht⟩, flush4 a _, ?_⟩
  obtain ⟨-, -, -, -, -, -, -, -, -, -, -, -, e0, e1, e2⟩ := tr_facts ⟨(i 0).val * 2 + (i 1).val / 128, ht⟩
  have he' : (eOf ⟨(i 0).val * 2 + (i 1).val / 128, ht⟩).val = (i 0).val := congrArg Fin.val he
  have hq' : (qOf ⟨(i 0).val * 2 + (i 1).val / 128, ht⟩).val = (i 1).val / 128 := congrArg Fin.val hq
  rw [mem_blk4]
  intro b
  match b with
  | ⟨0, _⟩ => show ((cfg0 a).win 4).index _ (0 : Fin 3) * 1 ≤ (i 0).val ∧ (i 0).val < ((cfg0 a).win 4).index _ (0 : Fin 3) * 1 + 1; rw [index4, e0, he']; omega
  | ⟨1, _⟩ => show ((cfg0 a).win 4).index _ (1 : Fin 3) * 128 ≤ (i 1).val ∧ (i 1).val < ((cfg0 a).win 4).index _ (1 : Fin 3) * 128 + 128; rw [index4, e1, hq']; omega
  | ⟨2, _⟩ => show ((cfg0 a).win 4).index _ (2 : Fin 3) * 2048 ≤ (i 2).val ∧ (i 2).val < ((cfg0 a).win 4).index _ (2 : Fin 3) * 2048 + 2048; rw [index4, e2]; omega

end Structural

/-! ## The region's result as one function -/

/-- The grid point (expert, tile). -/
def tilePt (e : Fin 64) (q : Fin 2) : grid0.Coords := fun b => match b with | ⟨0, _⟩ => e | ⟨1, _⟩ => q

/-- The body's first comparison reads only the tile coordinate of the point. -/
theorem cond1_congr (i i' : grid0.Coords) (v : BitVec 32) (h : (i 1).val = (i' 1).val) : k0_cond1 i v = k0_cond1 i' v := by
  unfold k0_cond1
  dsimp only
  rw [h]

/-- The result at (e, p, h): the gated feed-forward row function of the packed row (e, p) against expert e's weights when
    the first row of p's tile is below the expert's count, zero otherwise. -/
def yKat (xe : FVec Ideal S64x256x2048 .bf16) (cnt : (⟨S64, .i32⟩ : BufTy).Contents (Elt Ideal))
    (gw uw : FVec Ideal S64x768x2048 .f32) (dw : FVec Ideal S64x2048x768 .f32) (e : Fin 64) (p : Fin 256) (h : Fin 2048) : EReal :=
  if k0_cond1 (tilePt e ⟨p.val / 128, by have := p.isLt; omega⟩) (cnt (ix1 e)) = 1#1 then
    Cert.Spec.mlpRow (fun k => xe (ix3 e p k)) (fun i k => gw (ix3 e i k)) (fun i k => uw (ix3 e i k)) (fun h' i => dw (ix3 e h' i)) h
  else 0

/-- The region's result as one function of the packed tokens, the counts and the weights. -/
def yK (xe : FVec Ideal S64x256x2048 .bf16) (cnt : (⟨S64, .i32⟩ : BufTy).Contents (Elt Ideal))
    (gw uw : FVec Ideal S64x768x2048 .f32) (dw : FVec Ideal S64x2048x768 .f32) : FVec Ideal S64x256x2048 .f32 :=
  fun j => yKat xe cnt gw uw dw (j 0) (j 1) (j 2)

theorem yK_apply (xe : FVec Ideal S64x256x2048 .bf16) (cnt : (⟨S64, .i32⟩ : BufTy).Contents (Elt Ideal))
    (gw uw : FVec Ideal S64x768x2048 .f32) (dw : FVec Ideal S64x2048x768 .f32) (e : Fin 64) (p : Fin 256) (h : Fin 2048) :
    yK xe cnt gw uw dw (ix3 e p h) = yKat xe cnt gw uw dw e p h := rfl

variable (m : (ℓ : Loc nD τ sig) → Buf (Elt Ideal) ℓ)

/-- The word point t compares against is the counts buffer's entry at t's expert. -/
theorem word_at (c : Dev nD) (t : Fin (cfgM m).N) :
    ((tbM).view.readAt (Elt Ideal) (Rect.unit (s := S64) (k0_off1 (grid0.coords t)) S1.size (k0_off1_inb (grid0.coords t))).toLoadRect (tbl m 0) (Shape.Idx.first (numel1_S1.symm ▸ Nat.one_pos))) = (V m c main_v45 : S64.Idx → BitVec 32) (ix1 (eOf t)) :=
  (word_eq c (grid0.coords t) (tbl m 0)).trans (congrFun (V_pre m c 0).symm (ix1 (eOf t)))

/-- The comparison the result function makes at a row of point t's tile is the one the body makes at t. -/
theorem cond_at (c : Dev nD) (t : Fin (cfgM m).N) (r : Fin 128) :
    k0_cond1 (tilePt (eOf t) ⟨(rowOf t r).val / 128, by have := (rowOf t r).isLt; omega⟩) ((V m c main_v45 : S64.Idx → BitVec 32) (ix1 (eOf t)))
      = k0_cond1 (grid0.coords t) ((tbM).view.readAt (Elt Ideal) (Rect.unit (s := S64) (k0_off1 (grid0.coords t)) S1.size (k0_off1_inb (grid0.coords t))).toLoadRect (tbl m 0) (Shape.Idx.first (numel1_S1.symm ▸ Nat.one_pos))) := by
  rw [word_at m c t]
  refine cond1_congr _ _ _ ?_
  show (rowOf t r).val / 128 = (grid0.coords t 1).val
  have hr := r.isLt
  show ((qOf t).val * 128 + r.val) / 128 = (qOf t).val
  omega

/-- The output's buffer after the body at point t, read at (u, r, h), is the result function at
    (expert, tile * 128 + r, h) of the arrays as the region finds them. -/
theorem outsAt_apply (c : Dev nD) (t : Fin (cfgM m).N) (u : Fin 1) (r : Fin 128) (h : Fin 2048) :
    outsAt (F := Ideal) m c t (ix3 u r h)
      = yKat (V m c main_v36) (V m c main_v45) (V m c main_arg2) (V m c main_arg3) (V m c main_arg4) (eOf t) (rowOf t r) h := by
  obtain rfl : u = 0 := Subsingleton.elim _ _
  unfold outsAt yKat
  by_cases hcond : k0_cond1 (grid0.coords t) ((tbM).view.readAt (Elt Ideal) (Rect.unit (s := S64) (k0_off1 (grid0.coords t)) S1.size (k0_off1_inb (grid0.coords t))).toLoadRect (tbl m 0) (Shape.Idx.first (numel1_S1.symm ▸ Nat.one_pos))) = 1#1
  · rw [dif_pos hcond, if_pos ((cond_at m c t r).trans hcond)]
    refine (congrFun (outA_eq c (grid0.coords t) (ms0 m t) (hs0 m t) (ms1 m t) (hs1 m t) (ms2 m t) (hs2 m t) (ms3 m t) (hs3 m t) (ms4 m t) (hs4 m t)
      (iblk m c 0 t) (iblk m c 1 t) (iblk m c 2 t) (iblk m c 3 t) (tbl m 0) hcond (fun h2 => (cond2_iff _ _).mp h2 hcond)) (ix3 (0 : Fin 1) r h)).trans ?_
    refine (pay1_apply (iblk m c 0 t) (iblk m c 1 t) (iblk m c 2 t) (iblk m c 3 t) r h).trans ?_
    have h0 : (fun k => iblk m c 0 t (ix3 (0 : Fin 1) r k)) = fun k => V m c main_v36 (ix3 (eOf t) (rowOf t r) k) :=
      funext fun k => blk0_read (adm m) t (V m c main_v36) 0 r k
    have h1 : (fun i k => iblk m c 1 t (ix3 (0 : Fin 1) i k)) = fun i k => V m c main_arg2 (ix3 (eOf t) i k) :=
      funext fun i => funext fun k => blk1_read (adm m) t (V m c main_arg2) 0 i k
    have h2 : (fun i k => iblk m c 2 t (ix3 (0 : Fin 1) i k)) = fun i k => V m c main_arg3 (ix3 (eOf t) i k) :=
      funext fun i => funext fun k => blk2_read (adm m) t (V m c main_arg3) 0 i k
    have h3 : (fun h' i => iblk m c 3 t (ix3 (0 : Fin 1) h' i)) = fun h' i => V m c main_arg4 (ix3 (eOf t) h' i) :=
      funext fun h' => funext fun i => blk3_read (adm m) t (V m c main_arg4) 0 h' i
    rw [h0, h1, h2, h3]
  · rw [dif_neg hcond, if_neg (fun hh => hcond ((cond_at m c t r).symm.trans hh))]
    refine (congrFun (outB_eq c (grid0.coords t) (ms0 m t) (hs0 m t) (ms1 m t) (hs1 m t) (ms2 m t) (hs2 m t) (ms3 m t) (hs3 m t) (ms4 m t) (hs4 m t)
      (iblk m c 0 t) (iblk m c 1 t) (iblk m c 2 t) (iblk m c 3 t) (tbl m 0) hcond ((cond2_iff _ _).mpr hcond)) (ix3 (0 : Fin 1) r h)).trans ?_
    exact pay2_apply _

/-- WHAT POINT t WRITES BACK is block t of the result function of the arrays as the region finds them. -/
theorem flushed4_eq (c : Dev nD) (t : Fin (cfgM m).N) :
    (dats (F := Ideal) m 0 c).flushed 4 t = (((cfgM m).win 4).blk t).view.read (Elt Ideal)
      (yK (V m c main_v36) (V m c main_v45) (V m c main_arg2) (V m c main_arg3) (V m c main_arg4)) :=
  flushed4_of (adm m) (dats m 0 c) t _ (outsAt m c t) (after4 m c t) fun u r h =>
    (outsAt_apply m c t u r h).trans (yK_apply _ _ _ _ _ (eOf t) (rowOf t r) h).symm

/-- THE RESULT ARRAY after the region: the result function of the packed tokens, the counts and the weights as the region
    finds them. -/
theorem final4 (c : Dev nD) :
    (dats (F := Ideal) m 0 c).arrAt 4 (cfgM m).N
      = yK (V m c main_v36) (V m c main_v45) (V m c main_arg2) (V m c main_arg3) (V m c main_arg4) :=
  (dats m 0 c).arrAt_eq_of_cover 4 _ (fun t _ => flushed4_eq m c t) (cover4 (adm m))

end Cert.KernelIdeal.Hand

end
-- ==== Proof.PackingDefs.lean ====
/-
  The routing tables of the mixture-of-experts block, as functions of the flattened expert choice.

  Both programs pack the routed (token, expert) pairs into a buffer of 256 rows per expert. For the
  flattened choices ef[n] (n < 8192), the one-hot matrix oh[n, j] = [ef[n] = j] (j < 64) is summed
  down its columns (cs[n, j] = the number of n' ≤ n with ef[n'] = j), the slot of pair n is
  pos[n] = (the sum over j of cs[n, j] * oh[n, j]) - 1, the pair is kept when pos[n] < 256, and the kept
  pairs' token rows are added into row (expert, slot) of a zero buffer of 257 rows per expert, whose
  row 256 collects every dropped pair and is cut off afterwards. The per-expert counts add one for
  every kept pair. Negative expert or slot numbers are wrapped once (as a Python index would be),
  and a pair whose wrapped numbers fall outside the buffer is dropped by the scatter itself.

  Each definition below is one host operation's function applied to the previous ones, so that the
  compositions xeOf and countsOf are the values the host prefix computes.
-/
import proofs.«158005_j12481174962624_2_alg».proof.Proof.Gen.KernelIdeal
import Idealize.ShloMosaic.Lib.ValueIdx

noncomputable section

namespace Cert.KernelIdeal.Hand

open Idealize.ShloMosaic Cert.KernelIdeal Cert.KernelIdeal.Gen

/-- A scalar integer constant spread over the 8192 pairs. -/
def splat (c : BitVec 32) : IVec S8192 32 :=
  broadcastInDim S8192 ![] bcast_S_S8192 (constantI S_ 32 c)

/-- A negative number is wrapped once by adding the extent, as a Python index is. -/
def wrapBy (c : BitVec 32) (x : IVec S8192 32) : IVec S8192 32 :=
  select (cmpi .slt x (splat 0#32)) (addi x (splat c)) x

/-- A vector of 8192 numbers as a column. -/
def col (x : IVec S8192 32) : IVec S8192x1 32 :=
  broadcastInDim S8192x1 ![0] bcast_S8192_S8192x1_0 x

/-- The one-hot matrix of the expert choices: oh[n, j] = 1 when ef[n] = j, else 0. -/
def onehotOf (ef : IVec S8192 32) : IVec S8192x64 32 :=
  extui 32
    (cmpi .eq (broadcastInDim S8192x64 ![0, 1] bcast_S8192x1_S8192x64_0_1 (col ef))
      (broadcastInDim S8192x64 ![0, 1] bcast_S1x64_S8192x64_0_1 (iotaInDim S1x64 32 1)))
    natLt_1_32

/-- The running column sums of the one-hot matrix: a window of 8192 rows ending at the row. -/
def csOf (ef : IVec S8192 32) : IVec S8192x64 32 :=
  Host.reduceWindow IntOp.addi ![8192, 1] ![1, 1] ![8191, 0] ![0, 0] (onehotOf ef)
    (broadcastInDim S_ ![] bcast_S_S_ (constantI S_ 32 0#32))
    reduceWindows_S8192x64_S8192x64_w8192s1p8191_0_w1s1p0_0 h_S_

/-- The row sums of cs * oh: the running count of the pair's own expert (0 when the choice is no expert). -/
def rankOf (ef : IVec S8192 32) : IVec S8192 32 :=
  Host.reduce IntOp.addi (muli (csOf ef) (onehotOf ef)) (constantI S_ 32 0#32) reducesTo_S8192x64_S8192_d1 h_S_

/-- The slot of each pair within its expert's rows. -/
def posOf (ef : IVec S8192 32) : IVec S8192 32 := subi (rankOf ef) (splat 1#32)

/-- The pair fits in the 256 rows. -/
def validOf (ef : IVec S8192 32) : IVec S8192 1 := cmpi .slt (posOf ef) (splat 256#32)

/-- The slot, with every pair that does not fit sent to the extra row 256. -/
def pcOf (ef : IVec S8192 32) : IVec S8192 32 :=
  select (validOf ef) (posOf ef) (broadcastInDim S8192 ![] bcast_S_S8192 (id (constantI S_ 32 256#32)))

/-- The expert number the scatter uses. -/
def eidxOf (ef : IVec S8192 32) : IVec S8192 32 := wrapBy 64#32 ef

/-- The row number the scatter uses. -/
def pidxOf (ef : IVec S8192 32) : IVec S8192 32 := wrapBy 257#32 (pcOf ef)

/-- The (expert, row) index pairs of the scatter. -/
def sidxOf (ef : IVec S8192 32) : IVec S8192x2 32 :=
  concatenate S8192x2 1 [⟨S8192x1, col (eidxOf ef)⟩, ⟨S8192x1, col (pidxOf ef)⟩] concatenates_S8192x1_S8192x1_S8192x2_d1

/-- The 257-row buffer: zero plus every pair's row added at its (expert, row). -/
def xe257Of (upd : FVec Ideal S8192x2048 .f32) (ef : IVec S8192 32) : FVec Ideal S64x257x2048 .f32 :=
  Host.scatterAdd (F := Ideal) scatter_S64x257x2048_S8192x2_S8192x2048_1_01_01_1
    (broadcastInDim S64x257x2048 ![] bcast_S_S64x257x2048 (constant (F := Ideal) S_ .f32 0x00000000#32))
    (sidxOf ef) upd

/-- The packed buffer: the first 256 rows of each expert. -/
def xePacked (upd : FVec Ideal S8192x2048 .f32) (ef : IVec S8192 32) : FVec Ideal S64x256x2048 .f32 :=
  extractStridedSlice S64x256x2048 ![0, 0, 0] (xe257Of upd ef) slices_S64x257x2048_S64x256x2048_0_0_0

/-- The per-expert counts: one added at the pair's expert for every pair that fits. -/
def countsPacked (ef : IVec S8192 32) : IVec S64 32 :=
  Host.scatter scatter_S64_S8192x1_S8192_n_0_0_1 IntOp.addi
    (broadcastInDim S64 ![] bcast_S_S64 (constantI S_ 32 0#32)) (col (eidxOf ef)) (extui 32 (validOf ef) natLt_1_32)

/-- The flattened expert choices. -/
def eflatOf (idx : (⟨S1024x8, .i32⟩ : BufTy).Contents (Elt Ideal)) : IVec S8192 32 :=
  shapeCast S8192 idx shapeCasts_S1024x8_S8192

/-- The token of each pair: pair n belongs to token n / 8. -/
def tokOf : IVec S8192 32 :=
  shapeCast S8192 (broadcastInDim S1024x8 ![0] bcast_S1024_S1024x8_0 (iotaInDim S1024 32 0)) shapeCasts_S1024x8_S8192

/-- The token row of each pair. -/
def rowsOf (hid : FVec Ideal S1024x2048 .f32) : FVec Ideal S8192x2048 .f32 :=
  Host.gather gather_S1024x2048_S8192x1_S8192x2048_1_0_n_n_0_1_12048 hid (col (wrapBy 1024#32 tokOf))

/-- The packed rows the host prefix computes from the hidden states and the expert choices. -/
def xeOf (hid : FVec Ideal S1024x2048 .f32) (idx : (⟨S1024x8, .i32⟩ : BufTy).Contents (Elt Ideal)) :
    FVec Ideal S64x256x2048 .f32 :=
  xePacked (rowsOf hid) (eflatOf idx)

/-- The per-expert counts the host prefix computes from the expert choices. -/
def countsOf (idx : (⟨S1024x8, .i32⟩ : BufTy).Contents (Elt Ideal)) : (⟨S64, .i32⟩ : BufTy).Contents (Elt Ideal) :=
  countsPacked (eflatOf idx)

end Cert.KernelIdeal.Hand

end
-- ==== Proof.PackingSums.lean ====
/-
  Sums behind the integer host operations.

  Word addition (32-bit, wrapping) is the addition of a commutative ring, so a left fold of it is a sum. Three
  operations are read this way: a windowed sum (each result is the sum of the operand over the window's
  positions, a padding position contributing zero), and a scatter by addition (each result is the operand's
  element plus the sum of the updates whose target is that element, a dropped update contributing zero).
-/
import Idealize.ShloMosaic.PureOps.Reduce
import Idealize.ShloMosaic.Lib.ValueIdx
import Mathlib.Data.BitVec

noncomputable section

open scoped BigOperators

namespace Cert.KernelIdeal.Hand

open Idealize.ShloMosaic Idealize.ShloMosaic.ValueIdx

/-- A left fold of word addition over a list is the start plus the sum of the summands. -/
theorem foldl_addi_list {ι : Type} (g : ι → BitVec 32) (l : List ι) (v : BitVec 32) :
    l.foldl (fun r m => IntOp.addi r (g m)) v = v + (l.map g).sum := by
  induction l generalizing v with
  | nil => simp
  | cons a l ih =>
    rw [List.foldl_cons, ih, List.map_cons, List.sum_cons, ← add_assoc]; rfl

/-- A left fold of word addition over all positions below N is the start plus the sum of the summands. -/
theorem foldl_addi_finRange (N : Nat) (g : Fin N → BitVec 32) (v : BitVec 32) :
    (List.finRange N).foldl (fun r m => IntOp.addi r (g m)) v = v + ∑ m : Fin N, g m := by
  rw [foldl_addi_list, ← List.ofFn_eq_map, List.sum_ofFn]

/-- A rank-1 index is its coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp idxEquiv1.symm f).symm

/-- A windowed sum by word addition from zero: at each result index, the sum over the window's positions of the
    operand's element there, zero where the position is padding. -/
theorem reduceWindow_addi_apply {s t u : Shape} (window strides lo hi : Fin s.rank → Nat) (x : IVec s 32)
    (init : IVec u 32) (h : s.ReduceWindows window strides lo hi t) (hu : 0 < u.numel)
    (hv : init (Shape.Idx.first hu) = 0#32) (j : t.Idx) :
    Host.reduceWindow IntOp.addi window strides lo hi x init h hu j =
      ∑ q : (⟨s.rank, window⟩ : Shape).Idx,
        (if hin : ∀ a, lo a ≤ (j (a.cast h.1.symm)).val * strides a + (q a).val ∧
            (j (a.cast h.1.symm)).val * strides a + (q a).val - lo a < s.size a
          then x (fun a => ⟨(j (a.cast h.1.symm)).val * strides a + (q a).val - lo a, (hin a).2⟩) else 0#32) := by
  unfold Host.reduceWindow
  dsimp only
  rw [hv]
  refine (foldl_addi_finRange _ _ _).trans ?_
  rw [BitVec.zero_add]
  exact Equiv.sum_comp (Shape.rowMajor ⟨s.rank, window⟩).symm
    (fun q : (⟨s.rank, window⟩ : Shape).Idx =>
      if hin : ∀ a, lo a ≤ (j (a.cast h.1.symm)).val * strides a + (q a).val ∧
            (j (a.cast h.1.symm)).val * strides a + (q a).val - lo a < s.size a
          then x (fun a => ⟨(j (a.cast h.1.symm)).val * strides a + (q a).val - lo a, (hin a).2⟩) else 0#32)

/-- A left fold whose step adds, at the one place i, a summand that depends only on the step's position leaves
    at i the start plus the sum of the summands. -/
theorem foldl_pointwise {ι κ : Type} (step : (κ → BitVec 32) → ι → (κ → BitVec 32)) (c : ι → BitVec 32) (i : κ)
    (hstep : ∀ r n, step r n i = r i + c n) (l : List ι) (x : κ → BitVec 32) :
    (l.foldl step x) i = x i + (l.map c).sum := by
  induction l generalizing x with
  | nil => simp
  | cons a l ih => rw [List.foldl_cons, ih, hstep, List.map_cons, List.sum_cons, add_assoc]

/-- A scatter by word addition: each operand element plus the sum of the updates that land on it. -/
theorem scatter_addi_apply {s si u : Shape} {w : Nat} (d : ScatterDims s si u) (x : IVec s 32) (idx : IVec si w)
    (upd : IVec u 32) (i : s.Idx) :
    Host.scatter d IntOp.addi x idx upd i
      = x i + ∑ j : u.Idx, (if d.resultIdx? j idx = some i then upd j else 0#32) := by
  unfold Host.scatter
  refine (foldl_pointwise _
    (fun n => if d.resultIdx? (u.rowMajor.symm n) idx = some i then upd (u.rowMajor.symm n) else 0#32) i ?_ _ _).trans ?_
  · intro r n
    beta_reduce
    cases hr : d.resultIdx? (u.rowMajor.symm n) idx with
    | none => simp
    | some i0 =>
      by_cases hi : i = i0
      · subst hi; simp [IntOp.addi]
      · have hi' : ¬ i0 = i := fun e => hi e.symm
        simp [hi, hi']
  · rw [← List.ofFn_eq_map, List.sum_ofFn]
    congr 1
    exact Equiv.sum_comp u.rowMajor.symm (fun j => if d.resultIdx? j idx = some i then upd j else 0#32)

end Cert.KernelIdeal.Hand
end
-- ==== Proof.PackingPoint.lean ====
/-
  The routing tables read at one index.

  Each host operation of the routing prefix is read at a pair n (and an expert j): the one-hot entry is the
  indicator of "pair n chose expert j"; the running column sum is the number of pairs up to n that chose j; the
  scatter's two indices of pair n are its wrapped expert and row numbers; an update that lands on an element of
  the row buffer carries that element's expert and row as its indices; and a pair whose expert number is an
  expert lands on that expert's count. A few facts on small naturals as 32-bit words come first.
-/
import proofs.«158005_j12481174962624_2_alg».proof.Proof.PackingDefs
import proofs.«158005_j12481174962624_2_alg».proof.Proof.PackingSums
import Mathlib.Data.BitVec
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-! ## Small naturals as 32-bit words -/

theorem toInt_ofNat_small (c : ℕ) (h : c < 2147483648) : (BitVec.ofNat 32 c).toInt = (c : Int) := by
  have hc : (BitVec.ofNat 32 c).toNat = c := by rw [BitVec.toNat_ofNat]; exact Nat.mod_eq_of_lt (by omega)
  rw [BitVec.toInt_eq_toNat_cond, hc]
  split <;> omega

theorem toNat_ofNat_small (c : ℕ) (h : c < 4294967296) : (BitVec.ofNat 32 c).toNat = c := by
  rw [BitVec.toNat_ofNat]; exact Nat.mod_eq_of_lt h

theorem ofNat_inj_small {a b : ℕ} (ha : a < 4294967296) (hb : b < 4294967296)
    (h : BitVec.ofNat 32 a = BitVec.ofNat 32 b) : a = b := by
  have := congrArg BitVec.toNat h
  rwa [toNat_ofNat_small a ha, toNat_ofNat_small b hb] at this

theorem slt_ofNat_small (a b : ℕ) (ha : a < 2147483648) (hb : b < 2147483648) :
    (BitVec.ofNat 32 a).slt (BitVec.ofNat 32 b) = decide (a < b) := by
  unfold BitVec.slt
  rw [toInt_ofNat_small a ha, toInt_ofNat_small b hb]
  simp

theorem ofNat_sub_one (c : ℕ) (h1 : 1 ≤ c) : BitVec.ofNat 32 c - 1#32 = BitVec.ofNat 32 (c - 1) := by
  apply BitVec.eq_of_toNat_eq
  simp only [BitVec.toNat_sub, BitVec.toNat_ofNat]
  omega

/-! ## The elementwise operations at a pair -/

theorem splat_apply (c : BitVec 32) (j : S8192.Idx) : splat c j = c := rfl

theorem wrapBy_apply (c : BitVec 32) (x : IVec S8192 32) (j : S8192.Idx) :
    wrapBy c x j = if (x j).slt 0#32 then x j + c else x j := by
  show Scalar.select (BitVec.ofBool ((x j).slt 0#32)) (x j + c) (x j) = _
  cases (x j).slt 0#32 <;> rfl

theorem col_apply (x : IVec S8192 32) (n : Fin 8192) (b : Fin 1) : col x (ix2 n b) = x (ix1 n) := by
  unfold col broadcastInDim
  congr 1
  funext a
  match a with
  | ⟨0, _⟩ => rfl

theorem onehotOf_apply (ef : IVec S8192 32) (n : Fin 8192) (j : Fin 64) :
    onehotOf ef (ix2 n j) = if ef (ix1 n) = BitVec.ofNat 32 j.val then 1#32 else 0#32 := by
  have h1 : broadcastInDim S8192x64 ![0, 1] bcast_S8192x1_S8192x64_0_1 (col ef) (ix2 n j) = ef (ix1 n) := by
    unfold broadcastInDim
    refine Eq.trans ?_ (col_apply ef n 0)
    congr 1
    funext a
    match a with
    | ⟨0, _⟩ => rfl
    | ⟨1, _⟩ => rfl
  have h2 : broadcastInDim S8192x64 ![0, 1] bcast_S1x64_S8192x64_0_1 (iotaInDim S1x64 32 1) (ix2 n j) = BitVec.ofNat 32 j.val := rfl
  show (BitVec.ofBool (_ == _)).setWidth 32 = _
  rw [h1, h2]
  by_cases h : ef (ix1 n) = BitVec.ofNat 32 j.val
  · rw [if_pos h, beq_iff_eq.2 h]; rfl
  · rw [if_neg h, beq_eq_false_iff_ne.2 h]; rfl

theorem sidxOf_apply0 (ef : IVec S8192 32) (n : Fin 8192) : sidxOf ef (ix2 n 0) = eidxOf ef (ix1 n) := by
  unfold sidxOf
  refine (concatenate_pair_apply_left (t := S8192x2) (s₁ := S8192x1) (s₂ := S8192x1) 1 _ _ concatenates_S8192x1_S8192x1_S8192x2_d1 (ix2 n 0) rfl (ix2 n 0) ?_).trans
    (col_apply _ n 0)
  intro b
  match b with
  | ⟨0, _⟩ => rfl
  | ⟨1, _⟩ => rfl

theorem sidxOf_apply1 (ef : IVec S8192 32) (n : Fin 8192) : sidxOf ef (ix2 n 1) = pidxOf ef (ix1 n) := by
  unfold sidxOf
  refine (concatenate_pair_apply_right (t := S8192x2) (s₁ := S8192x1) (s₂ := S8192x1) 1 _ _ concatenates_S8192x1_S8192x1_S8192x2_d1 (ix2 n 1) rfl rfl (ix2 n 0) ?_ ?_).trans
    (col_apply _ n 0)
  · intro b hb
    match b with
    | ⟨0, _⟩ => rfl
    | ⟨1, _⟩ => exact absurd rfl hb
  · rfl

/-! ## The two scatters' targets -/

/-- The dimension numbers of the scatter into the 257-row buffer. -/
abbrev d3 : ScatterDims S64x257x2048 S8192x2 S8192x2048 := scatter_S64x257x2048_S8192x2_S8192x2048_1_01_01_1
/-- The dimension numbers of the scatter into the counts. -/
abbrev d1 : ScatterDims S64 S8192x1 S8192 := scatter_S64_S8192x1_S8192_n_0_0_1

theorem d3_start0 {w : Nat} (n : Fin 8192) (c : Fin 2048) (idx : IVec S8192x2 w) :
    d3.start (ix2 n c) idx 0 = (idx (ix2 n 0)).toInt := by
  unfold ScatterDims.start
  rw [dif_pos (show (0 : Fin S64x257x2048.rank) ∈ d3.scatterDimsToOperandDims by decide)]
  congr 2
  funext b
  refine Fin.ext ?_
  match b with
  | ⟨0, _⟩ => rfl
  | ⟨1, _⟩ => rfl

theorem d3_start1 {w : Nat} (n : Fin 8192) (c : Fin 2048) (idx : IVec S8192x2 w) :
    d3.start (ix2 n c) idx 1 = (idx (ix2 n 1)).toInt := by
  unfold ScatterDims.start
  rw [dif_pos (show (1 : Fin S64x257x2048.rank) ∈ d3.scatterDimsToOperandDims by decide)]
  congr 2
  funext b
  refine Fin.ext ?_
  match b with
  | ⟨0, _⟩ => rfl
  | ⟨1, _⟩ => rfl

theorem d3_window0 (j : S8192x2048.Idx) : d3.window j 0 = 0 := by
  unfold ScatterDims.window
  exact dif_neg (by decide)

theorem d3_window1 (j : S8192x2048.Idx) : d3.window j 1 = 0 := by
  unfold ScatterDims.window
  exact dif_neg (by decide)

/-- An update that lands on an element of the 257-row buffer carries that element's expert and row as its two
    scatter indices, read signed. -/
theorem d3_result {w : Nat} (n : Fin 8192) (c : Fin 2048) (idx : IVec S8192x2 w) (i : S64x257x2048.Idx)
    (h : d3.resultIdx? (ix2 n c) idx = some i) :
    (idx (ix2 n 0)).toInt = ((i 0).val : Int) ∧ (idx (ix2 n 1)).toInt = ((i 1).val : Int) := by
  unfold ScatterDims.resultIdx? at h
  split at h
  · rename_i hall
    have hf := Option.some.inj h
    have h0 := congrArg (fun f : S64x257x2048.Idx => (f 0).val) hf
    have h1 := congrArg (fun f : S64x257x2048.Idx => (f 1).val) hf
    have a0 := (hall 0).1
    have a1 := (hall 1).1
    simp only [d3_start0, d3_start1, d3_window0, d3_window1] at h0 h1 a0 a1
    constructor <;> omega
  · exact absurd h (by simp)

theorem d1_start0 {w : Nat} (n : Fin 8192) (idx : IVec S8192x1 w) :
    d1.start (ix1 n) idx 0 = (idx (ix2 n 0)).toInt := by
  unfold ScatterDims.start
  rw [dif_pos (show (0 : Fin S64.rank) ∈ d1.scatterDimsToOperandDims by decide)]
  congr 2
  funext b
  refine Fin.ext ?_
  match b with
  | ⟨0, _⟩ => rfl
  | ⟨1, _⟩ => rfl

theorem d1_window0 (j : S8192.Idx) : d1.window j 0 = 0 := by
  unfold ScatterDims.window
  exact dif_neg (by decide)

/-- A pair whose expert number, read signed, is an expert lands on that expert's count. -/
theorem d1_result {w : Nat} (n : Fin 8192) (idx : IVec S8192x1 w) (e : Fin 64)
    (h : (idx (ix2 n 0)).toInt = (e.val : Int)) :
    d1.resultIdx? (ix1 n) idx = some (ix1 e) := by
  have hs : ∀ a : Fin S64.rank, d1.start (ix1 n) idx a + d1.window (ix1 n) a = (e.val : Int) := by
    intro a
    match a with
    | ⟨0, _⟩ =>
      show d1.start (ix1 n) idx 0 + d1.window (ix1 n) 0 = _
      rw [d1_start0, d1_window0]; simpa using h
  unfold ScatterDims.resultIdx?
  rw [dif_pos (fun a => by rw [hs a]; exact ⟨by omega, by match a with | ⟨0, _⟩ => show (e.val : Int) < 64; omega⟩)]
  congr 1
  funext a
  refine Fin.ext ?_
  match a with
  | ⟨0, _⟩ =>
    show (d1.start (ix1 n) idx 0 + d1.window (ix1 n) 0).toNat = e.val
    rw [hs 0]; simp

/-! ## The running count -/

/-- The number of pairs up to and including pair n that chose expert j. -/
def cnt (ef : IVec S8192 32) (j : ℕ) (n : Fin 8192) : ℕ :=
  (Finset.univ.filter fun k : Fin 8192 => k.val ≤ n.val ∧ ef (ix1 k) = BitVec.ofNat 32 j).card

/-- The running column sum at (n, j) is that number: the window of 8192 rows ending at row n, its padding read as
    zero, covers exactly the rows 0 … n, and a rotation of the window's positions by n + 1 lists them as the rows
    themselves. -/
theorem csOf_apply (ef : IVec S8192 32) (n : Fin 8192) (j : Fin 64) :
    csOf ef (ix2 n j) = BitVec.ofNat 32 (cnt ef j.val n) := by
  unfold csOf
  rw [reduceWindow_addi_apply _ _ _ _ _ _ _ _ rfl]
  show ∑ q : (⟨2, ![8192, 1]⟩ : Shape).Idx, _ = _
  rw [sum_idx2]
  simp only [Fin.sum_univ_one]
  let r : Fin 8192 := ⟨(n.val + 1) % 8192, Nat.mod_lt _ (by decide)⟩
  let G : Fin 8192 → BitVec 32 := fun k => if k.val ≤ n.val ∧ ef (ix1 k) = BitVec.ofNat 32 j.val then 1 else 0
  refine (Finset.sum_congr rfl (g := fun a => G (Equiv.addRight r a)) (fun a _ => ?_)).trans ?_
  · show _ = G (a + r)
    have hr : (a + r).val = (a.val + (n.val + 1) % 8192) % 8192 := Fin.val_add a r
    have ha := a.isLt
    have hn := n.isLt
    split
    · rename_i hin
      have hc : 8191 ≤ n.val * 1 + a.val := (hin 0).1
      refine (congrArg (onehotOf ef) (show _ = ix2 (a + r) j from ?_)).trans ?_
      · funext ax
        refine Fin.ext ?_
        match ax with
        | ⟨0, _⟩ => show n.val * 1 + a.val - 8191 = (a + r).val; omega
        | ⟨1, _⟩ => show j.val * 1 + 0 - 0 = j.val; omega
      rw [onehotOf_apply]
      show _ = if (a + r).val ≤ n.val ∧ ef (ix1 (a + r)) = BitVec.ofNat 32 j.val then 1 else 0
      have hle : (a + r).val ≤ n.val := by omega
      simp only [hle, true_and]
      rfl
    · rename_i hnin
      have hc : ¬ 8191 ≤ n.val + a.val := fun hc => hnin (fun ax => by
        match ax with
        | ⟨0, _⟩ => exact ⟨by show 8191 ≤ n.val * 1 + a.val; omega, by show n.val * 1 + a.val - 8191 < 8192; omega⟩
        | ⟨1, _⟩ => exact ⟨by show 0 ≤ j.val * 1 + 0; omega, by show j.val * 1 + 0 - 0 < 64; have := j.isLt; omega⟩)
      show _ = if (a + r).val ≤ n.val ∧ ef (ix1 (a + r)) = BitVec.ofNat 32 j.val then 1 else 0
      have hle : ¬ (a + r).val ≤ n.val := by omega
      rw [if_neg (fun h => hle h.1)]
      rfl
  · rw [Equiv.sum_comp (Equiv.addRight r) G]
    exact (Finset.sum_boole _ _).trans (BitVec.natCast_eq_ofNat 32 _)

end Cert.KernelIdeal.Hand
end
-- ==== Proof.Packing.lean ====
/-
  The packing invariant: a tile the kernel skips holds only zero rows of the packed buffer.

  Fix an expert e and a row p < 256 of its block. The packed buffer is zero plus, at (e, p), the sum of the
  token rows of the pairs n whose scatter indices are exactly (e, p). Such a pair chose an expert: a pair whose
  choice is no expert has row sum 0, slot -1, and is wrapped to the extra row 256. So it chose e itself (the
  wrapped expert number of a choice j < 64 is j), its slot is c - 1 where c is the number of pairs up to it that
  chose e, and p = c - 1. Each of those c pairs has a running count between 1 and c ≤ 256, so it fits, its
  expert number is e, and it adds one to the count of e. The count of e is therefore a natural K with
  p + 1 ≤ K ≤ 8192 (no wrap-around in 32 bits), which exceeds the start of the tile holding row p. Hence the
  kernel's test "tile start < count" holds for that tile: a tile whose test fails has no pair on any of its rows.
-/
import proofs.«158005_j12481174962624_2_alg».proof.Proof.PackingPoint

noncomputable section

open scoped BigOperators

namespace Cert.KernelIdeal.Hand

open Idealize.ShloMosaic Idealize.ShloMosaic.ValueIdx Cert.KernelIdeal Cert.KernelIdeal.Gen

/-- A fold of word addition over a finite set is the start plus the sum. -/
theorem fold_addi_eq_sum {ι : Type} (S : Finset ι) (g : ι → BitVec 32) (v : BitVec 32) :
    S.fold IntOp.addi v g = v + ∑ i ∈ S, g i := by
  classical
  induction S using Finset.induction_on with
  | empty => simp
  | insert a S ha ih =>
    rw [Finset.fold_insert ha, ih, Finset.sum_insert ha]
    show g a + (v + _) = _
    rw [add_left_comm]

/-- The row sum of (running count) × (one-hot) at pair n, over the 64 experts. -/
theorem rankOf_apply (ef : IVec S8192 32) (n : Fin 8192) :
    rankOf ef (ix1 n) = ∑ j : Fin 64, csOf ef (ix2 n j) * onehotOf ef (ix2 n j) := by
  unfold rankOf
  rw [Host.reduce_eq_fold, fold_addi_eq_sum]
  show 0#32 + _ = _
  rw [BitVec.zero_add, Finset.sum_filter, sum_idx2]
  have hdrop : ∀ (a : Fin 8192) (b : Fin 64),
      (reducesTo_S8192x64_S8192_d1.drop (ix2 a b) = ix1 n) ↔ a = n := by
    intro a b
    constructor
    · intro h
      have := congrArg (fun f : S8192.Idx => (f 0).val) h
      exact Fin.ext this
    · intro h
      subst h
      funext c
      match c with
      | ⟨0, _⟩ => rfl
  rw [Finset.sum_eq_single n]
  · refine Finset.sum_congr rfl fun b _ => ?_
    rw [if_pos ((hdrop n b).2 rfl)]
    rfl
  · intro a _ hne
    refine Finset.sum_eq_zero fun b _ => if_neg ?_
    intro h
    exact hne ((hdrop a b).1 h)
  · intro hh
    exact absurd (Finset.mem_univ _) hh

theorem ofNat_ne_of_ne {j j0 : Fin 64} (h : j ≠ j0) : BitVec.ofNat 32 j.val ≠ BitVec.ofNat 32 j0.val :=
  fun e => h (Fin.ext (ofNat_inj_small (by have := j.isLt; omega) (by have := j0.isLt; omega) e))

/-- A pair that chose expert j0 has, as its row sum, the number of pairs up to it that chose j0. -/
theorem rankOf_hit (ef : IVec S8192 32) (n : Fin 8192) (j0 : Fin 64) (h : ef (ix1 n) = BitVec.ofNat 32 j0.val) :
    rankOf ef (ix1 n) = BitVec.ofNat 32 (cnt ef j0.val n) := by
  rw [rankOf_apply, Finset.sum_eq_single j0]
  · rw [onehotOf_apply, if_pos h, csOf_apply]
    exact BitVec.mul_one _
  · intro j _ hj
    rw [onehotOf_apply, if_neg (fun e => ofNat_ne_of_ne hj (e.symm.trans h))]
    exact BitVec.mul_zero
  · intro hh
    exact absurd (Finset.mem_univ _) hh

/-- A pair whose choice is no expert has row sum zero. -/
theorem rankOf_miss (ef : IVec S8192 32) (n : Fin 8192) (h : ∀ j : Fin 64, ef (ix1 n) ≠ BitVec.ofNat 32 j.val) :
    rankOf ef (ix1 n) = 0#32 := by
  rw [rankOf_apply]
  refine Finset.sum_eq_zero fun j _ => ?_
  rw [onehotOf_apply, if_neg (h j)]
  exact BitVec.mul_zero

theorem cnt_le (ef : IVec S8192 32) (j : ℕ) (n : Fin 8192) : cnt ef j n ≤ 8192 :=
  (Finset.card_le_univ _).trans (by simp)

theorem cnt_pos (ef : IVec S8192 32) (j : ℕ) (n : Fin 8192) (h : ef (ix1 n) = BitVec.ofNat 32 j) : 1 ≤ cnt ef j n :=
  Finset.card_pos.2 ⟨n, Finset.mem_filter.2 ⟨Finset.mem_univ _, le_refl _, h⟩⟩

theorem cnt_mono (ef : IVec S8192 32) (j : ℕ) {k n : Fin 8192} (h : k.val ≤ n.val) : cnt ef j k ≤ cnt ef j n :=
  Finset.card_le_card fun x hx => by
    have hx' := (Finset.mem_filter.1 hx).2
    exact Finset.mem_filter.2 ⟨Finset.mem_univ _, le_trans hx'.1 h, hx'.2⟩

theorem pcOf_apply (ef : IVec S8192 32) (j : S8192.Idx) :
    pcOf ef j = if (posOf ef j).slt 256#32 then posOf ef j else 256#32 := by
  show Scalar.select (BitVec.ofBool ((posOf ef j).slt 256#32)) (posOf ef j) 256#32 = _
  cases (posOf ef j).slt 256#32 <;> rfl

theorem validOf_apply (ef : IVec S8192 32) (j : S8192.Idx) :
    validOf ef j = BitVec.ofBool ((posOf ef j).slt 256#32) := rfl

theorem posOf_apply (ef : IVec S8192 32) (j : S8192.Idx) : posOf ef j = rankOf ef j - 1#32 := rfl

/-- What the tables hold at a pair that chose expert e, in terms of c = the number of pairs up to it that chose e:
    its expert number is e; it fits when c ≤ 256; and if its row number is a row p < 256 then c = p + 1. -/
theorem hit_facts (ef : IVec S8192 32) (n : Fin 8192) (e : Fin 64) (h : ef (ix1 n) = BitVec.ofNat 32 e.val) :
    (eidxOf ef (ix1 n)).toInt = (e.val : Int) ∧
    (cnt ef e.val n ≤ 256 → validOf ef (ix1 n) = 1#1) ∧
    (∀ p : ℕ, p < 256 → (pidxOf ef (ix1 n)).toInt = (p : Int) → cnt ef e.val n = p + 1) := by
  have he := e.isLt
  have hc1 := cnt_pos ef e.val n h
  have hc2 := cnt_le ef e.val n
  have hpos : posOf ef (ix1 n) = BitVec.ofNat 32 (cnt ef e.val n - 1) := by
    rw [posOf_apply, rankOf_hit ef n e h, ofNat_sub_one _ hc1]
  have hslt : (posOf ef (ix1 n)).slt 256#32 = decide (cnt ef e.val n - 1 < 256) := by
    rw [hpos]; exact slt_ofNat_small _ 256 (by omega) (by omega)
  refine ⟨?_, ?_, ?_⟩
  · unfold eidxOf
    rw [wrapBy_apply, h]
    have : (BitVec.ofNat 32 e.val).slt 0#32 = false := by
      rw [show (0#32 : BitVec 32) = BitVec.ofNat 32 0 from rfl, slt_ofNat_small _ 0 (by omega) (by omega)]; simp
    rw [this]
    exact toInt_ofNat_small _ (by omega)
  · intro hle
    rw [validOf_apply, hslt, decide_eq_true (by omega)]
    rfl
  · intro p hp hpid
    unfold pidxOf at hpid
    rw [wrapBy_apply, pcOf_apply, hslt] at hpid
    by_cases hfit : cnt ef e.val n - 1 < 256
    · rw [decide_eq_true hfit] at hpid
      simp only [if_true] at hpid
      rw [hpos] at hpid
      have hn : (BitVec.ofNat 32 (cnt ef e.val n - 1)).slt 0#32 = false := by
        rw [show (0#32 : BitVec 32) = BitVec.ofNat 32 0 from rfl, slt_ofNat_small _ 0 (by omega) (by omega)]; simp
      rw [hn] at hpid
      simp only [Bool.false_eq_true, if_false] at hpid
      rw [toInt_ofNat_small _ (by omega)] at hpid
      omega
    · rw [decide_eq_false hfit] at hpid
      simp only [Bool.false_eq_true, if_false] at hpid
      have h256 : (if (256#32 : BitVec 32).slt 0#32 then 256#32 + 257#32 else 256#32).toInt = 256 := by decide
      rw [h256] at hpid
      omega

/-- A pair whose choice is no expert is sent to the extra row 256. -/
theorem miss_facts (ef : IVec S8192 32) (n : Fin 8192) (h : ∀ j : Fin 64, ef (ix1 n) ≠ BitVec.ofNat 32 j.val) :
    (pidxOf ef (ix1 n)).toInt = 256 := by
  unfold pidxOf
  rw [wrapBy_apply, pcOf_apply, posOf_apply, rankOf_miss ef n h]
  decide

/-! ## The row buffer -/

/-- An element of the packed buffer on which no pair lands is zero: it is the zero operand plus an empty sum. -/
theorem xePacked_eq_zero (upd : FVec Ideal S8192x2048 .f32) (ef : IVec S8192 32) (e : Fin 64) (p : Fin 256)
    (c : Fin 2048)
    (hno : ∀ n : Fin 8192, ¬ ((eidxOf ef (ix1 n)).toInt = (e.val : Int) ∧ (pidxOf ef (ix1 n)).toInt = (p.val : Int))) :
    xePacked upd ef (ix3 e p c) = 0 := by
  unfold xePacked extractStridedSlice xe257Of Host.scatterAdd
  rw [Ideal.hostScatterAdd_def]
  unfold Ideal.hostScatterAdd
  rw [Finset.sum_eq_zero]
  · show Ideal.ofBits .f32 0x00000000#32 + 0 = 0
    simp [Ideal.ofBits, Ideal.ieee]
  · intro j hj
    exfalso
    have hr := (Finset.mem_filter.1 hj).2
    obtain ⟨n, c', rfl⟩ : ∃ (n : Fin 8192) (c' : Fin 2048), j = ix2 n c' := ⟨j 0, j 1, eq_ix2 j⟩
    have hres := d3_result n c' (sidxOf ef) _ hr
    rw [sidxOf_apply0, sidxOf_apply1] at hres
    exact hno n ⟨hres.1.trans (by simp), hres.2.trans (by simp)⟩

/-! ## The counts -/

/-- If c = p + 1 ≤ 256 pairs up to pair n chose expert e, the count of e is a natural K with p + 1 ≤ K ≤ 8192:
    it is the number of fitting pairs whose expert number is e, each of those c pairs is one (its own running
    count is at most c, so it fits), and there are 8192 pairs in all. -/
theorem counts_ge (ef : IVec S8192 32) (e : Fin 64) (n : Fin 8192) (p : ℕ)
    (hc : cnt ef e.val n = p + 1) (hp : p < 256) :
    ∃ K : ℕ, countsPacked ef (ix1 e) = BitVec.ofNat 32 K ∧ p + 1 ≤ K ∧ K ≤ 8192 := by
  classical
  let Q : Fin 8192 → Prop := fun a =>
    d1.resultIdx? (ix1 a) (col (eidxOf ef)) = some (ix1 e) ∧ validOf ef (ix1 a) = 1#1
  refine ⟨(Finset.univ.filter Q).card, ?_, ?_, ?_⟩
  · unfold countsPacked
    rw [scatter_addi_apply, sum_idx1]
    show 0#32 + _ = _
    rw [BitVec.zero_add]
    refine (Finset.sum_congr rfl (g := fun a => if Q a then (1 : BitVec 32) else 0) fun a _ => ?_).trans
      ((Finset.sum_boole _ _).trans (BitVec.natCast_eq_ofNat 32 _))
    show (if _ then (validOf ef (ix1 a)).setWidth 32 else 0#32) = _
    by_cases h1 : d1.resultIdx? (ix1 a) (col (eidxOf ef)) = some (ix1 e)
    · rw [if_pos h1]
      rcases BitVec.eq_zero_or_eq_one (validOf ef (ix1 a)) with hv | hv
      · rw [if_neg (fun hq : Q a => absurd (hv.symm.trans hq.2) (by decide)), hv]; rfl
      · rw [if_pos (show Q a from ⟨h1, hv⟩), hv]; rfl
    · rw [if_neg h1, if_neg (fun hq : Q a => h1 hq.1)]; rfl
  · rw [← hc]
    refine Finset.card_le_card fun k hk => ?_
    have hk' := (Finset.mem_filter.1 hk).2
    obtain ⟨f1, f2, _⟩ := hit_facts ef k e hk'.2
    refine Finset.mem_filter.2 ⟨Finset.mem_univ _, d1_result k _ e ?_, f2 ?_⟩
    · rw [col_apply]; exact f1
    · have := cnt_mono ef e.val hk'.1; omega
  · exact (Finset.card_le_univ _).trans (by simp)

/-! ## The kernel's test -/

/-- The kernel's test "tile start < count" succeeds when the count is a natural K ≤ 8192 above the tile start. -/
theorem cond_of_count (i : grid0.Coords) (K : ℕ) (hK : (i 1).val * 128 < K) (hK2 : K ≤ 8192) :
    k0_cond1 i (BitVec.ofNat 32 K) = 1#1 := by
  have h2 : (i 1).val < 2 := (i 1).isLt
  have hs : (BitVec.ofNat 32 ((i 1).val * 128)).slt (BitVec.ofNat 32 K) = true := by
    rw [slt_ofNat_small _ _ (by omega) (by omega)]; exact decide_eq_true hK
  have hm : Scalar.muli (BitVec.ofNat 32 (i 1).val) 128#32 = BitVec.ofNat 32 ((i 1).val * 128) := by
    have hv : (i 1).val = 0 ∨ (i 1).val = 1 := by omega
    rcases hv with h | h <;> rw [h] <;> rfl
  unfold k0_cond1
  dsimp only
  rw [hm]
  show Scalar.cmpi .ne (Scalar.extui (BitVec.ofBool ((BitVec.ofNat 32 ((i 1).val * 128)).slt (BitVec.ofNat 32 K)))) 0#32 = 1#1
  rw [hs]
  rfl

/-! ## The packing invariant -/

/-- A tile the kernel skips holds only zero rows. If some pair landed on row p of expert e, then that pair chose e,
    p + 1 pairs up to it chose e, each of them fits and is counted, so the count of e exceeds p and hence the
    tile's start: the kernel would not have skipped the tile. -/
theorem packed (hid : FVec Ideal S1024x2048 .f32) (idx : (⟨S1024x8, .i32⟩ : BufTy).Contents (Elt Ideal))
    (i : grid0.Coords) (hskip : k0_cond1 i (countsOf idx (ValueIdx.ix1 (i 0))) ≠ 1#1) (r : Fin 128) (h : Fin 2048)
    (hp : (i 1).val * 128 + r.val < 256) :
    xeOf hid idx (ValueIdx.ix3 (i 0) ⟨(i 1).val * 128 + r.val, hp⟩ h) = 0 := by
  unfold xeOf
  unfold countsOf at hskip
  refine xePacked_eq_zero (rowsOf hid) (eflatOf idx) (i 0) ⟨_, hp⟩ h ?_
  intro n hn
  obtain ⟨h1, h2⟩ := hn
  apply hskip
  by_cases hex : ∃ j0 : Fin 64, eflatOf idx (ix1 n) = BitVec.ofNat 32 j0.val
  · obtain ⟨j0, hj0⟩ := hex
    obtain ⟨f1, _, f3⟩ := hit_facts (eflatOf idx) n j0 hj0
    have hje : j0 = i 0 := Fin.ext (by have := f1.symm.trans h1; omega)
    subst hje
    have hc := f3 _ hp h2
    obtain ⟨K, hK, hK1, hK2⟩ := counts_ge (eflatOf idx) (i 0) n _ hc hp
    rw [hK]
    exact cond_of_count i K (by omega) hK2
  · have hex' : ∀ j : Fin 64, eflatOf idx (ix1 n) ≠ BitVec.ofNat 32 j.val := fun j hj => hex ⟨j, hj⟩
    have := miss_facts (eflatOf idx) n hex'
    rw [this] at h2
    exfalso
    have : ((i 1).val * 128 + r.val : Int) = 256 := h2.symm
    omega

end Cert.KernelIdeal.Hand
end
-- ==== Proof.RPay.lean ====
/-
  The reference's feed-forward chain read at an index, on the extended reals.

  On the packed array of routed rows [64, 256, 2048] the reference forms, expert by expert (a batch axis), the gate and
  up projections against the weights' LAST axes, the activation `g * (1 / (1 + exp (-g)))` spelt out as negate,
  exponential, add to one, divide into one and multiply, the product with the up projection, and the contraction
  against the last axis of the down projection. `yRef` is that chain of operations, in their order, as one function of
  the four arrays. On the extended reals each batched product read at (e, p, c) is the plain sum over the contracted
  coordinate of the operands' entries at (e, p, k) and (e, c, k), the word of the constant is the number one, and
  `1 / (1 + exp (-g))` is by definition the logistic of g; so `yRef` at (e, p, h) is the row function
  `Cert.Spec.mlpRow` of row (e, p) against expert e's weights (`yRef_apply`).
-/
import proofs.«158005_j12481174962624_2_alg».proof.Proof.Gen.ReferenceIdeal
import proofs.«158005_j12481174962624_2_alg».proof.Proof.Spec
import Idealize.ShloMosaic.PureOps.Ideal.Laws
import Idealize.ShloMosaic.Lib.ValueLayout
import Idealize.ShloMosaic.Lib.IdealHost

noncomputable section

namespace Cert.ReferenceIdeal.Hand

open Idealize.ShloMosaic Idealize.ShloMosaic.ValueIdx
open Facts₀

/-- The gate and up projections' dimension numbers: [64, 256, 2048] against [64, 768, 2048], the expert axis a batch
    axis, the last axes contracted. -/
abbrev EP : DotDims S64x256x2048 S64x768x2048 S64x256x768 := dot_S64x256x2048_S64x768x2048_S64x256x768_2_2_1_1_0_0
/-- The down projection's dimension numbers: [64, 256, 768] against [64, 2048, 768], the expert axis a batch axis, the
    last axes contracted. -/
abbrev ED : DotDims S64x256x768 S64x2048x768 S64x256x2048 := dot_S64x256x768_S64x2048x768_S64x256x2048_2_2_1_1_0_0

/-- A projection's left operand at output index (e, p, i) and contracted coordinate k is read at (e, p, k). -/
theorem lhsEP (e : Fin 64) (p : Fin 256) (i : Fin 768) (k : Fin 2048) :
    EP.lhsIdx (ix3 e p i) ((contrEquiv1 EP 2048 rfl rfl).symm k) = ix3 e p k := by
  have c := contrEquiv1_symm_val EP 2048 rfl rfl k
  funext ax; apply Fin.ext
  match ax with
  | ⟨0, _⟩ => simp [DotDims.lhsIdx, EP, dot_S64x256x2048_S64x768x2048_S64x256x768_2_2_1_1_0_0]; rfl
  | ⟨1, _⟩ => simp [DotDims.lhsIdx, EP, dot_S64x256x2048_S64x768x2048_S64x256x768_2_2_1_1_0_0]; rfl
  | ⟨2, _⟩ => simp [DotDims.lhsIdx, EP, dot_S64x256x2048_S64x768x2048_S64x256x768_2_2_1_1_0_0]; exact c

/-- A projection's right operand at output index (e, p, i) and contracted coordinate k is read at (e, i, k). -/
theorem rhsEP (e : Fin 64) (p : Fin 256) (i : Fin 768) (k : Fin 2048) :
    EP.rhsIdx (ix3 e p i) ((contrEquiv1 EP 2048 rfl rfl).symm k) = ix3 e i k := by
  have c := contrEquiv1_symm_val EP 2048 rfl rfl k
  funext ax; apply Fin.ext
  match ax with
  | ⟨0, _⟩ => simp [DotDims.rhsIdx, EP, dot_S64x256x2048_S64x768x2048_S64x256x768_2_2_1_1_0_0]; rfl
  | ⟨1, _⟩ => simp [DotDims.rhsIdx, EP, dot_S64x256x2048_S64x768x2048_S64x256x768_2_2_1_1_0_0]; rfl
  | ⟨2, _⟩ => simp [DotDims.rhsIdx, EP, dot_S64x256x2048_S64x768x2048_S64x256x768_2_2_1_1_0_0]; exact c

/-- The down projection's left operand at output index (e, p, h) and contracted coordinate i is read at (e, p, i). -/
theorem lhsED (e : Fin 64) (p : Fin 256) (h : Fin 2048) (i : Fin 768) :
    ED.lhsIdx (ix3 e p h) ((contrEquiv1 ED 768 rfl rfl).symm i) = ix3 e p i := by
  have c := contrEquiv1_symm_val ED 768 rfl rfl i
  funext ax; apply Fin.ext
  match ax with
  | ⟨0, _⟩ => simp [DotDims.lhsIdx, ED, dot_S64x256x768_S64x2048x768_S64x256x2048_2_2_1_1_0_0]; rfl
  | ⟨1, _⟩ => simp [DotDims.lhsIdx, ED, dot_S64x256x768_S64x2048x768_S64x256x2048_2_2_1_1_0_0]; rfl
  | ⟨2, _⟩ => simp [DotDims.lhsIdx, ED, dot_S64x256x768_S64x2048x768_S64x256x2048_2_2_1_1_0_0]; exact c

/-- The down projection's right operand at output index (e, p, h) and contracted coordinate i is read at (e, h, i). -/
theorem rhsED (e : Fin 64) (p : Fin 256) (h : Fin 2048) (i : Fin 768) :
    ED.rhsIdx (ix3 e p h) ((contrEquiv1 ED 768 rfl rfl).symm i) = ix3 e h i := by
  have c := contrEquiv1_symm_val ED 768 rfl rfl i
  funext ax; apply Fin.ext
  match ax with
  | ⟨0, _⟩ => simp [DotDims.rhsIdx, ED, dot_S64x256x768_S64x2048x768_S64x256x2048_2_2_1_1_0_0]; rfl
  | ⟨1, _⟩ => simp [DotDims.rhsIdx, ED, dot_S64x256x768_S64x2048x768_S64x256x2048_2_2_1_1_0_0]; rfl
  | ⟨2, _⟩ => simp [DotDims.rhsIdx, ED, dot_S64x256x768_S64x2048x768_S64x256x2048_2_2_1_1_0_0]; exact c

/-- A batched projection read at (e, p, i): row (e, p) against row i of expert e's weight, summed over the width. -/
theorem dgP_apply (A : FVec Ideal S64x256x2048 .f32) (B : FVec Ideal S64x768x2048 .f32) (e : Fin 64) (p : Fin 256) (i : Fin 768) :
    Host.dotGeneral EP none A B (ix3 e p i) = ∑ k : Fin 2048, A (ix3 e p k) * B (ix3 e i k) := by
  show FloatOps.dotGeneral EP none _ A B (ix3 e p i) = _
  rw [Ideal.dotGeneral_apply, ← Equiv.sum_comp (contrEquiv1 EP 2048 rfl rfl).symm]
  refine Finset.sum_congr rfl fun k _ => ?_
  rw [lhsEP, rhsEP]

/-- The batched down projection read at (e, p, h): hidden row (e, p) against row h of expert e's weight, summed over the
    hidden width. -/
theorem dgD_apply (A : FVec Ideal S64x256x768 .f32) (B : FVec Ideal S64x2048x768 .f32) (e : Fin 64) (p : Fin 256) (h : Fin 2048) :
    Host.dotGeneral ED none A B (ix3 e p h) = ∑ i : Fin 768, A (ix3 e p i) * B (ix3 e h i) := by
  show FloatOps.dotGeneral ED none _ A B (ix3 e p h) = _
  rw [Ideal.dotGeneral_apply, ← Equiv.sum_comp (contrEquiv1 ED 768 rfl rfl).symm]
  refine Finset.sum_congr rfl fun i _ => ?_
  rw [lhsED, rhsED]

/-- The scalar constant of the activation, broadcast over the hidden array, is the number one at every index. -/
theorem one_apply (hb : S_.BroadcastsInDim S64x256x768 (![] : Fin 0 → Fin S64x256x768.rank)) (j : S64x256x768.Idx) :
    broadcastInDim S64x256x768 ![] hb (constant (F := Ideal) S_ .f32 0x3F800000#32) j = 1 := by
  rw [broadcastInDim_scalar_apply, constant_apply]
  exact Ideal.ofBits_one_f32

/-- A negation on the host, read at an index, negates the entry. -/
theorem hostNegf_apply {s : Shape} {φ : FTy} (a : FVec Ideal s φ) (i : s.Idx) : Host.negf a i = -(a i) := rfl
/-- An exponential on the host, read at an index, is the exponential of the entry. -/
theorem hostExp_apply {s : Shape} {φ : FTy} (a : FVec Ideal s φ) (i : s.Idx) : Host.exp a i = Ideal.exp (a i) := rfl

/-- The reference's feed-forward chain as one function of the packed rows and the three weights: the two projections,
    the activation spelt out (negate, exponential, one, add, one, divide, multiply by the gate), the product with the up
    projection, the down projection. -/
def yRef (xe : FVec Ideal S64x256x2048 .f32) (gw uw : FVec Ideal S64x768x2048 .f32) (dw : FVec Ideal S64x2048x768 .f32) :
    FVec Ideal S64x256x2048 .f32 :=
  have v36 : FVec Ideal S64x256x768 .f32 := Host.dotGeneral (F := Ideal) dot_S64x256x2048_S64x768x2048_S64x256x768_2_2_1_1_0_0 none xe gw
  have v37 : FVec Ideal S64x256x768 .f32 := Host.dotGeneral (F := Ideal) dot_S64x256x2048_S64x768x2048_S64x256x768_2_2_1_1_0_0 none xe uw
  have s0 : FVec Ideal S64x256x768 .f32 := Host.negf (F := Ideal) v36
  have s1 : FVec Ideal S64x256x768 .f32 := Host.exp (F := Ideal) s0
  have cst : FVec Ideal S_ .f32 := constant (F := Ideal) S_ .f32 0x3F800000#32
  have s2 : FVec Ideal S64x256x768 .f32 := broadcastInDim S64x256x768 ![] bcast_S_S64x256x768 cst
  have s3 : FVec Ideal S64x256x768 .f32 := addf s2 s1
  have cst_0 : FVec Ideal S_ .f32 := constant (F := Ideal) S_ .f32 0x3F800000#32
  have s4 : FVec Ideal S64x256x768 .f32 := broadcastInDim S64x256x768 ![] bcast_S_S64x256x768 cst_0
  have s5 : FVec Ideal S64x256x768 .f32 := Host.divf (F := Ideal) s4 s3
  have s6 : FVec Ideal S64x256x768 .f32 := mulf v36 s5
  have v39 : FVec Ideal S64x256x768 .f32 := mulf s6 v37
  Host.dotGeneral (F := Ideal) dot_S64x256x768_S64x2048x768_S64x256x2048_2_2_1_1_0_0 none v39 dw

/-- The chain at (e, p, h) is the gated feed-forward row function of the packed row (e, p) against expert e's weights. -/
theorem yRef_apply (xe : FVec Ideal S64x256x2048 .f32) (gw uw : FVec Ideal S64x768x2048 .f32) (dw : FVec Ideal S64x2048x768 .f32)
    (e : Fin 64) (p : Fin 256) (h : Fin 2048) :
    yRef xe gw uw dw (ix3 e p h)
      = Cert.Spec.mlpRow (fun k => xe (ix3 e p k)) (fun i k => gw (ix3 e i k)) (fun i k => uw (ix3 e i k))
          (fun h' i => dw (ix3 e h' i)) h := by
  unfold yRef
  rw [dgD_apply]
  unfold Cert.Spec.mlpRow Cert.Spec.hid Cert.Spec.proj
  refine Finset.sum_congr rfl fun i _ => ?_
  rw [mulf_apply, mulf_apply, hostDivf_apply, one_apply, addf_apply, one_apply, hostExp_apply, hostNegf_apply,
    dgP_apply, dgP_apply]
  rfl

end Cert.ReferenceIdeal.Hand

end
-- ==== Proof.Bridge.lean ====
/-
  The kernel's result array and the reference's, as functions of the packed tokens, are the same function.

  Entry by entry both are the gated feed-forward block of one row of the packed token buffer, except on a tile the
  kernel skips — one whose first row is not below the expert's count —, where the kernel stores zero. A skipped
  tile holds only zero rows (routed pairs are packed from row 0 and the count is at least the number of packed
  rows), and the block sends the zero row to zero, so the two agree there too. Rounding the tokens to a narrower
  format is the identity on the extended reals.
-/
import proofs.«158005_j12481174962624_2_alg».proof.Proof.KValue
import proofs.«158005_j12481174962624_2_alg».proof.Proof.Packing
import proofs.«158005_j12481174962624_2_alg».proof.Proof.RPay

noncomputable section

namespace Cert.KernelIdeal.Hand

open Cert.KernelIdeal Cert.KernelIdeal.Facts₀ Cert.KernelIdeal.Facts
open Idealize.ShloMosaic Idealize.ShloMosaic.ValueIdx

/-- The region's result, at the packed tokens rounded to the narrow format and the per-expert counts, is the
    reference's batched feed-forward block of the packed tokens. -/
theorem yK_eq_yRef (a0 : FVec Ideal S1024x2048 .f32) (a5 : (⟨S1024x8, .i32⟩ : BufTy).Contents (Elt Ideal))
    (gw uw : FVec Ideal S64x768x2048 .f32) (dw : FVec Ideal S64x2048x768 .f32) :
    yK (truncf .bf16 (xeOf a0 a5) bitsLt_bf16_f32) (countsOf a5) gw uw dw
      = Cert.ReferenceIdeal.Hand.yRef (xeOf a0 a5) gw uw dw := by
  funext j
  obtain ⟨e, p, h, rfl⟩ : ∃ (e : Fin 64) (p : Fin 256) (h : Fin 2048), j = ix3 e p h := ⟨j 0, j 1, j 2, eq_ix3 j⟩
  rw [yK_apply, Cert.ReferenceIdeal.Hand.yRef_apply]
  unfold yKat
  split
  · rfl
  · rename_i hskip
    have hq : p.val / 128 < 2 := by have := p.isLt; omega
    have hrow : ∀ k : Fin 2048, xeOf a0 a5 (ix3 e p k) = 0 := fun k => by
      have hp : (tilePt e ⟨p.val / 128, hq⟩ 1).val * 128 + (p.val % 128) < 256 := by
        show p.val / 128 * 128 + p.val % 128 < 256
        have := p.isLt; omega
      have key := packed a0 a5 (tilePt e ⟨p.val / 128, hq⟩) hskip ⟨p.val % 128, Nat.mod_lt _ (by decide)⟩ k hp
      have hpe : (⟨(tilePt e ⟨p.val / 128, hq⟩ 1).val * 128 + p.val % 128, hp⟩ : Fin 256) = p :=
        Fin.ext (by show p.val / 128 * 128 + p.val % 128 = p.val; omega)
      rw [hpe] at key
      exact key
    rw [show (fun k => xeOf a0 a5 (ix3 e p k)) = fun _ => (0 : EReal) from funext hrow, Cert.Spec.mlpRow_zero]

end Cert.KernelIdeal.Hand

end
-- ==== Proof.KEntry.lean ====
/-
  The buffers the region and the later lines read, as functions of the launch arrays.

  When the region is entered every buffer of the routing prefix holds the fold of the earlier host lines over the
  launch memory. Read one buffer at a time, that fold is the composition of the lines' functions: the packed rows
  (rounded to the 16-bit format, which is the identity on the extended reals), the per-expert counts, and the four
  routing tables the later lines read again, are the named functions of the hidden states and the expert choices.
  The side-by-side placement of two index columns is given a name first, so that the columns are ordinary arguments
  of one function when the fold is unwound.
-/
import proofs.«158005_j12481174962624_2_alg».proof.Proof.KFrame.Claim
import proofs.«158005_j12481174962624_2_alg».proof.Proof.Packing

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable (m : (ℓ : Loc nD τ sig) → Buf (Elt Ideal) ℓ)

/-- Two columns side by side. -/
def cat2 (a b : IVec S8192x1 32) : IVec S8192x2 32 :=
  concatenate S8192x2 1 [⟨S8192x1, a⟩, ⟨S8192x1, b⟩] concatenates_S8192x1_S8192x1_S8192x2_d1

theorem cat2_fun :
    ((fun a b => concatenate S8192x2 1 [⟨S8192x1, a⟩, ⟨S8192x1, b⟩] concatenates_S8192x1_S8192x1_S8192x2_d1) :
      (⟨S8192x1, .i32⟩ : BufTy).Contents (Elt Ideal) → (⟨S8192x1, .i32⟩ : BufTy).Contents (Elt Ideal) →
        (⟨S8192x2, .i32⟩ : BufTy).Contents (Elt Ideal)) = cat2 := rfl

/-- The flattened expert choices. -/
theorem V_v0 (c : Dev nD) :
    (V (F := Ideal) m c main_v0 : IVec S8192 32) = eflatOf (m ((c : Thread nD τ).loc main_arg5)) := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- The token of each pair. -/
theorem V_v3 (c : Dev nD) : (V (F := Ideal) m c main_v3 : IVec S8192 32) = tokOf := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- The slot of each pair. -/
theorem V_v9 (c : Dev nD) :
    (V (F := Ideal) m c main_v9 : IVec S8192 32) = posOf (eflatOf (m ((c : Thread nD τ).loc main_arg5))) := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- Which pairs fit. -/
theorem V_v11 (c : Dev nD) :
    (V (F := Ideal) m c main_v11 : IVec S8192 1) = validOf (eflatOf (m ((c : Thread nD τ).loc main_arg5))) := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- The per-expert counts: the table the region reads. -/
theorem V_v45 (c : Dev nD) :
    (V (F := Ideal) m c main_v45 : IVec S64 32) = countsOf (m ((c : Thread nD τ).loc main_arg5)) := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- The packed rows in the 16-bit format: the array of the region's first window. -/
theorem V_v36 (c : Dev nD) :
    (V (F := Ideal) m c main_v36 : FVec Ideal S64x256x2048 .bf16)
      = truncf .bf16 (xeOf (m ((c : Thread nD τ).loc main_arg0)) (m ((c : Thread nD τ).loc main_arg5))) bitsLt_bf16_f32 := by
  dsimp only [V, V0]
  simp only [linesBefore, hostOps0, hostOps0_1, hostOps0_2, hostOps0_3, hostOps0_4, hostOps0_5, List.flatten_cons,
    List.flatten_nil, List.append_nil, List.cons_append, List.nil_append, cat2_fun]
  after_results_simp
  try simp only [TRef.toBuf, TRef.ofBuf, cast_eq]
  rfl

/-- The routing weights and the three weight arrays reach the region as launched. -/
theorem V_arg1 (c : Dev nD) : V (F := Ideal) m c main_arg1 = m ((c : Thread nD τ).loc main_arg1) := V_arg m c 1
theorem V_arg2 (c : Dev nD) : V (F := Ideal) m c main_arg2 = m ((c : Thread nD τ).loc main_arg2) := V_arg m c 2
theorem V_arg3 (c : Dev nD) : V (F := Ideal) m c main_arg3 = m ((c : Thread nD τ).loc main_arg3) := V_arg m c 3
theorem V_arg4 (c : Dev nD) : V (F := Ideal) m c main_arg4 = m ((c : Thread nD τ).loc main_arg4) := V_arg m c 4

end Cert.KernelIdeal.Hand
end
-- ==== Proof.KTail.lean ====
/-
  The lines after the region, as one function, and the kernel program's result through it.

  After the region each pair reads its row of the per-expert results at its (wrapped) expert and slot, the slot clamped
  to the last row; the row is scaled by the pair's routing weight, which is replaced by zero for a pair that does not
  fit; and the scaled rows are added up per token. These lines read six buffers: the region's result, the routing
  weights, and four tables of the routing prefix. From any buffer contents they compute one fixed function of the six;
  at the region's exit the region's result is what the pipeline left and the other five are what they were at its
  entry, which gives the program's result as that function of the launch arrays and the region's result.
-/
import proofs.«158005_j12481174962624_2_alg».proof.Proof.KEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable (m : (ℓ : Loc nD τ sig) → Buf (Elt Ideal) ℓ)

/-- The lines after the region as one function of the six buffers they read: the per-expert results y, the routing
    weights, and four tables of the routing prefix (the flattened choices, the pairs' tokens, their slots, and which of
    them fit). Each pair reads its row of y at (wrapped expert, wrapped slot clamped to the last row), scales it by its
    routing weight (zero for a pair that does not fit), and the scaled rows are added up per token. -/
def tailOf (y : FVec Ideal S64x256x2048 .f32) (tkw : FVec Ideal S1024x8 .f32) (ef tok pos : IVec S8192 32)
    (valid : IVec S8192 1) : FVec Ideal S1024x2048 .f32 :=
  Host.scatterAdd (F := Ideal) scatter_S1024x2048_S8192x1_S8192x2048_1_0_0_1
    (broadcastInDim S1024x2048 ![] bcast_S_S1024x2048 (constant (F := Ideal) S_ .f32 0x00000000#32))
    (col tok)
    (mulf
      (Host.gather gather_S64x256x2048_S8192x2_S8192x2048_1_01_n_n_01_1_112048 y
        (cat2 (col (wrapBy 64#32 ef)) (col (wrapBy 256#32 (minsi pos (splat 255#32))))))
      (broadcastInDim S8192x2048 ![0, 1] bcast_S8192x1_S8192x2048_0_1
        (broadcastInDim S8192x1 ![0] bcast_S8192_S8192x1_0
          (select valid (shapeCast S8192 tkw shapeCasts_S1024x8_S8192)
            (broadcastInDim S8192 ![] bcast_S_S8192 (id (constant (F := Ideal) S_ .f32 0x00000000#32)))))))

/-- The shared tail of the two programs, from the per-expert results, the routing weights and the expert choices. -/
def combineOf (y : FVec Ideal S64x256x2048 .f32) (tkw : FVec Ideal S1024x8 .f32)
    (idx : (⟨S1024x8, .i32⟩ : BufTy).Contents (Elt Ideal)) : FVec Ideal S1024x2048 .f32 :=
  tailOf y tkw (eflatOf idx) tokOf (posOf (eflatOf idx)) (validOf (eflatOf idx))

/-- Equal buffers give equal results. -/
theorem tailOf_congr {y y' : FVec Ideal S64x256x2048 .f32} {tkw tkw' : FVec Ideal S1024x8 .f32}
    {ef ef' tok tok' pos pos' : IVec S8192 32} {valid valid' : IVec S8192 1}
    (h1 : y = y') (h2 : tkw = tkw') (h3 : ef = ef') (h4 : tok = tok') (h5 : pos = pos') (h6 : valid = valid') :
    tailOf y tkw ef tok pos valid = tailOf y' tkw' ef' tok' pos' valid' := by
  subst h1 h2 h3 h4 h5 h6; rfl

/-- The lines after the region, from any buffer contents W, compute tailOf of the six buffers they read. -/
theorem tail_after (W : Valuation τ sig (Elt Ideal)) :
    (StableHlo.after (List.flatten (linesAfter (F := Ideal))) W (Proc.devRef .tc main_v70) : FVec Ideal S1024x2048 .f32)
      = tailOf (W (Proc.devRef .tc main_v46)) (W (Proc.devRef .tc main_arg1)) (W (Proc.devRef .tc main_v0))
          (W (Proc.devRef .tc main_v3)) (W (Proc.devRef .tc main_v9)) (W (Proc.devRef .tc main_v11)) := by
  simp only [linesAfter, hostOps1, hostOps1_1, hostOps1_2, List.flatten_cons,
    List.flatten_nil, List.append_nil, List.cons_append, List.nil_append, cat2_fun]
  after_results_simp
  try simp only [TRef.toBuf, TRef.ofBuf, cast_eq]
  rfl

/-- The kernel program's result: the shared tail of the region's result, the routing weights and the expert choices. -/
theorem result_eq (c : Dev nD) :
    (Pipeline.afterTail (pcfgs (F := Ideal)) (fun _ => adm m) (dats (F := Ideal) m) 0 (V0 m) (linesAfter (F := Ideal)) c main_v70 :
        FVec Ideal S1024x2048 .f32)
      = combineOf ((dats (F := Ideal) m 0 c).arrAt 4 (cfgM m).N) (m ((c : Thread nD τ).loc main_arg1))
          (m ((c : Thread nD τ).loc main_arg5)) := by
  unfold Pipeline.afterTail
  refine (tail_after _).trans ?_
  unfold combineOf
  exact tailOf_congr
    (Pipeline.withArrays_arr spec0 (launch0 (F := Ideal)).win.arr_inj c (V0 m c) _ 4)
    ((Pipeline.withArrays_of_ne spec0 c (V0 m c) _ main_arg1 (fun w => by fin_cases w <;> decide)).trans (V_arg1 m c))
    ((Pipeline.withArrays_of_ne spec0 c (V0 m c) _ main_v0 (fun w => by fin_cases w <;> decide)).trans (V_v0 m c))
    ((Pipeline.withArrays_of_ne spec0 c (V0 m c) _ main_v3 (fun w => by fin_cases w <;> decide)).trans (V_v3 m c))
    ((Pipeline.withArrays_of_ne spec0 c (V0 m c) _ main_v9 (fun w => by fin_cases w <;> decide)).trans (V_v9 m c))
    ((Pipeline.withArrays_of_ne spec0 c (V0 m c) _ main_v11 (fun w => by fin_cases w <;> decide)).trans (V_v11 m c))

end Cert.KernelIdeal.Hand
end
-- ==== Proof.KernelValue.lean ====
/-
  The kernel program's result as a function of its arguments.

  The region's result array is one whole-array function of the buffers the region finds; those buffers are the
  packed tokens (rounded to the narrow format), the per-expert counts and the three weight arrays as launched; and
  on them that function is the batched feed-forward block of the packed tokens. The lines after the region apply
  the combine step — gather each routed pair's row, scale it by its routing weight, sum per token — to it.
-/
import proofs.«158005_j12481174962624_2_alg».proof.Proof.Bridge
import proofs.«158005_j12481174962624_2_alg».proof.Proof.KEntry
import proofs.«158005_j12481174962624_2_alg».proof.Proof.KTail

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- What the lines after the region leave in the result buffer: the combine step applied to the batched feed-forward
    block of the packed tokens, all read off the argument arrays as launched. -/
theorem kernel_value (c : Dev nD) :
    Pipeline.afterTail pcfgs (fun _ => adm m) (dats (F := Ideal) m) 0 (V0 m) linesAfter c main_v70
      = combineOf (Cert.ReferenceIdeal.Hand.yRef
            (xeOf (m ((c : Thread nD τ).loc main_arg0)) (m ((c : Thread nD τ).loc main_arg5)))
            (m ((c : Thread nD τ).loc main_arg2)) (m ((c : Thread nD τ).loc main_arg3)) (m ((c : Thread nD τ).loc main_arg4)))
          (m ((c : Thread nD τ).loc main_arg1)) (m ((c : Thread nD τ).loc main_arg5)) := by
  rw [result_eq, final4, V_v36, V_v45, V_arg2, V_arg3, V_arg4, yK_eq_yRef]

end Cert.KernelIdeal.Hand

end
-- ==== Proof.RefRunOps.lean ====
/-
  The reference program's @main as one straight line of host operations, and its run.

  @main is printed in two consecutive windows and calls five module-local functions (the one-hot
  encoding of the expert indices, the running sum down the rows — which itself calls the windowed
  reduction —, the two `where` selections and the SiLU). A call executes the callee's body on the
  call's own buffers, so the program is a list of operations: each callee's operations stand at the
  call site, over the buffers the call's record names. The list has 102 operations; it is written
  in four consecutive stretches, cut where few buffers are still to be read, so that what a buffer
  holds at the end can be read off one stretch at a time. Run from any memory with zero counters,
  the program terminates and every buffer ends at the fold of the operations' results over the
  launch contents.
-/
import proofs.«158005_j12481174962624_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two one-column index tables side by side: the (first, second) pairs a scatter or a gather takes.
    (The concatenation named, its two operands plain arguments.) -/
def catPair (a b : IVec S8192x1 32) : IVec S8192x2 32 :=
  concatenate S8192x2 1 [⟨S8192x1, a⟩, ⟨S8192x1, b⟩] concatenates_S8192x1_S8192x1_S8192x2_d1

/-- Operations 1–26: the expert and token of each routed pair, the one-hot encoding, the running
    sum, each pair's rank within its expert, the capacity test and the slot. -/
abbrev ops1 : List (HloOp τ sig (Elt F)) :=
  ( StableHlo.reshape main_arg5 main_v0 rfl shapeCasts_S1024x8_S8192
  :: StableHlo.nullary main_v1 (iotaInDim S1024 32 0)
  :: StableHlo.unary main_v1 main_v2 (broadcastInDim S1024x8 ![0] bcast_S1024_S1024x8_0 : (⟨S1024, .i32⟩ : BufTy).Contents (Elt F) → (⟨S1024x8, .i32⟩ : BufTy).Contents (Elt F))
  :: StableHlo.reshape main_v2 main_v3 rfl shapeCasts_S1024x8_S8192
  :: StableHlo.TRef.unary (.of main_v0 : StableHlo.TRef sig ⟨S8192, .i32⟩) (.of main_call0_v0 : StableHlo.TRef sig ⟨S8192x1, .i32⟩) (broadcastInDim S8192x1 ![0] bcast_S8192_S8192x1_0)
  :: StableHlo.TRef.nullary (.of main_call0_v1 : StableHlo.TRef sig ⟨S1x64, .i32⟩) (iotaInDim S1x64 32 1)
  :: StableHlo.TRef.unary (.of main_call0_v0 : StableHlo.TRef sig ⟨S8192x1, .i32⟩) (.of main_call0_v2 : StableHlo.TRef sig ⟨S8192x64, .i32⟩) (broadcastInDim S8192x64 ![0, 1] bcast_S8192x1_S8192x64_0_1)
  :: StableHlo.TRef.unary (.of main_call0_v1 : StableHlo.TRef sig ⟨S1x64, .i32⟩) (.of main_call0_v3 : StableHlo.TRef sig ⟨S8192x64, .i32⟩) (broadcastInDim S8192x64 ![0, 1] bcast_S1x64_S8192x64_0_1)
  :: StableHlo.TRef.binary (.of main_call0_v2 : StableHlo.TRef sig ⟨S8192x64, .i32⟩) (.of main_call0_v3 : StableHlo.TRef sig ⟨S8192x64, .i32⟩) (.of main_call0_v4 : StableHlo.TRef sig ⟨S8192x64, .i1⟩) (cmpi .eq)
  :: StableHlo.TRef.unary (.of main_call0_v4 : StableHlo.TRef sig ⟨S8192x64, .i1⟩) (.of main_v4 : StableHlo.TRef sig ⟨S8192x64, .i32⟩) (extui 32 · natLt_1_32)
  :: StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v4 : StableHlo.TRef sig ⟨S8192x64, .i32⟩) (.of main_call1_call0_v0 : StableHlo.TRef sig ⟨S_, .i32⟩) (.of main_v5 : StableHlo.TRef sig ⟨S8192x64, .i32⟩) (fun x v => Host.reduceWindow IntOp.addi ![8192, 1] ![1, 1] ![8191, 0] ![0, 0] x v reduceWindows_S8192x64_S8192x64_w8192s1p8191_0_w1s1p0_0 h_S_)
  :: StableHlo.binary main_v5 main_v4 main_v6 (muli : (⟨S8192x64, .i32⟩ : BufTy).Contents (Elt F) → (⟨S8192x64, .i32⟩ : BufTy).Contents (Elt F) → (⟨S8192x64, .i32⟩ : BufTy).Contents (Elt F))
  :: StableHlo.nullary main_c (constantI S_ 32 0#32)
  :: StableHlo.binary main_v6 main_c main_v7 ((fun x v => Host.reduce IntOp.addi x v reducesTo_S8192x64_S8192_d1 h_S_) : (⟨S8192x64, .i32⟩ : BufTy).Contents (Elt F) → (⟨S_, .i32⟩ : BufTy).Contents (Elt F) → (⟨S8192, .i32⟩ : BufTy).Contents (Elt F))
  :: StableHlo.nullary main_c_0 (constantI S_ 32 1#32)
  :: StableHlo.unary main_c_0 main_v8 (broadcastInDim S8192 ![] bcast_S_S8192 : (⟨S_, .i32⟩ : BufTy).Contents (Elt F) → (⟨S8192, .i32⟩ : BufTy).Contents (Elt F))
  :: StableHlo.binary main_v7 main_v8 main_v9 (subi : (⟨S8192, .i32⟩ : BufTy).Contents (Elt F) → (⟨S8192, .i32⟩ : BufTy).Contents (Elt F) → (⟨S8192, .i32⟩ : BufTy).Contents (Elt F))
  :: StableHlo.nullary main_c_1 (constantI S_ 32 256#32)
  :: StableHlo.unary main_c_1 main_v10 (broadcastInDim S8192 ![] bcast_S_S8192 : (⟨S_, .i32⟩ : BufTy).Contents (Elt F) → (⟨S8192, .i32⟩ : BufTy).Contents (Elt F))
  :: StableHlo.binary main_v9 main_v10 main_v11 (cmpi .slt : (⟨S8192, .i32⟩ : BufTy).Contents (Elt F) → (⟨S8192, .i32⟩ : BufTy).Contents (Elt F) → (⟨S8192, .i1⟩ : BufTy).Contents (Elt F))
  :: StableHlo.nullary main_c_2 (constantI S_ 32 256#32)
  :: StableHlo.TRef.unary (.of main_c_2 : StableHlo.TRef sig ⟨S_, .i32⟩) (.of main_call2_v0 : StableHlo.TRef sig ⟨S_, .i32⟩) id
  :: StableHlo.TRef.unary (.of main_call2_v0 : StableHlo.TRef sig ⟨S_, .i32⟩) (.of main_call2_v1 : StableHlo.TRef sig ⟨S8192, .i32⟩) (broadcastInDim S8192 ![] bcast_S_S8192)
  :: StableHlo.TRef.ternary (.of main_v11 : StableHlo.TRef sig ⟨S8192, .i1⟩) (.of main_v9 : StableHlo.TRef sig ⟨S8192, .i32⟩) (.of main_call2_v1 : StableHlo.TRef sig ⟨S8192, .i32⟩) (.of main_v12 : StableHlo.TRef sig ⟨S8192, .i32⟩) select
  :: [] )

/-- Operations 27–56: the gather of the token rows, the (expert, slot) index pairs, the
    scatter-add into the zero array of 257 rows per expert and its first 256 rows. -/
abbrev ops2 : List (HloOp τ sig (Elt F)) :=
  ( StableHlo.nullary main_cst (constant S_ .f32 0x00000000#32)
  :: StableHlo.unary main_cst main_v13 (broadcastInDim S64x257x2048 ![] bcast_S_S64x257x2048 : (⟨S_, .f32⟩ : BufTy).Contents (Elt F) → (⟨S64x257x2048, .f32⟩ : BufTy).Contents (Elt F))
  :: StableHlo.nullary main_c_3 (constantI S_ 32 0#32)
  :: StableHlo.unary main_c_3 main_v14 (broadcastInDim S8192 ![] bcast_S_S8192 : (⟨S_, .i32⟩ : BufTy).Contents (Elt F) → (⟨S8192, .i32⟩ : BufTy).Contents (Elt F))
  :: StableHlo.binary main_v3 main_v14 main_v15 (cmpi .slt : (⟨S8192, .i32⟩ : BufTy).Contents (Elt F) → (⟨S8192, .i32⟩ : BufTy).Contents (Elt F) → (⟨S8192, .i1⟩ : BufTy).Contents (Elt F))
  :: StableHlo.nullary main_c_4 (constantI S_ 32 1024#32)
  :: StableHlo.unary main_c_4 main_v16 (broadcastInDim S8192 ![] bcast_S_S8192 : (⟨S_, .i32⟩ : BufTy).Contents (Elt F) → (⟨S8192, .i32⟩ : BufTy).Contents (Elt F))
  :: StableHlo.binary main_v3 main_v16 main_v17 (addi : (⟨S8192, .i32⟩ : BufTy).Contents (Elt F) → (⟨S8192, .i32⟩ : BufTy).Contents (Elt F) → (⟨S8192, .i32⟩ : BufTy).Contents (Elt F))
  :: StableHlo.ternary main_v15 main_v17 main_v3 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v18 main_v19 (broadcastInDim S8192x1 ![0] bcast_S8192_S8192x1_0 : (⟨S8192, .i32⟩ : BufTy).Contents (Elt F) → (⟨S8192x1, .i32⟩ : BufTy).Contents (Elt F))
  :: StableHlo.binary main_arg0 main_v19 main_v20 ((fun x i => Host.gather gather_S1024x2048_S8192x1_S8192x2048_1_0_n_n_0_1_12048 x i) : (⟨S1024x2048, .f32⟩ : BufTy).Contents (Elt F) → (⟨S8192x1, .i32⟩ : BufTy).Contents (Elt F) → (⟨S8192x2048, .f32⟩ : BufTy).Contents (Elt F))
  :: StableHlo.nullary main_c_5 (constantI S_ 32 0#32)
  :: StableHlo.unary main_c_5 main_v21 (broadcastInDim S8192 ![] bcast_S_S8192 : (⟨S_, .i32⟩ : BufTy).Contents (Elt F) → (⟨S8192, .i32⟩ : BufTy).Contents (Elt F))
  :: StableHlo.binary main_v0 main_v21 main_v22 (cmpi .slt : (⟨S8192, .i32⟩ : BufTy).Contents (Elt F) → (⟨S8192, .i32⟩ : BufTy).Contents (Elt F) → (⟨S8192, .i1⟩ : BufTy).Contents (Elt F))
  :: StableHlo.nullary main_c_6 (constantI S_ 32 64#32)
  :: StableHlo.unary main_c_6 main_v23 (broadcastInDim S8192 ![] bcast_S_S8192 : (⟨S_, .i32⟩ : BufTy).Contents (Elt F) → (⟨S8192, .i32⟩ : BufTy).Contents (Elt F))
  :: StableHlo.binary main_v0 main_v23 main_v24 (addi : (⟨S8192, .i32⟩ : BufTy).Contents (Elt F) → (⟨S8192, .i32⟩ : BufTy).Contents (Elt F) → (⟨S8192, .i32⟩ : BufTy).Contents (Elt F))
  :: StableHlo.ternary main_v22 main_v24 main_v0 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_7 (constantI S_ 32 0#32)
  :: StableHlo.unary main_c_7 main_v26 (broadcastInDim S8192 ![] bcast_S_S8192 : (⟨S_, .i32⟩ : BufTy).Contents (Elt F) → (⟨S8192, .i32⟩ : BufTy).Contents (Elt F))
  :: StableHlo.binary main_v12 main_v26 main_v27 (cmpi .slt : (⟨S8192, .i32⟩ : BufTy).Contents (Elt F) → (⟨S8192, .i32⟩ : BufTy).Contents (Elt F) → (⟨S8192, .i1⟩ : BufTy).Contents (Elt F))
  :: StableHlo.nullary main_c_8 (constantI S_ 32 257#32)
  :: StableHlo.unary main_c_8 main_v28 (broadcastInDim S8192 ![] bcast_S_S8192 : (⟨S_, .i32⟩ : BufTy).Contents (Elt F) → (⟨S8192, .i32⟩ : BufTy).Contents (Elt F))
  :: StableHlo.binary main_v12 main_v28 main_v29 (addi : (⟨S8192, .i32⟩ : BufTy).Contents (Elt F) → (⟨S8192, .i32⟩ : BufTy).Contents (Elt F) → (⟨S8192, .i32⟩ : BufTy).Contents (Elt F))
  :: StableHlo.ternary main_v27 main_v29 main_v12 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v25 main_v31 (broadcastInDim S8192x1 ![0] bcast_S8192_S8192x1_0 : (⟨S8192, .i32⟩ : BufTy).Contents (Elt F) → (⟨S8192x1, .i32⟩ : BufTy).Contents (Elt F))
  :: StableHlo.unary main_v30 main_v32 (broadcastInDim S8192x1 ![0] bcast_S8192_S8192x1_0 : (⟨S8192, .i32⟩ : BufTy).Contents (Elt F) → (⟨S8192x1, .i32⟩ : BufTy).Contents (Elt F))
  :: StableHlo.binary main_v31 main_v32 main_v33 (catPair : (⟨S8192x1, .i32⟩ : BufTy).Contents (Elt F) → (⟨S8192x1, .i32⟩ : BufTy).Contents (Elt F) → (⟨S8192x2, .i32⟩ : BufTy).Contents (Elt F))
  :: StableHlo.ternary main_v13 main_v33 main_v20 main_v34 ((fun x i u => Host.scatterAdd scatter_S64x257x2048_S8192x2_S8192x2048_1_01_01_1 x i u) : (⟨S64x257x2048, .f32⟩ : BufTy).Contents (Elt F) → (⟨S8192x2, .i32⟩ : BufTy).Contents (Elt F) → (⟨S8192x2048, .f32⟩ : BufTy).Contents (Elt F) → (⟨S64x257x2048, .f32⟩ : BufTy).Contents (Elt F))
  :: StableHlo.unary main_v34 main_v35 ((extractStridedSlice S64x256x2048 ![0, 0, 0] · slices_S64x257x2048_S64x256x2048_0_0_0) : (⟨S64x257x2048, .f32⟩ : BufTy).Contents (Elt F) → (⟨S64x256x2048, .f32⟩ : BufTy).Contents (Elt F))
  :: [] )

/-- Operations 57–69: the gate and up projections, SiLU of the gate, the product and the down
    projection. -/
abbrev ops3 : List (HloOp τ sig (Elt F)) :=
  ( StableHlo.binary main_v35 main_arg2 main_v36 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.binary main_v35 main_arg3 main_v37 ((fun l r => Host.dotGeneral dot_S64x256x2048_S64x768x2048_S64x256x768_2_2_1_1_0_0 none l r) : (⟨S64x256x2048, .f32⟩ : BufTy).Contents (Elt F) → (⟨S64x768x2048, .f32⟩ : BufTy).Contents (Elt F) → (⟨S64x256x768, .f32⟩ : BufTy).Contents (Elt F))
  :: StableHlo.TRef.unary (.of main_v36 : StableHlo.TRef sig ⟨S64x256x768, .f32⟩) (.of main_call3_v0 : StableHlo.TRef sig ⟨S64x256x768, .f32⟩) Host.negf
  :: StableHlo.TRef.unary (.of main_call3_v0 : StableHlo.TRef sig ⟨S64x256x768, .f32⟩) (.of main_call3_v1 : StableHlo.TRef sig ⟨S64x256x768, .f32⟩) Host.exp
  :: StableHlo.TRef.nullary (.of main_call3_cst : StableHlo.TRef sig ⟨S_, .f32⟩) (constant S_ .f32 0x3F800000#32)
  :: StableHlo.TRef.unary (.of main_call3_cst : StableHlo.TRef sig ⟨S_, .f32⟩) (.of main_call3_v2 : StableHlo.TRef sig ⟨S64x256x768, .f32⟩) (broadcastInDim S64x256x768 ![] bcast_S_S64x256x768)
  :: StableHlo.TRef.binary (.of main_call3_v2 : StableHlo.TRef sig ⟨S64x256x768, .f32⟩) (.of main_call3_v1 : StableHlo.TRef sig ⟨S64x256x768, .f32⟩) (.of main_call3_v3 : StableHlo.TRef sig ⟨S64x256x768, .f32⟩) addf
  :: StableHlo.TRef.nullary (.of main_call3_cst_0 : StableHlo.TRef sig ⟨S_, .f32⟩) (constant S_ .f32 0x3F800000#32)
  :: StableHlo.TRef.unary (.of main_call3_cst_0 : StableHlo.TRef sig ⟨S_, .f32⟩) (.of main_call3_v4 : StableHlo.TRef sig ⟨S64x256x768, .f32⟩) (broadcastInDim S64x256x768 ![] bcast_S_S64x256x768)
  :: StableHlo.TRef.binary (.of main_call3_v4 : StableHlo.TRef sig ⟨S64x256x768, .f32⟩) (.of main_call3_v3 : StableHlo.TRef sig ⟨S64x256x768, .f32⟩) (.of main_call3_v5 : StableHlo.TRef sig ⟨S64x256x768, .f32⟩) Host.divf
  :: StableHlo.TRef.binary (.of main_v36 : StableHlo.TRef sig ⟨S64x256x768, .f32⟩) (.of main_call3_v5 : StableHlo.TRef sig ⟨S64x256x768, .f32⟩) (.of main_v38 : StableHlo.TRef sig ⟨S64x256x768, .f32⟩) mulf
  :: StableHlo.binary main_v38 main_v37 main_v39 (mulf : (⟨S64x256x768, .f32⟩ : BufTy).Contents (Elt F) → (⟨S64x256x768, .f32⟩ : BufTy).Contents (Elt F) → (⟨S64x256x768, .f32⟩ : BufTy).Contents (Elt F))
  :: StableHlo.binary main_v39 main_arg4 main_v40 ((fun l r => Host.dotGeneral dot_S64x256x768_S64x2048x768_S64x256x2048_2_2_1_1_0_0 none l r) : (⟨S64x256x768, .f32⟩ : BufTy).Contents (Elt F) → (⟨S64x2048x768, .f32⟩ : BufTy).Contents (Elt F) → (⟨S64x256x2048, .f32⟩ : BufTy).Contents (Elt F))
  :: [] )

/-- Operations 70–102: the masked routing weights, the clamped slots, the gather of the result
    rows, the scaling and the sum per token by a scatter-add. -/
abbrev ops4 : List (HloOp τ sig (Elt F)) :=
  ( StableHlo.reshape main_arg1 main_v41 rfl shapeCasts_S1024x8_S8192
  :: StableHlo.nullary main_cst_9 (constant S_ .f32 0x00000000#32)
  :: StableHlo.TRef.unary (.of main_cst_9 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S8192, .f32⟩) (broadcastInDim S8192 ![] bcast_S_S8192)
  :: StableHlo.TRef.ternary (.of main_v11 : StableHlo.TRef sig ⟨S8192, .i1⟩) (.of main_v41 : StableHlo.TRef sig ⟨S8192, .f32⟩) (.of main_call4_v1 : StableHlo.TRef sig ⟨S8192, .f32⟩) (.of main_v42 : StableHlo.TRef sig ⟨S8192, .f32⟩) select
  :: StableHlo.nullary main_c_10 (constantI S_ 32 255#32)
  :: StableHlo.unary main_c_10 main_v43 (broadcastInDim S8192 ![] bcast_S_S8192 : (⟨S_, .i32⟩ : BufTy).Contents (Elt F) → (⟨S8192, .i32⟩ : BufTy).Contents (Elt F))
  :: StableHlo.binary main_v9 main_v43 main_v44 (minsi : (⟨S8192, .i32⟩ : BufTy).Contents (Elt F) → (⟨S8192, .i32⟩ : BufTy).Contents (Elt F) → (⟨S8192, .i32⟩ : BufTy).Contents (Elt F))
  :: StableHlo.nullary main_c_11 (constantI S_ 32 0#32)
  :: StableHlo.unary main_c_11 main_v45 (broadcastInDim S8192 ![] bcast_S_S8192 : (⟨S_, .i32⟩ : BufTy).Contents (Elt F) → (⟨S8192, .i32⟩ : BufTy).Contents (Elt F))
  :: StableHlo.binary main_v0 main_v45 main_v46 (cmpi .slt : (⟨S8192, .i32⟩ : BufTy).Contents (Elt F) → (⟨S8192, .i32⟩ : BufTy).Contents (Elt F) → (⟨S8192, .i1⟩ : BufTy).Contents (Elt F))
  :: StableHlo.nullary main_c_12 (constantI S_ 32 64#32)
  :: StableHlo.unary main_c_12 main_v47 (broadcastInDim S8192 ![] bcast_S_S8192 : (⟨S_, .i32⟩ : BufTy).Contents (Elt F) → (⟨S8192, .i32⟩ : BufTy).Contents (Elt F))
  :: StableHlo.binary main_v0 main_v47 main_v48 (addi : (⟨S8192, .i32⟩ : BufTy).Contents (Elt F) → (⟨S8192, .i32⟩ : BufTy).Contents (Elt F) → (⟨S8192, .i32⟩ : BufTy).Contents (Elt F))
  :: StableHlo.ternary main_v46 main_v48 main_v0 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_13 (constantI S_ 32 0#32)
  :: StableHlo.unary main_c_13 main_v50 (broadcastInDim S8192 ![] bcast_S_S8192 : (⟨S_, .i32⟩ : BufTy).Contents (Elt F) → (⟨S8192, .i32⟩ : BufTy).Contents (Elt F))
  :: StableHlo.binary main_v44 main_v50 main_v51 (cmpi .slt : (⟨S8192, .i32⟩ : BufTy).Contents (Elt F) → (⟨S8192, .i32⟩ : BufTy).Contents (Elt F) → (⟨S8192, .i1⟩ : BufTy).Contents (Elt F))
  :: StableHlo.nullary main_c_14 (constantI S_ 32 256#32)
  :: StableHlo.unary main_c_14 main_v52 (broadcastInDim S8192 ![] bcast_S_S8192 : (⟨S_, .i32⟩ : BufTy).Contents (Elt F) → (⟨S8192, .i32⟩ : BufTy).Contents (Elt F))
  :: StableHlo.binary main_v44 main_v52 main_v53 (addi : (⟨S8192, .i32⟩ : BufTy).Contents (Elt F) → (⟨S8192, .i32⟩ : BufTy).Contents (Elt F) → (⟨S8192, .i32⟩ : BufTy).Contents (Elt F))
  :: StableHlo.ternary main_v51 main_v53 main_v44 main_v54 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v49 main_v55 (broadcastInDim S8192x1 ![0] bcast_S8192_S8192x1_0 : (⟨S8192, .i32⟩ : BufTy).Contents (Elt F) → (⟨S8192x1, .i32⟩ : BufTy).Contents (Elt F))
  :: StableHlo.unary main_v54 main_v56 (broadcastInDim S8192x1 ![0] bcast_S8192_S8192x1_0 : (⟨S8192, .i32⟩ : BufTy).Contents (Elt F) → (⟨S8192x1, .i32⟩ : BufTy).Contents (Elt F))
  :: StableHlo.binary main_v55 main_v56 main_v57 (catPair : (⟨S8192x1, .i32⟩ : BufTy).Contents (Elt F) → (⟨S8192x1, .i32⟩ : BufTy).Contents (Elt F) → (⟨S8192x2, .i32⟩ : BufTy).Contents (Elt F))
  :: StableHlo.binary main_v40 main_v57 main_v58 ((fun x i => Host.gather gather_S64x256x2048_S8192x2_S8192x2048_1_01_n_n_01_1_112048 x i) : (⟨S64x256x2048, .f32⟩ : BufTy).Contents (Elt F) → (⟨S8192x2, .i32⟩ : BufTy).Contents (Elt F) → (⟨S8192x2048, .f32⟩ : BufTy).Contents (Elt F))
  :: StableHlo.unary main_v42 main_v59 (broadcastInDim S8192x1 ![0] bcast_S8192_S8192x1_0 : (⟨S8192, .f32⟩ : BufTy).Contents (Elt F) → (⟨S8192x1, .f32⟩ : BufTy).Contents (Elt F))
  :: StableHlo.unary main_v59 main_v60 (broadcastInDim S8192x2048 ![0, 1] bcast_S8192x1_S8192x2048_0_1 : (⟨S8192x1, .f32⟩ : BufTy).Contents (Elt F) → (⟨S8192x2048, .f32⟩ : BufTy).Contents (Elt F))
  :: StableHlo.binary main_v58 main_v60 main_v61 (mulf : (⟨S8192x2048, .f32⟩ : BufTy).Contents (Elt F) → (⟨S8192x2048, .f32⟩ : BufTy).Contents (Elt F) → (⟨S8192x2048, .f32⟩ : BufTy).Contents (Elt F))
  :: StableHlo.nullary main_cst_15 (constant S_ .f32 0x00000000#32)
  :: StableHlo.unary main_cst_15 main_v62 (broadcastInDim S1024x2048 ![] bcast_S_S1024x2048 : (⟨S_, .f32⟩ : BufTy).Contents (Elt F) → (⟨S1024x2048, .f32⟩ : BufTy).Contents (Elt F))
  :: StableHlo.unary main_v3 main_v63 (broadcastInDim S8192x1 ![0] bcast_S8192_S8192x1_0 : (⟨S8192, .i32⟩ : BufTy).Contents (Elt F) → (⟨S8192x1, .i32⟩ : BufTy).Contents (Elt F))
  :: StableHlo.ternary main_v62 main_v63 main_v61 main_v64 ((fun x i u => Host.scatterAdd scatter_S1024x2048_S8192x1_S8192x2048_1_0_0_1 x i u) : (⟨S1024x2048, .f32⟩ : BufTy).Contents (Elt F) → (⟨S8192x1, .i32⟩ : BufTy).Contents (Elt F) → (⟨S8192x2048, .f32⟩ : BufTy).Contents (Elt F) → (⟨S1024x2048, .f32⟩ : BufTy).Contents (Elt F))
  :: [] )

/-- @main's 102 operations in program order, the calls unfolded. -/
abbrev ops : List (HloOp τ sig (Elt F)) := ops1 ++ (ops2 ++ (ops3 ++ ops4))

set_option maxRecDepth 8192 in
set_option maxHeartbeats 4000000 in
/-- @main is that straight line: its two windows and the callees' bodies unfold, and sequencing
    reassociates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops1_sub : (ops1 : List (HloOp τ sig (Elt F))).Forall fun op => op.bufs ⊆ tcRefs τ sig :=
  ⟨
    reshape_bufs_sub .., nullary_bufs_sub .., unary_bufs_sub .., reshape_bufs_sub .., unary_bufs_sub .., nullary_bufs_sub ..,
    unary_bufs_sub .., unary_bufs_sub .., binary_bufs_sub .., unary_bufs_sub .., nullary_bufs_sub .., unary_bufs_sub ..,
    binary_bufs_sub .., binary_bufs_sub .., nullary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub ..⟩

set_option maxRecDepth 8192 in
theorem ops2_sub : (ops2 : List (HloOp τ sig (Elt F))).Forall fun op => op.bufs ⊆ tcRefs τ sig :=
  ⟨
    nullary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., ternary_bufs_sub .., unary_bufs_sub ..⟩

set_option maxRecDepth 8192 in
theorem ops3_sub : (ops3 : List (HloOp τ sig (Elt F))).Forall fun op => op.bufs ⊆ tcRefs τ sig :=
  ⟨
    binary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    binary_bufs_sub ..⟩

set_option maxRecDepth 8192 in
theorem ops4_sub : (ops4 : List (HloOp τ sig (Elt F))).Forall fun op => op.bufs ⊆ tcRefs τ sig :=
  ⟨
    reshape_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., unary_bufs_sub .., ternary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops1_sub op h, List.forall_iff_forall_mem.mp ops2_sub op h,
      List.forall_iff_forall_mem.mp ops3_sub op h, List.forall_iff_forall_mem.mp ops4_sub op h]

/-- On every device, for any float values, from any memory with zero counters: every weakly fair
    execution of @main terminates, and every TensorCore buffer ends at the operations' fold over
    the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.Hand

end
-- ==== Proof.RefRun.lean ====
/-
  The reference program's run, with its arguments left as they were.

  No operation of the program writes an argument array, so each argument's buffer holds at the
  end what it held at the launch; the result buffer holds the fold of the operations' results.
  The list of operations is four stretches; the fold over the whole list is the stretches' folds
  in turn, and each stretch passes an argument's contents on unchanged.
-/
import proofs.«158005_j12481174962624_2_alg».proof.Proof.RefRunOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two stretches in turn is the fold over their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole list is the stretches' folds in turn. -/
theorem after_ops (V : Valuation τ sig (Elt F)) :
    after ops V = after ops4 (after ops3 (after ops2 (after ops1 V))) := by
  simp only [ops, after_app]

set_option maxRecDepth 8192 in
set_option maxHeartbeats 4000000 in
/-- No operation writes argument 0. -/
theorem arg0_eq (V : Valuation τ sig (Elt F)) :
    after ops V (Proc.devRef .tc main_arg0) = V (Proc.devRef .tc main_arg0) := by
  rw [after_ops]
  after_results_simp

set_option maxRecDepth 8192 in
set_option maxHeartbeats 4000000 in
/-- No operation writes argument 1. -/
theorem arg1_eq (V : Valuation τ sig (Elt F)) :
    after ops V (Proc.devRef .tc main_arg1) = V (Proc.devRef .tc main_arg1) := by
  rw [after_ops]
  after_results_simp

set_option maxRecDepth 8192 in
set_option maxHeartbeats 4000000 in
/-- No operation writes argument 2. -/
theorem arg2_eq (V : Valuation τ sig (Elt F)) :
    after ops V (Proc.devRef .tc main_arg2) = V (Proc.devRef .tc main_arg2) := by
  rw [after_ops]
  after_results_simp

set_option maxRecDepth 8192 in
set_option maxHeartbeats 4000000 in
/-- No operation writes argument 3. -/
theorem arg3_eq (V : Valuation τ sig (Elt F)) :
    after ops V (Proc.devRef .tc main_arg3) = V (Proc.devRef .tc main_arg3) := by
  rw [after_ops]
  after_results_simp

set_option maxRecDepth 8192 in
set_option maxHeartbeats 4000000 in
/-- No operation writes argument 4. -/
theorem arg4_eq (V : Valuation τ sig (Elt F)) :
    after ops V (Proc.devRef .tc main_arg4) = V (Proc.devRef .tc main_arg4) := by
  rw [after_ops]
  after_results_simp

set_option maxRecDepth 8192 in
set_option maxHeartbeats 4000000 in
/-- No operation writes argument 5. -/
theorem arg5_eq (V : Valuation τ sig (Elt F)) :
    after ops V (Proc.devRef .tc main_arg5) = V (Proc.devRef .tc main_arg5) := by
  rw [after_ops]
  after_results_simp

/-- The six argument buffers, in order. -/
abbrev argRef : Fin 6 → Ref sig .tc := ![main_arg0, main_arg1, main_arg2, main_arg3, main_arg4, main_arg5]

/-- Each argument's buffer ends at its launch contents. -/
theorem args_kept (m : (ℓ : Loc nD τ sig) → Buf (Elt F) ℓ) (c : Dev nD) (k : Fin 6) :
    after ops (launchContents m c) (Proc.devRef .tc (argRef k)) = m ((c.tc : Thread nD τ).loc (argRef k)) := by
  fin_cases k
  · exact arg0_eq (launchContents m c)
  · exact arg1_eq (launchContents m c)
  · exact arg2_eq (launchContents m c)
  · exact arg3_eq (launchContents m c)
  · exact arg4_eq (launchContents m c)
  · exact arg5_eq (launchContents m c)

/-- On every device, for any float values, from any memory with zero counters: every weakly fair
    execution of @main terminates with the result buffer at the operations' fold over the launch
    contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v64) = after ops (launchContents m c) (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h c main_v64,
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_main m ρ)

end Cert.ReferenceIdeal.Hand

end
-- ==== Proof.RefBridge.lean ====
/-
  What the reference program computes from its six argument arrays, stage by stage; the program's
  result buffer read back at that value; and that value as the composition both programs share.

  The stages are the program's own: the routed (token, expert) pairs are numbered 0 … 8191 row-major
  over the 1024 × 8 table of expert indices; `pos` is each pair's rank among the pairs of the same
  expert (a running count down the one-hot columns), `keep` says whether that rank is below the
  capacity 256; `packed` scatters the token rows into the per-expert array (dropped pairs into an
  extra row 256 that is then sliced away); `mlp` is the gated feed-forward block applied to every
  row of the packed array; `combine` gathers each pair's result row, scales it by the pair's routing
  weight (zero for a dropped pair) and sums the rows of one token.

  The list of operations is read back one stretch at a time: from any contents of the buffers, a
  stretch leaves each of its results at a stage function of the contents it read and leaves alone
  what it does not write; chaining the four stretches gives the result buffer as `res` of the six
  arguments. The kernel's program runs the same host code around its feed-forward region, and its
  stages are defined over its own shapes and dimension records; those are the same literals, so
  each stage here is the corresponding stage there, and `res` is the shared tail of the reference's
  feed-forward chain of the shared packed array.
-/
import proofs.«158005_j12481174962624_2_alg».proof.Proof.RefRun
import proofs.«158005_j12481174962624_2_alg».proof.Proof.RPay
import proofs.«158005_j12481174962624_2_alg».proof.Proof.KTail

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A 32-bit constant at every routed pair. -/
def splat (k : BitVec 32) : IVec S8192 32 :=
  broadcastInDim S8192 ![] bcast_S_S8192 (constantI S_ 32 k)

/-- A vector over the pairs as a one-column table. -/
def col {α : Type} (v : S8192.Idx → α) : S8192x1.Idx → α :=
  broadcastInDim S8192x1 ![0] bcast_S8192_S8192x1_0 v

/-- An index made non-negative the way the host does it: `i + n` where `i < 0`, else `i`. -/
def wrap (n : BitVec 32) (i : IVec S8192 32) : IVec S8192 32 :=
  select (cmpi .slt i (splat 0#32)) (addi i (splat n)) i

/-- Each pair's expert: the index table read row-major. -/
def eid (a5 : IVec S1024x8 32) : IVec S8192 32 :=
  shapeCast S8192 a5 shapeCasts_S1024x8_S8192

/-- Each pair's token: the row number, repeated along the row, read row-major. -/
def tok : IVec S8192 32 :=
  shapeCast S8192 (broadcastInDim S1024x8 ![0] bcast_S1024_S1024x8_0 (iotaInDim S1024 32 0)) shapeCasts_S1024x8_S8192

/-- The one-hot encoding of the experts: 1 at (pair, its expert), else 0. -/
def onehot (a5 : IVec S1024x8 32) : IVec S8192x64 32 :=
  extui 32
    (cmpi .eq (broadcastInDim S8192x64 ![0, 1] bcast_S8192x1_S8192x64_0_1 (col (eid a5)))
      (broadcastInDim S8192x64 ![0, 1] bcast_S1x64_S8192x64_0_1 (iotaInDim S1x64 32 1)))
    natLt_1_32

/-- Each pair's rank among the pairs of its expert, from 0: the running sum down the one-hot
    columns, read at the pair's own column (the product with the one-hot row, summed), minus one. -/
def pos (a5 : IVec S1024x8 32) : IVec S8192 32 :=
  subi
    (Host.reduce IntOp.addi
      (muli
        (Host.reduceWindow IntOp.addi ![8192, 1] ![1, 1] ![8191, 0] ![0, 0] (onehot a5)
          (broadcastInDim S_ ![] bcast_S_S_ (constantI S_ 32 0#32))
          reduceWindows_S8192x64_S8192x64_w8192s1p8191_0_w1s1p0_0 h_S_)
        (onehot a5))
      (constantI S_ 32 0#32) reducesTo_S8192x64_S8192_d1 h_S_)
    (splat 1#32)

/-- Whether the pair fits its expert's capacity. -/
def keep (a5 : IVec S1024x8 32) : IVec S8192 1 :=
  cmpi .slt (pos a5) (splat 256#32)

/-- The row the pair is packed into: its rank, or the extra row 256 when it does not fit. -/
def slot (a5 : IVec S1024x8 32) : IVec S8192 32 :=
  select (keep a5) (pos a5) (splat 256#32)

/-- The (expert, row) index pairs of a scatter into, or a gather from, a per-expert array. -/
def pairIdx (e r : IVec S8192 32) : IVec S8192x2 32 :=
  catPair (col e) (col r)

/-- The per-expert array of packed token rows, of the activations and each pair's expert, token and
    slot: each pair's token row, scatter-added into zeros at (expert, slot), the extra row dropped. -/
def packedAt (a0 : FVec F S1024x2048 .f32) (e t s : IVec S8192 32) : FVec F S64x256x2048 .f32 :=
  extractStridedSlice S64x256x2048 ![0, 0, 0]
    (Host.scatterAdd scatter_S64x257x2048_S8192x2_S8192x2048_1_01_01_1
      (broadcastInDim S64x257x2048 ![] bcast_S_S64x257x2048 (constant S_ .f32 0x00000000#32))
      (pairIdx (wrap 64#32 e) (wrap 257#32 s))
      (Host.gather gather_S1024x2048_S8192x1_S8192x2048_1_0_n_n_0_1_12048 a0 (col (wrap 1024#32 t))))
    slices_S64x257x2048_S64x256x2048_0_0_0

/-- The packed array of the program's arguments. -/
def packed (a0 : FVec F S1024x2048 .f32) (a5 : IVec S1024x8 32) : FVec F S64x256x2048 .f32 :=
  packedAt a0 (eid a5) tok (slot a5)

/-- `g · 1 / (1 + exp (−g))`, element by element. -/
def silu (g : FVec F S64x256x768 .f32) : FVec F S64x256x768 .f32 :=
  mulf g
    (Host.divf (broadcastInDim S64x256x768 ![] bcast_S_S64x256x768 (constant S_ .f32 0x3F800000#32))
      (addf (broadcastInDim S64x256x768 ![] bcast_S_S64x256x768 (constant S_ .f32 0x3F800000#32))
        (Host.exp (Host.negf g))))

/-- The gated feed-forward block on every row of a per-expert array: the gate and up projections,
    SiLU of the gate times the up projection, the down projection. -/
def mlp (xe : FVec F S64x256x2048 .f32) (a2 a3 : FVec F S64x768x2048 .f32) (a4 : FVec F S64x2048x768 .f32) :
    FVec F S64x256x2048 .f32 :=
  Host.dotGeneral dot_S64x256x768_S64x2048x768_S64x256x2048_2_2_1_1_0_0 none
    (mulf (silu (Host.dotGeneral dot_S64x256x2048_S64x768x2048_S64x256x768_2_2_1_1_0_0 none xe a2))
      (Host.dotGeneral dot_S64x256x2048_S64x768x2048_S64x256x768_2_2_1_1_0_0 none xe a3))
    a4

/-- The output, of a per-expert result array, the routing weights and each pair's capacity test,
    rank, expert and token: each pair's result row (at its expert and its rank clamped to 255),
    scaled by the pair's weight (zero for a pair that does not fit), the rows of one token summed by
    a scatter-add into zeros. -/
def combineAt (y : FVec F S64x256x2048 .f32) (a1 : FVec F S1024x8 .f32) (k : IVec S8192 1) (p e t : IVec S8192 32) :
    FVec F S1024x2048 .f32 :=
  Host.scatterAdd scatter_S1024x2048_S8192x1_S8192x2048_1_0_0_1
    (broadcastInDim S1024x2048 ![] bcast_S_S1024x2048 (constant S_ .f32 0x00000000#32))
    (col t)
    (mulf
      (Host.gather gather_S64x256x2048_S8192x2_S8192x2048_1_01_n_n_01_1_112048 y
        (pairIdx (wrap 64#32 e) (wrap 256#32 (minsi p (splat 255#32)))))
      (broadcastInDim S8192x2048 ![0, 1] bcast_S8192x1_S8192x2048_0_1
        (col (select k (shapeCast S8192 a1 shapeCasts_S1024x8_S8192)
          (broadcastInDim S8192 ![] bcast_S_S8192 (constant S_ .f32 0x00000000#32))))))

/-- The output of the program's arguments and a per-expert result array. -/
def combine (y : FVec F S64x256x2048 .f32) (a1 : FVec F S1024x8 .f32) (a5 : IVec S1024x8 32) :
    FVec F S1024x2048 .f32 :=
  combineAt y a1 (keep a5) (pos a5) (eid a5) tok

/-- What @main returns, of its six arguments' contents. -/
def res (a0 : FVec F S1024x2048 .f32) (a1 : FVec F S1024x8 .f32) (a2 a3 : FVec F S64x768x2048 .f32)
    (a4 : FVec F S64x2048x768 .f32) (a5 : IVec S1024x8 32) : FVec F S1024x2048 .f32 :=
  combine (mlp (packed a0 a5) a2 a3 a4) a1 a5

/-! ## Each stretch read back

From any contents `V` of the device's buffers: what each stretch leaves in the buffers later
stretches read — its results as the stage functions of the contents it read, and the buffers it
does not write as they were. -/

section Stretches
attribute [local irreducible] Host.reduce Host.reduceWindow Host.gather Host.scatterAdd

theorem w1_v0 (V : Valuation τ sig (Elt F)) :
    after ops1 V (Proc.devRef .tc main_v0) = eid (V (Proc.devRef .tc main_arg5)) := by
  after_results_simp
  all_goals (try simp only [TRef.toBuf, TRef.ofBuf, cast_eq])
  all_goals rfl
theorem w1_v3 (V : Valuation τ sig (Elt F)) :
    after ops1 V (Proc.devRef .tc main_v3) = tok := by
  after_results_simp
  all_goals (try simp only [TRef.toBuf, TRef.ofBuf, cast_eq])
  all_goals rfl
theorem w1_v9 (V : Valuation τ sig (Elt F)) :
    after ops1 V (Proc.devRef .tc main_v9) = pos (V (Proc.devRef .tc main_arg5)) := by
  after_results_simp
  all_goals (try simp only [TRef.toBuf, TRef.ofBuf, cast_eq])
  all_goals rfl
theorem w1_v11 (V : Valuation τ sig (Elt F)) :
    after ops1 V (Proc.devRef .tc main_v11) = keep (V (Proc.devRef .tc main_arg5)) := by
  after_results_simp
  all_goals (try simp only [TRef.toBuf, TRef.ofBuf, cast_eq])
  all_goals rfl
theorem w1_v12 (V : Valuation τ sig (Elt F)) :
    after ops1 V (Proc.devRef .tc main_v12) = slot (V (Proc.devRef .tc main_arg5)) := by
  after_results_simp
  all_goals (try simp only [TRef.toBuf, TRef.ofBuf, cast_eq])
  all_goals rfl
theorem w1_arg0 (V : Valuation τ sig (Elt F)) :
    after ops1 V (Proc.devRef .tc main_arg0) = V (Proc.devRef .tc main_arg0) := by
  after_results_simp
theorem w1_arg1 (V : Valuation τ sig (Elt F)) :
    after ops1 V (Proc.devRef .tc main_arg1) = V (Proc.devRef .tc main_arg1) := by
  after_results_simp
theorem w1_arg2 (V : Valuation τ sig (Elt F)) :
    after ops1 V (Proc.devRef .tc main_arg2) = V (Proc.devRef .tc main_arg2) := by
  after_results_simp
theorem w1_arg3 (V : Valuation τ sig (Elt F)) :
    after ops1 V (Proc.devRef .tc main_arg3) = V (Proc.devRef .tc main_arg3) := by
  after_results_simp
theorem w1_arg4 (V : Valuation τ sig (Elt F)) :
    after ops1 V (Proc.devRef .tc main_arg4) = V (Proc.devRef .tc main_arg4) := by
  after_results_simp

theorem w2_v35 (V : Valuation τ sig (Elt F)) :
    after ops2 V (Proc.devRef .tc main_v35) = packedAt (V (Proc.devRef .tc main_arg0)) (V (Proc.devRef .tc main_v0)) (V (Proc.devRef .tc main_v3)) (V (Proc.devRef .tc main_v12)) := by
  after_results_simp
  all_goals (try simp only [TRef.toBuf, TRef.ofBuf, cast_eq])
  all_goals rfl
theorem w2_v0 (V : Valuation τ sig (Elt F)) :
    after ops2 V (Proc.devRef .tc main_v0) = V (Proc.devRef .tc main_v0) := by
  after_results_simp
theorem w2_v3 (V : Valuation τ sig (Elt F)) :
    after ops2 V (Proc.devRef .tc main_v3) = V (Proc.devRef .tc main_v3) := by
  after_results_simp
theorem w2_v9 (V : Valuation τ sig (Elt F)) :
    after ops2 V (Proc.devRef .tc main_v9) = V (Proc.devRef .tc main_v9) := by
  after_results_simp
theorem w2_v11 (V : Valuation τ sig (Elt F)) :
    after ops2 V (Proc.devRef .tc main_v11) = V (Proc.devRef .tc main_v11) := by
  after_results_simp
theorem w2_arg1 (V : Valuation τ sig (Elt F)) :
    after ops2 V (Proc.devRef .tc main_arg1) = V (Proc.devRef .tc main_arg1) := by
  after_results_simp
theorem w2_arg2 (V : Valuation τ sig (Elt F)) :
    after ops2 V (Proc.devRef .tc main_arg2) = V (Proc.devRef .tc main_arg2) := by
  after_results_simp
theorem w2_arg3 (V : Valuation τ sig (Elt F)) :
    after ops2 V (Proc.devRef .tc main_arg3) = V (Proc.devRef .tc main_arg3) := by
  after_results_simp
theorem w2_arg4 (V : Valuation τ sig (Elt F)) :
    after ops2 V (Proc.devRef .tc main_arg4) = V (Proc.devRef .tc main_arg4) := by
  after_results_simp

theorem w3_v40 (V : Valuation τ sig (Elt F)) :
    after ops3 V (Proc.devRef .tc main_v40) = mlp (V (Proc.devRef .tc main_v35)) (V (Proc.devRef .tc main_arg2)) (V (Proc.devRef .tc main_arg3)) (V (Proc.devRef .tc main_arg4)) := by
  after_results_simp
  all_goals (try simp only [TRef.toBuf, TRef.ofBuf, cast_eq])
  all_goals rfl
theorem w3_v0 (V : Valuation τ sig (Elt F)) :
    after ops3 V (Proc.devRef .tc main_v0) = V (Proc.devRef .tc main_v0) := by
  after_results_simp
theorem w3_v3 (V : Valuation τ sig (Elt F)) :
    after ops3 V (Proc.devRef .tc main_v3) = V (Proc.devRef .tc main_v3) := by
  after_results_simp
theorem w3_v9 (V : Valuation τ sig (Elt F)) :
    after ops3 V (Proc.devRef .tc main_v9) = V (Proc.devRef .tc main_v9) := by
  after_results_simp
theorem w3_v11 (V : Valuation τ sig (Elt F)) :
    after ops3 V (Proc.devRef .tc main_v11) = V (Proc.devRef .tc main_v11) := by
  after_results_simp
theorem w3_arg1 (V : Valuation τ sig (Elt F)) :
    after ops3 V (Proc.devRef .tc main_arg1) = V (Proc.devRef .tc main_arg1) := by
  after_results_simp

theorem w4_v64 (V : Valuation τ sig (Elt F)) :
    after ops4 V (Proc.devRef .tc main_v64) = combineAt (V (Proc.devRef .tc main_v40)) (V (Proc.devRef .tc main_arg1)) (V (Proc.devRef .tc main_v11)) (V (Proc.devRef .tc main_v9)) (V (Proc.devRef .tc main_v0)) (V (Proc.devRef .tc main_v3)) := by
  after_results_simp
  all_goals (try simp only [TRef.toBuf, TRef.ofBuf, cast_eq])
  all_goals rfl

end Stretches

/-! ## The whole line read back -/

/-- The result buffer ends at `res` of the arguments' contents. -/
theorem out_eq (V : Valuation τ sig (Elt F)) :
    after ops V (Proc.devRef .tc main_v64)
      = res (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_ops, w4_v64, w3_v40, w3_arg1, w3_v11, w3_v9, w3_v0, w3_v3,
    w2_v35, w2_arg2, w2_arg3, w2_arg4, w2_arg1, w2_v11, w2_v9, w2_v0, w2_v3,
    w1_arg0, w1_v0, w1_v3, w1_v12, w1_arg2, w1_arg3, w1_arg4, w1_arg1, w1_v11, w1_v9]
  rfl

/-! ## The stages are the kernel program's host stages

The two printed programs run the same host code around the feed-forward block, operation for
operation; each program's shapes are the same literals and its dimension records have the same
fields, so each stage of one is the corresponding stage of the other, by unfolding. -/

section Bridge

theorem splat_eq (k : BitVec 32) : splat k = Cert.KernelIdeal.Hand.splat k := rfl
theorem col_eq (v : IVec S8192 32) : col v = Cert.KernelIdeal.Hand.col v := rfl
theorem wrap_eq (n : BitVec 32) (i : IVec S8192 32) : wrap n i = Cert.KernelIdeal.Hand.wrapBy n i := rfl
theorem eid_eq (a5 : IVec S1024x8 32) : eid a5 = Cert.KernelIdeal.Hand.eflatOf a5 := rfl
theorem tok_eq : tok = Cert.KernelIdeal.Hand.tokOf := rfl
theorem catPair_eq (a b : IVec S8192x1 32) : catPair a b = Cert.KernelIdeal.Hand.cat2 a b := rfl
theorem onehot_eq (a5 : IVec S1024x8 32) : onehot a5 = Cert.KernelIdeal.Hand.onehotOf (Cert.KernelIdeal.Hand.eflatOf a5) := rfl
theorem pos_eq (a5 : IVec S1024x8 32) : pos a5 = Cert.KernelIdeal.Hand.posOf (Cert.KernelIdeal.Hand.eflatOf a5) := by
  unfold pos Cert.KernelIdeal.Hand.posOf Cert.KernelIdeal.Hand.rankOf Cert.KernelIdeal.Hand.csOf
  rw [onehot_eq, splat_eq]
theorem keep_eq (a5 : IVec S1024x8 32) : keep a5 = Cert.KernelIdeal.Hand.validOf (Cert.KernelIdeal.Hand.eflatOf a5) := by
  unfold keep Cert.KernelIdeal.Hand.validOf
  rw [pos_eq, splat_eq]
theorem slot_eq (a5 : IVec S1024x8 32) : slot a5 = Cert.KernelIdeal.Hand.pcOf (Cert.KernelIdeal.Hand.eflatOf a5) := by
  unfold slot Cert.KernelIdeal.Hand.pcOf
  rw [keep_eq, pos_eq]
  rfl

/-- The packed array of the reference is the kernel program's. -/
theorem packed_eq (a0 : FVec Ideal S1024x2048 .f32) (a5 : IVec S1024x8 32) : packed a0 a5 = Cert.KernelIdeal.Hand.xeOf a0 a5 := by
  unfold packed packedAt Cert.KernelIdeal.Hand.xeOf Cert.KernelIdeal.Hand.xePacked Cert.KernelIdeal.Hand.xe257Of Cert.KernelIdeal.Hand.sidxOf Cert.KernelIdeal.Hand.eidxOf Cert.KernelIdeal.Hand.pidxOf Cert.KernelIdeal.Hand.rowsOf
  rw [slot_eq, eid_eq, tok_eq]
  simp only [wrap_eq]
  all_goals rfl

/-- The feed-forward stage at the extended reals is the chain read index by index elsewhere. -/
theorem mlp_eq_yRef (xe : FVec Ideal S64x256x2048 .f32) (a2 a3 : FVec Ideal S64x768x2048 .f32) (a4 : FVec Ideal S64x2048x768 .f32) :
    mlp xe a2 a3 a4 = yRef xe a2 a3 a4 := rfl

/-- The output stage, of the tables it reads, is the kernel program's tail. -/
theorem combineAt_eq (y : FVec Ideal S64x256x2048 .f32) (a1 : FVec Ideal S1024x8 .f32) (k : IVec S8192 1) (p e t : IVec S8192 32) :
    combineAt y a1 k p e t = Cert.KernelIdeal.Hand.tailOf y a1 e t p k := by
  unfold combineAt Cert.KernelIdeal.Hand.tailOf pairIdx
  rw [catPair_eq, splat_eq]
  simp only [wrap_eq]
  all_goals rfl

/-- The output stage of the reference is the kernel program's. -/
theorem combine_eq (y : FVec Ideal S64x256x2048 .f32) (a1 : FVec Ideal S1024x8 .f32) (a5 : IVec S1024x8 32) :
    combine y a1 a5 = Cert.KernelIdeal.Hand.combineOf y a1 a5 := by
  unfold combine Cert.KernelIdeal.Hand.combineOf
  rw [combineAt_eq, keep_eq, pos_eq, eid_eq, tok_eq]

/-- What the reference returns is the shared tail of its feed-forward chain of the shared packed array. -/
theorem res_eq (a0 : FVec Ideal S1024x2048 .f32) (a1 : FVec Ideal S1024x8 .f32) (a2 a3 : FVec Ideal S64x768x2048 .f32)
    (a4 : FVec Ideal S64x2048x768 .f32) (a5 : IVec S1024x8 32) :
    res a0 a1 a2 a3 a4 a5 = Cert.KernelIdeal.Hand.combineOf (yRef (Cert.KernelIdeal.Hand.xeOf a0 a5) a2 a3 a4) a1 a5 := by
  unfold res
  rw [combine_eq, mlp_eq_yRef, packed_eq]

end Bridge

/-- The reference's result buffer, from the launch memory, at the extended reals: the shared tail of the
    feed-forward chain of the shared packed array, of the six argument arrays. -/
theorem ref_value_res (m' : (ℓ : Loc nD τ sig) → Buf (Elt Ideal) ℓ) (c : Dev nD) :
    (after (ops (F := Ideal)) (launchContents m' c) (Proc.devRef .tc main_v64) : FVec Ideal S1024x2048 .f32)
      = Cert.KernelIdeal.Hand.combineOf
          (yRef (Cert.KernelIdeal.Hand.xeOf (m' ((c.tc : Thread nD τ).loc main_arg0)) (m' ((c.tc : Thread nD τ).loc main_arg5)))
            (m' ((c.tc : Thread nD τ).loc main_arg2)) (m' ((c.tc : Thread nD τ).loc main_arg3))
            (m' ((c.tc : Thread nD τ).loc main_arg4)))
          (m' ((c.tc : Thread nD τ).loc main_arg1)) (m' ((c.tc : Thread nD τ).loc main_arg5)) :=
  (out_eq (launchContents m' c)).trans (res_eq _ _ _ _ _ _)

end Cert.ReferenceIdeal.Hand

end
-- ==== Proof.lean ====
/-
  A mixture-of-experts block: routed (token, expert) pairs are packed per expert into a buffer of 256 rows, each
  expert's rows go through a gated feed-forward block, and every token sums its experts' rows scaled by the routing
  weights. The kernel program computes the feed-forward block tile by tile (128 rows of one expert per grid point) and
  writes zeros for a tile that starts at or past the expert's row count; the reference computes it for every row at
  once. This module assembles the certificate.

  The three frames: each program terminates on every weakly fair execution, faults nowhere and leaves its arguments
  as launched — for the two kernel programs by the pipeline's launch theorem around the body's run at every grid
  point, for the reference by running its host operations in order. Nothing was rewritten on the way to the
  idealized kernel, so there is nothing to preserve. On the extended reals the two results are the same function of
  the arguments: both are the combine step applied to the feed-forward block of the packed tokens — a skipped tile
  holds only zero rows, because pairs are packed from row 0 and the count is at least the number of packed rows, and
  the block sends the zero row to zero (every product with 0 is 0 on the extended reals, so no finiteness is used).
-/
import proofs.«158005_j12481174962624_2_alg».proof.Defs
import proofs.«158005_j12481174962624_2_alg».proof.Proof.Gen.Kernel
import proofs.«158005_j12481174962624_2_alg».proof.Proof.Gen.KernelIdeal
import proofs.«158005_j12481174962624_2_alg».proof.Proof.Gen.ReferenceIdeal
import proofs.«158005_j12481174962624_2_alg».proof.Proof.Gen.Pre_finite_inputs
import proofs.«158005_j12481174962624_2_alg».proof.Proof.BFrame.Claim
import proofs.«158005_j12481174962624_2_alg».proof.Proof.KFrame.Result
import proofs.«158005_j12481174962624_2_alg».proof.Proof.KernelValue
import proofs.«158005_j12481174962624_2_alg».proof.Proof.RefRun
import proofs.«158005_j12481174962624_2_alg».proof.Proof.RefBridge
import Idealize.ShloMosaic.Adequacy
import Idealize.ShloMosaic.Init

noncomputable section

namespace Cert.Proof

open Idealize.ShloMosaic Idealize.SL.Sem

/-- The word-level kernel program runs and keeps its arguments. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference is host operations only: its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealized kernel is the printed kernel read at the ideal instance: no operation was rewritten. -/
theorem preserves : Cert.preserves_Kernel_KernelIdeal := trivial

/-- From memories agreeing on the arguments both idealized programs end with the same result: the combine step of the
    feed-forward block of the packed tokens. -/
theorem algebraic : Cert.algebraic_KernelIdeal_ReferenceIdeal := by
  intro m ρ m' ρ' _ hagree
  refine ⟨fun (c : Dev Cert.KernelIdeal.nD) => Cert.KernelIdeal.Hand.combineOf
      (Cert.ReferenceIdeal.Hand.yRef (Cert.KernelIdeal.Hand.xeOf (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.ref_value_res, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
